-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x96x96 : Shape := ⟨4, ![2, 256, 96, 96]⟩
abbrev S_ : Shape := ⟨0, ![]⟩

class Facts : Prop where
  bcast_S_S2x256x96x96 : S_.BroadcastsInDim S2x256x96x96 (![] : Fin 0 → Fin S2x256x96x96.rank)
  reducesTo_S2x256x96x96_S_d0_1_2_3 : S2x256x96x96.ReducesTo [0, 1, 2, 3] S_
  h_S_ : 0 < S_.numel

variable [Facts]

def fn {F : FTy → Type} [FloatOps F] (main_arg0 : FVec F S2x256x96x96 .f32) (main_arg1 : FVec F S2x256x96x96 .f32) : IVec S_ 1 :=
  let main_v0 : FVec F S2x256x96x96 .f32 := Host.absf main_arg0
  let main_cst : FVec F S_ .f32 := constant S_ .f32 0x7F800000#32
  let main_v1 : FVec F S2x256x96x96 .f32 := broadcastInDim S2x256x96x96 ![] bcast_S_S2x256x96x96 main_cst
  let main_v2 : IVec S2x256x96x96 1 := cmpf .olt main_v0 main_v1
  let main_c : IVec S_ 1 := constantI S_ 1 1#1
  let main_v3 : IVec S_ 1 := (fun x v => Host.reduce IntOp.andi x v reducesTo_S2x256x96x96_S_d0_1_2_3 h_S_) main_v2 main_c
  let main_v4 : FVec F S2x256x96x96 .f32 := Host.absf main_arg1
  let main_cst_0 : FVec F S_ .f32 := constant S_ .f32 0x7F800000#32
  let main_v5 : FVec F S2x256x96x96 .f32 := broadcastInDim S2x256x96x96 ![] bcast_S_S2x256x96x96 main_cst_0
  let main_v6 : IVec S2x256x96x96 1 := cmpf .olt main_v4 main_v5
  let main_c_1 : IVec S_ 1 := constantI S_ 1 1#1
  let main_v7 : IVec S_ 1 := (fun x v => Host.reduce IntOp.andi x v reducesTo_S2x256x96x96_S_d0_1_2_3 h_S_) main_v6 main_c_1
  let main_v8 : IVec S_ 1 := andi main_v3 main_v7
  main_v8
-- ==== Kernel.lean ====
abbrev S2x256x96x96 : Shape := ⟨4, ![2, 256, 96, 96]⟩
abbrev S_ : Shape := ⟨0, ![]⟩
abbrev S256 : Shape := ⟨1, ![256]⟩
abbrev S1x256x1x1 : Shape := ⟨4, ![1, 256, 1, 1]⟩
abbrev S2x96x96 : Shape := ⟨3, ![2, 96, 96]⟩
abbrev S2x1x96x96 : Shape := ⟨4, ![2, 1, 96, 96]⟩
abbrev S2x256x9216 : Shape := ⟨3, ![2, 256, 9216]⟩
abbrev S2x9216x1 : Shape := ⟨3, ![2, 9216, 1]⟩
abbrev S1x256x1536 : Shape := ⟨3, ![1, 256, 1536]⟩
abbrev S1x1536x1 : Shape := ⟨3, ![1, 1536, 1]⟩
abbrev S1536x1 : Shape := ⟨2, ![1536, 1]⟩
abbrev S256x1536 : Shape := ⟨2, ![256, 1536]⟩
abbrev S1536x1536 : Shape := ⟨2, ![1536, 1536]⟩
abbrev S1536 : Shape := ⟨1, ![1536]⟩
abbrev S2x1x9216 : Shape := ⟨3, ![2, 1, 9216]⟩
abbrev S1x1x1536 : Shape := ⟨3, ![1, 1, 1536]⟩
abbrev S1x1536 : Shape := ⟨2, ![1, 1536]⟩
abbrev S2x1 : Shape := ⟨2, ![2, 1]⟩
abbrev S2 : Shape := ⟨1, ![2]⟩

abbrev nBuf : Space → Nat
  | .hbm => 52
  | .vmem => 27
  | .smem => 0
  | _ => 0

abbrev bufTy : (tb : Table) → Fin (tcTables nBuf tb) → BufTy
  | .hbm, ⟨0, _⟩ => ⟨S2x256x96x96, .f32⟩
  | .hbm, ⟨1, _⟩ => ⟨S2x256x96x96, .f32⟩
  | .hbm, ⟨2, _⟩ => ⟨S_, .f32⟩
  | .hbm, ⟨3, _⟩ => ⟨S256, .f32⟩
  | .hbm, ⟨4, _⟩ => ⟨S1x256x1x1, .f32⟩
  | .hbm, ⟨5, _⟩ => ⟨S_, .f32⟩
  | .hbm, ⟨6, _⟩ => ⟨S1x256x1x1, .f32⟩
  | .hbm, ⟨7, _⟩ => ⟨S1x256x1x1, .f32⟩
  | .hbm, ⟨8, _⟩ => ⟨S2x256x96x96, .f32⟩
  | .hbm, ⟨9, _⟩ => ⟨S2x256x96x96, .f32⟩
  | .hbm, ⟨10, _⟩ => ⟨S2x256x96x96, .f32⟩
  | .hbm, ⟨11, _⟩ => ⟨S2x256x96x96, .f32⟩
  | .hbm, ⟨12, _⟩ => ⟨S2x256x96x96, .f32⟩
  | .hbm, ⟨13, _⟩ => ⟨S_, .f32⟩
  | .hbm, ⟨14, _⟩ => ⟨S2x96x96, .f32⟩
  | .hbm, ⟨15, _⟩ => ⟨S2x1x96x96, .f32⟩
  | .hbm, ⟨16, _⟩ => ⟨S2x1x96x96, .f32⟩
  | .hbm, ⟨17, _⟩ => ⟨S2x256x96x96, .f32⟩
  | .hbm, ⟨18, _⟩ => ⟨S_, .f32⟩
  | .hbm, ⟨19, _⟩ => ⟨S2x96x96, .f32⟩
  | .hbm, ⟨20, _⟩ => ⟨S2x1x96x96, .f32⟩
  | .hbm, ⟨21, _⟩ => ⟨S2x1x96x96, .f32⟩
  | .hbm, ⟨22, _⟩ => ⟨S_, .f32⟩
  | .hbm, ⟨23, _⟩ => ⟨S2x1x96x96, .f32⟩
  | .hbm, ⟨24, _⟩ => ⟨S2x1x96x96, .f32⟩
  | .hbm, ⟨25, _⟩ => ⟨S2x256x96x96, .f32⟩
  | .hbm, ⟨26, _⟩ => ⟨S2x256x96x96, .f32⟩
  | .hbm, ⟨27, _⟩ => ⟨S_, .f32⟩
  | .hbm, ⟨28, _⟩ => ⟨S2x1x96x96, .f32⟩
  | .hbm, ⟨29, _⟩ => ⟨S2x1x96x96, .f32⟩
  | .hbm, ⟨30, _⟩ => ⟨S2x256x96x96, .f32⟩
  | .hbm, ⟨31, _⟩ => ⟨S2x256x96x96, .f32⟩
  | .hbm, ⟨32, _⟩ => ⟨S2x256x9216, .f32⟩
  | .hbm, ⟨33, _⟩ => ⟨S2x256x9216, .f32⟩
  | .hbm, ⟨34, _⟩ => ⟨S2x9216x1, .f32⟩
  | .hbm, ⟨35, _⟩ => ⟨S2x9216x1, .f32⟩
  | .hbm, ⟨36, _⟩ => ⟨S2x1x9216, .f32⟩
  | .hbm, ⟨37, _⟩ => ⟨S_, .f32⟩
  | .hbm, ⟨38, _⟩ => ⟨S2x1, .f32⟩
  | .hbm, ⟨39, _⟩ => ⟨S_, .f32⟩
  | .hbm, ⟨40, _⟩ => ⟨S2x1, .f32⟩
  | .hbm, ⟨41, _⟩ => ⟨S2x1, .f32⟩
  | .hbm, ⟨42, _⟩ => ⟨S2, .f32⟩
  | .hbm, ⟨43, _⟩ => ⟨S_, .f32⟩
  | .hbm, ⟨44, _⟩ => ⟨S2, .f32⟩
  | .hbm, ⟨45, _⟩ => ⟨S2, .f32⟩
  | .hbm, ⟨46, _⟩ => ⟨S2, .f32⟩
  | .hbm, ⟨47, _⟩ => ⟨S2, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x1536x1, .f32⟩
  | .local _ .vmem, ⟨5, _⟩ => ⟨S1x1536x1, .f32⟩
  | .local _ .vmem, ⟨6, _⟩ => ⟨S1536x1, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x1536x1, .f32⟩
  | .local _ .vmem, ⟨12, _⟩ => ⟨S1x1536x1, .f32⟩
  | .local _ .vmem, ⟨13, _⟩ => ⟨S1x1536x1, .f32⟩
  | .local _ .vmem, ⟨14, _⟩ => ⟨S1x1536x1, .f32⟩
  | .local _ .vmem, ⟨15, _⟩ => ⟨S1536x1, .f32⟩
  | .local _ .vmem, ⟨16, _⟩ => ⟨S1x256x1536, .f32⟩
  | .local _ .vmem, ⟨17, _⟩ => ⟨S1x256x1536, .f32⟩
  | .local _ .vmem, ⟨18, _⟩ => ⟨S1x256x1536, .f32⟩
  | .local _ .vmem, ⟨19, _⟩ => ⟨S1x256x1536, .f32⟩
  | .local _ .vmem, ⟨20, _⟩ => ⟨S1x1536x1, .f32⟩
  | .local _ .vmem, ⟨21, _⟩ => ⟨S1x1536x1, .f32⟩
  | .local _ .vmem, ⟨22, _⟩ => ⟨S1x1536x1, .f32⟩
  | .local _ .vmem, ⟨23, _⟩ => ⟨S1x1536x1, .f32⟩
  | .local _ .vmem, ⟨24, _⟩ => ⟨S1x1x1536, .f32⟩
  | .local _ .vmem, ⟨25, _⟩ => ⟨S1x1x1536, .f32⟩
  | .local _ .vmem, ⟨26, _⟩ => ⟨S1x1536, .f32⟩
  | _, _ => ⟨S2x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨3, ![2, 6, 6], ![false, false, false]⟩

def k0_cond2 (i : grid0.Coords) : BitVec 1 :=
  let arg2 : BitVec 32 := BitVec.ofNat 32 (i 2).val
  let c5_i32 : BitVec 32 := 5#32
  let v17 : BitVec 1 := Scalar.cmpi .eq arg2 c5_i32
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 6, 6], ![false, false, false]⟩

def k1_cond2 (i : grid1.Coords) : BitVec 1 :=
  let arg2 : BitVec 32 := BitVec.ofNat 32 (i 2).val
  let c5_i32 : BitVec 32 := 5#32
  let v28 : BitVec 1 := Scalar.cmpi .eq arg2 c5_i32
  let v29 : BitVec 32 := Scalar.extui v28
  let c0_i32_18 : BitVec 32 := 0#32
  let v30 : BitVec 1 := Scalar.cmpi .ne v29 c0_i32_18
  v30

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1536x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1536x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 6, 6], ![false, false, false]⟩

def k2_cond2 (i : grid2.Coords) : BitVec 1 :=
  let arg2 : BitVec 32 := BitVec.ofNat 32 (i 2).val
  let c5_i32 : BitVec 32 := 5#32
  let v32 : BitVec 1 := Scalar.cmpi .eq arg2 c5_i32
  let v33 : BitVec 32 := Scalar.extui v32
  let c0_i32_21 : BitVec 32 := 0#32
  let v34 : BitVec 1 := Scalar.cmpi .ne v33 c0_i32_21
  v34

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage2_0 : Fin 2 → Memref sig .tc .vmem S1x256x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x256x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1536x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1536x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1x1536 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  reducesTo_S2x256x96x96_S256_d0_2_3 : S2x256x96x96.ReducesTo [0, 2, 3] S256
  h_S_ : 0 < S_.numel
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S2x256x96x96_0_1_2_3 : S1x256x1x1.BroadcastsInDim S2x256x96x96 (![0, 1, 2, 3] : Fin 4 → Fin S2x256x96x96.rank)
  reducesTo_S2x256x96x96_S2x96x96_d1 : S2x256x96x96.ReducesTo [1] S2x96x96
  bcast_S2x96x96_S2x1x96x96_0_2_3 : S2x96x96.BroadcastsInDim S2x1x96x96 (![0, 2, 3] : Fin 3 → Fin S2x1x96x96.rank)
  bcast_S_S2x1x96x96 : S_.BroadcastsInDim S2x1x96x96 (![] : Fin 0 → Fin S2x1x96x96.rank)
  bcast_S2x1x96x96_S2x256x96x96_0_1_2_3 : S2x1x96x96.BroadcastsInDim S2x256x96x96 (![0, 1, 2, 3] : Fin 4 → Fin S2x256x96x96.rank)
  shapeCasts_S2x256x96x96_S2x256x9216 : S2x256x96x96.ShapeCasts S2x256x9216
  inb_S1536x1_S1536x1_0_0 : ∀ a, (![0, 0] : Fin 2 → Nat) a + S1536x1.size a ≤ S1536x1.size a
  h_S1536x1 : 0 < S1536x1.numel
  shapeCasts_S1536x1_S1536x1 : S1536x1.ShapeCasts S1536x1
  inb_S1x256x1536_S1x256x1536_0_0_0 : ∀ a, (![0, 0, 0] : Fin 3 → Nat) a + S1x256x1536.size a ≤ S1x256x1536.size a
  h_S1x256x1536 : 0 < S1x256x1536.numel
  shapeCasts_S1x256x1536_S256x1536 : S1x256x1536.ShapeCasts S256x1536
  reduces_S1536x1536_S1536 : S1536x1536.Reduces [1] S1536
  shapeCasts_S1536_S1536x1 : S1536.ShapeCasts S1536x1
  inb_S1x1536x1_S1x1536x1_0_0_0 : ∀ a, (![0, 0, 0] : Fin 3 → Nat) a + S1x1536x1.size a ≤ S1x1536x1.size a
  h_S1x1536x1 : 0 < S1x1536x1.numel
  shapeCasts_S1x1536x1_S1536x1 : S1x1536x1.ShapeCasts S1536x1
  shapeCasts_S1536x1_S1x1536x1 : S1536x1.ShapeCasts S1x1536x1
  broadcasts_S1536x1_S1536x1536 : S1536x1.Broadcasts S1536x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reduces_S1536x1536_S1536_2 : S1536x1536.Reduces [0] S1536
  shapeCasts_S1536_S1x1536 : S1536.ShapeCasts S1x1536
  inb_S1x1x1536_S1x1x1536_0_0_0 : ∀ a, (![0, 0, 0] : Fin 3 → Nat) a + S1x1x1536.size a ≤ S1x1x1536.size a
  h_S1x1x1536 : 0 < S1x1x1536.numel
  shapeCasts_S1x1x1536_S1x1536 : S1x1x1536.ShapeCasts S1x1536
  shapeCasts_S1x1536_S1x1x1536 : S1x1536.ShapeCasts S1x1x1536
  reducesTo_S2x1x9216_S2x1_d2 : S2x1x9216.ReducesTo [2] S2x1
  bcast_S_S2x1 : S_.BroadcastsInDim S2x1 (![] : Fin 0 → Fin S2x1.rank)
  shapeCasts_S2x1_S2 : S2x1.ShapeCasts S2
  bcast_S_S2 : S_.BroadcastsInDim S2 (![] : Fin 0 → Fin S2.rank)
  reducesTo_S2_S_d0 : S2.ReducesTo [0] S_
  dot_S256x1536_S256x1536_S1536x1536_0_0_1_1_n_n_wf : DotDims.WF S256x1536 S256x1536 S1536x1536 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1536.size a ≤ S2x256x9216.size a
  hwx0_0 : ∀ i : grid0.Coords, EltTy.bits .f32 = 32 ∨ (Rect.block (s := S2x256x9216) S1x256x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1536.size a ≤ S2x256x9216.size a
  hwx0_1 : ∀ i : grid0.Coords, EltTy.bits .f32 = 32 ∨ (Rect.block (s := S2x256x9216) S1x256x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1536x1.size a ≤ S2x9216x1.size a
  hwx0_2 : ∀ i : grid0.Coords, EltTy.bits .f32 = 32 ∨ (Rect.block (s := S2x9216x1) S1x1536x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1536.size a ≤ S2x256x9216.size a
  hwx1_0 : ∀ i : grid1.Coords, EltTy.bits .f32 = 32 ∨ (Rect.block (s := S2x256x9216) S1x256x1536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1536.size a ≤ S2x256x9216.size a
  hwx1_1 : ∀ i : grid1.Coords, EltTy.bits .f32 = 32 ∨ (Rect.block (s := S2x256x9216) S1x256x1536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1536x1.size a ≤ S2x9216x1.size a
  hwx1_2 : ∀ i : grid1.Coords, EltTy.bits .f32 = 32 ∨ (Rect.block (s := S2x9216x1) S1x1536x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1536x1.size a ≤ S2x9216x1.size a
  hwx1_3 : ∀ i : grid1.Coords, EltTy.bits .f32 = 32 ∨ (Rect.block (s := S2x9216x1) S1x1536x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1536.size a ≤ S2x256x9216.size a
  hwx2_0 : ∀ i : grid2.Coords, EltTy.bits .f32 = 32 ∨ (Rect.block (s := S2x256x9216) S1x256x1536.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1536.size a ≤ S2x256x9216.size a
  hwx2_1 : ∀ i : grid2.Coords, EltTy.bits .f32 = 32 ∨ (Rect.block (s := S2x256x9216) S1x256x1536.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1536x1.size a ≤ S2x9216x1.size a
  hwx2_2 : ∀ i : grid2.Coords, EltTy.bits .f32 = 32 ∨ (Rect.block (s := S2x9216x1) S1x1536x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1536x1.size a ≤ S2x9216x1.size a
  hwx2_3 : ∀ i : grid2.Coords, EltTy.bits .f32 = 32 ∨ (Rect.block (s := S2x9216x1) S1x1536x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1536.size a ≤ S2x1x9216.size a
  hwx2_4 : ∀ i : grid2.Coords, EltTy.bits .f32 = 32 ∨ (Rect.block (s := S2x1x9216) S1x1x1536.size (cc2_transform_4 i) (hinb2_4 i)).WholeWords (EltTy.packing .f32)

variable [Facts₀]

def dot_S256x1536_S256x1536_S1536x1536_0_0_1_1_n_n : DotDims S256x1536 S256x1536 S1536x1536 where
  lhsContracting := [0]
  rhsContracting := [0]
  lhsNonContracting := [1]
  rhsNonContracting := [1]
  lhsBatch := []
  rhsBatch := []
  wf := dot_S256x1536_S256x1536_S1536x1536_0_0_1_1_n_n_wf

abbrev win0_0 : Pipeline.Window sig grid0 :=
  Pipeline.Window.ofSpec (Memref.whole main_v24) S1x256x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x256x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1536x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v24) S1x256x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1536x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x1536x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v24) S1x256x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x256x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1536x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x1536x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x1x1536.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S2x256x96x96 : Shape := ⟨4, ![2, 256, 96, 96]⟩
abbrev S_ : Shape := ⟨0, ![]⟩
abbrev S256 : Shape := ⟨1, ![256]⟩
abbrev S1x256x1x1 : Shape := ⟨4, ![1, 256, 1, 1]⟩
abbrev S2x96x96 : Shape := ⟨3, ![2, 96, 96]⟩
abbrev S2x1x96x96 : Shape := ⟨4, ![2, 1, 96, 96]⟩
abbrev S2x256x9216 : Shape := ⟨3, ![2, 256, 9216]⟩
abbrev S2x9216x9216 : Shape := ⟨3, ![2, 9216, 9216]⟩
abbrev S2x9216 : Shape := ⟨2, ![2, 9216]⟩
abbrev S2x9216x1 : Shape := ⟨3, ![2, 9216, 1]⟩
abbrev S2 : Shape := ⟨1, ![2]⟩

abbrev nBuf : Space → Nat
  | .hbm => 74
  | .vmem => 0
  | .smem => 0
  | _ => 0

abbrev bufTy : (tb : Table) → Fin (tcTables nBuf tb) → BufTy
  | .hbm, ⟨0, _⟩ => ⟨S2x256x96x96, .f32⟩
  | .hbm, ⟨1, _⟩ => ⟨S2x256x96x96, .f32⟩
  | .hbm, ⟨2, _⟩ => ⟨S_, .f32⟩
  | .hbm, ⟨3, _⟩ => ⟨S256, .f32⟩
  | .hbm, ⟨4, _⟩ => ⟨S1x256x1x1, .f32⟩
  | .hbm, ⟨5, _⟩ => ⟨S_, .f32⟩
  | .hbm, ⟨6, _⟩ => ⟨S1x256x1x1, .f32⟩
  | .hbm, ⟨7, _⟩ => ⟨S1x256x1x1, .f32⟩
  | .hbm, ⟨8, _⟩ => ⟨S2x256x96x96, .f32⟩
  | .hbm, ⟨9, _⟩ => ⟨S2x256x96x96, .f32⟩
  | .hbm, ⟨10, _⟩ => ⟨S2x256x96x96, .f32⟩
  | .hbm, ⟨11, _⟩ => ⟨S2x256x96x96, .f32⟩
  | .hbm, ⟨12, _⟩ => ⟨S2x256x96x96, .f32⟩
  | .hbm, ⟨13, _⟩ => ⟨S_, .f32⟩
  | .hbm, ⟨14, _⟩ => ⟨S2x96x96, .f32⟩
  | .hbm, ⟨15, _⟩ => ⟨S2x1x96x96, .f32⟩
  | .hbm, ⟨16, _⟩ => ⟨S2x1x96x96, .f32⟩
  | .hbm, ⟨17, _⟩ => ⟨S_, .f32⟩
  | .hbm, ⟨18, _⟩ => ⟨S2x1x96x96, .f32⟩
  | .hbm, ⟨19, _⟩ => ⟨S2x1x96x96, .f32⟩
  | .hbm, ⟨20, _⟩ => ⟨S2x256x96x96, .f32⟩
  | .hbm, ⟨21, _⟩ => ⟨S2x256x96x96, .f32⟩
  | .hbm, ⟨22, _⟩ => ⟨S2x256x96x96, .f32⟩
  | .hbm, ⟨23, _⟩ => ⟨S_, .f32⟩
  | .hbm, ⟨24, _⟩ => ⟨S2x96x96, .f32⟩
  | .hbm, ⟨25, _⟩ => ⟨S2x1x96x96, .f32⟩
  | .hbm, ⟨26, _⟩ => ⟨S2x1x96x96, .f32⟩
  | .hbm, ⟨27, _⟩ => ⟨S_, .f32⟩
  | .hbm, ⟨28, _⟩ => ⟨S2x1x96x96, .f32⟩
  | .hbm, ⟨29, _⟩ => ⟨S2x1x96x96, .f32⟩
  | .hbm, ⟨30, _⟩ => ⟨S2x256x96x96, .f32⟩
  | .hbm, ⟨31, _⟩ => ⟨S2x256x96x96, .f32⟩
  | .hbm, ⟨32, _⟩ => ⟨S2x256x9216, .f32⟩
  | .hbm, ⟨33, _⟩ => ⟨S2x256x9216, .f32⟩
  | .hbm, ⟨34, _⟩ => ⟨S2x9216x9216, .f32⟩
  | .hbm, ⟨35, _⟩ => ⟨S_, .f32⟩
  | .hbm, ⟨36, _⟩ => ⟨S2x9216x9216, .f32⟩
  | .hbm, ⟨37, _⟩ => ⟨S2x9216x9216, .f32⟩
  | .hbm, ⟨38, _⟩ => ⟨S_, .f32⟩
  | .hbm, ⟨39, _⟩ => ⟨S2x9216, .f32⟩
  | .hbm, ⟨40, _⟩ => ⟨S2x9216x1, .f32⟩
  | .hbm, ⟨41, _⟩ => ⟨S_, .f32⟩
  | .hbm, ⟨42, _⟩ => ⟨S2x9216x1, .f32⟩
  | .hbm, ⟨43, _⟩ => ⟨S2x9216x1, .f32⟩
  | .hbm, ⟨44, _⟩ => ⟨S2x9216x9216, .f32⟩
  | .hbm, ⟨45, _⟩ => ⟨S2x9216x9216, .f32⟩
  | .hbm, ⟨46, _⟩ => ⟨S_, .f32⟩
  | .hbm, ⟨47, _⟩ => ⟨S2x9216x9216, .f32⟩
  | .hbm, ⟨48, _⟩ => ⟨S2x9216x9216, .f32⟩
  | .hbm, ⟨49, _⟩ => ⟨S_, .f32⟩
  | .hbm, ⟨50, _⟩ => ⟨S2x9216x9216, .f32⟩
  | .hbm, ⟨51, _⟩ => ⟨S2x9216x9216, .f32⟩
  | .hbm, ⟨52, _⟩ => ⟨S2x9216x9216, .f32⟩
  | .hbm, ⟨53, _⟩ => ⟨S_, .f32⟩
  | .hbm, ⟨54, _⟩ => ⟨S2x9216, .f32⟩
  | .hbm, ⟨55, _⟩ => ⟨S2x9216x1, .f32⟩
  | .hbm, ⟨56, _⟩ => ⟨S2x9216x9216, .f32⟩
  | .hbm, ⟨57, _⟩ => ⟨S2x9216x9216, .f32⟩
  | .hbm, ⟨58, _⟩ => ⟨S_, .f32⟩
  | .hbm, ⟨59, _⟩ => ⟨S2x9216, .f32⟩
  | .hbm, ⟨60, _⟩ => ⟨S_, .f32⟩
  | .hbm, ⟨61, _⟩ => ⟨S2, .f32⟩
  | .hbm, ⟨62, _⟩ => ⟨S_, .f32⟩
  | .hbm, ⟨63, _⟩ => ⟨S2, .f32⟩
  | .hbm, ⟨64, _⟩ => ⟨S2, .f32⟩
  | .hbm, ⟨65, _⟩ => ⟨S_, .f32⟩
  | .hbm, ⟨66, _⟩ => ⟨S2, .f32⟩
  | .hbm, ⟨67, _⟩ => ⟨S2, .f32⟩
  | .hbm, ⟨68, _⟩ => ⟨S2, .f32⟩
  | .hbm, ⟨69, _⟩ => ⟨S2, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S2x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  reducesTo_S2x256x96x96_S256_d0_2_3 : S2x256x96x96.ReducesTo [0, 2, 3] S256
  h_S_ : 0 < S_.numel
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S2x256x96x96_0_1_2_3 : S1x256x1x1.BroadcastsInDim S2x256x96x96 (![0, 1, 2, 3] : Fin 4 → Fin S2x256x96x96.rank)
  reducesTo_S2x256x96x96_S2x96x96_d1 : S2x256x96x96.ReducesTo [1] S2x96x96
  bcast_S2x96x96_S2x1x96x96_0_2_3 : S2x96x96.BroadcastsInDim S2x1x96x96 (![0, 2, 3] : Fin 3 → Fin S2x1x96x96.rank)
  bcast_S_S2x1x96x96 : S_.BroadcastsInDim S2x1x96x96 (![] : Fin 0 → Fin S2x1x96x96.rank)
  bcast_S2x1x96x96_S2x256x96x96_0_1_2_3 : S2x1x96x96.BroadcastsInDim S2x256x96x96 (![0, 1, 2, 3] : Fin 4 → Fin S2x256x96x96.rank)
  shapeCasts_S2x256x96x96_S2x256x9216 : S2x256x96x96.ShapeCasts S2x256x9216
  bcast_S_S2x9216x9216 : S_.BroadcastsInDim S2x9216x9216 (![] : Fin 0 → Fin S2x9216x9216.rank)
  reducesTo_S2x9216x9216_S2x9216_d2 : S2x9216x9216.ReducesTo [2] S2x9216
  bcast_S2x9216_S2x9216x1_0_1 : S2x9216.BroadcastsInDim S2x9216x1 (![0, 1] : Fin 2 → Fin S2x9216x1.rank)
  bcast_S_S2x9216x1 : S_.BroadcastsInDim S2x9216x1 (![] : Fin 0 → Fin S2x9216x1.rank)
  bcast_S2x9216x1_S2x9216x9216_0_1_2 : S2x9216x1.BroadcastsInDim S2x9216x9216 (![0, 1, 2] : Fin 3 → Fin S2x9216x9216.rank)
  reducesTo_S2x9216x9216_S2x9216_d1 : S2x9216x9216.ReducesTo [1] S2x9216
  reducesTo_S2x9216_S2_d1 : S2x9216.ReducesTo [1] S2
  bcast_S_S2 : S_.BroadcastsInDim S2 (![] : Fin 0 → Fin S2.rank)
  reducesTo_S2_S_d0 : S2.ReducesTo [0] S_
  dot_S2x256x9216_S2x256x9216_S2x9216x9216_1_1_2_2_0_0_wf : DotDims.WF S2x256x9216 S2x256x9216 S2x9216x9216 [1] [1] [2] [2] [0] [0]

variable [Facts₀]

def dot_S2x256x9216_S2x256x9216_S2x9216x9216_1_1_2_2_0_0 : DotDims S2x256x9216 S2x256x9216 S2x9216x9216 where
  lhsContracting := [1]
  rhsContracting := [1]
  lhsNonContracting := [2]
  rhsNonContracting := [2]
  lhsBatch := [0]
  rhsBatch := [0]
  wf := dot_S2x256x9216_S2x256x9216_S2x9216x9216_1_1_2_2_0_0_wf

class Facts : Prop extends Facts₀ where

variable [Facts]
-- ==== Proof.KernelPassOneRuns.lean ====
/-
  The first pass of the kernel: for every batch entry and every block of 1536 queries the grid walks the six blocks of 1536
  keys; a column of running minima (one per query) lives in a scratch buffer across the six points: it is reset to +∞ at
  the first key block, lowered by the block's row minima of the distances at every point, and copied to the output block
  at the last. Here: which of the three behaviours each grid point shows (decided over the 72 points), where the output
  window is idle, and the body run in each of the three cases on any whole staging buffers.
-/
import proofs.«155866_j66176856097431_1_alg».proof.Proof.Gen.Kernel.Launch
import proofs.«155866_j66176856097431_1_alg».proof.Proof.Gen.Kernel.Skeleton
import proofs.«155866_j66176856097431_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.PassOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid -/

/-- "This is the first step of the reduction axis": the reset condition, from the grid coordinates. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 6 = 0 :=
  (by decide +kernel : ∀ t : Fin grid0.N, isFirst (grid0.coords t) ↔ t.val % 6 = 0)

/-- "This is the last step of the reduction axis": the write-out condition. -/
abbrev isLast (i : grid0.Coords) : Prop := k0_cond2 i = 1#1
theorem isLast_iff : ∀ t : Fin cfg0.N, isLast (grid0.coords t) ↔ t.val % 6 = 5 :=
  (by decide +kernel : ∀ t : Fin grid0.N, isLast (grid0.coords t) ↔ t.val % 6 = 5)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The body on any whole staging buffers, case by case -/

set_option maxHeartbeats 1000000 in
/-- First step (and not the last): the scratch may hold anything and ends holding the pieces the run finds; the output block is handed back untouched. -/
noncomputable def runFirst (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i)
    (x0 : Vec F S1x256x1536 .f32) (x1 : Vec F S1x256x1536 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare xiO ∗ (∃ d, owns (c : Thread nD τ) arg6 fullShare d)
            ∗ (iprop(owns (c : Thread nD τ) arg3 fullShare x0 ∗ owns (c : Thread nD τ) arg4 fullShare x1 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc0__pass1_kernel i arg3 harg3 arg4 harg4 arg5 harg5 arg6 harg6) K } := by
  refine ⟨[], ?_, fun xiO E K => ?run⟩
  case run =>
    simp only [cc0__pass1_kernel_eq_skeleton]; unfold cc0__pass1_kernel_skel
    unfold owns
    iintro ⟨⟨%f0, %hf0, H0⟩, ⟨%f1, %hf1, H1⟩, ⟨%fO, %hfO, HO⟩, ⟨%ds0, %fs0, -, HS0⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

set_option maxHeartbeats 1000000 in
/-- A middle step: the scratch holds what the point before left (`xs0`); the output block is handed back untouched. -/
noncomputable def runMid (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i)
    (x0 : Vec F S1x256x1536 .f32) (x1 : Vec F S1x256x1536 .f32) (xs0 : Vec F S1536x1 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare xiO ∗ owns (c : Thread nD τ) arg6 fullShare xs0
            ∗ (iprop(owns (c : Thread nD τ) arg3 fullShare x0 ∗ owns (c : Thread nD τ) arg4 fullShare x1 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc0__pass1_kernel i arg3 harg3 arg4 harg4 arg5 harg5 arg6 harg6) K } := by
  refine ⟨[], ?_, fun xiO E K => ?run⟩
  case run =>
    simp only [cc0__pass1_kernel_eq_skeleton]; unfold cc0__pass1_kernel_skel
    unfold owns
    iintro ⟨⟨%f0, %hf0, H0⟩, ⟨%f1, %hf1, H1⟩, ⟨%fO, %hfO, HO⟩, ⟨%fs0, %hfs0, HS0⟩, Hk⟩
    obtain rfl := harg3.eq_unread hf0; obtain rfl := harg4.eq_unread hf1; obtain rfl := harg5.eq_unread hfO; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

set_option maxHeartbeats 1000000 in
/-- The last step: the scratch holds `xs0`; the output block may hold anything and ends holding the pieces found. -/
noncomputable def runLast (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i)
    (x0 : Vec F S1x256x1536 .f32) (x1 : Vec F S1x256x1536 .f32) (xs0 : Vec F S1536x1 .f32) :
    Σ' (LO : List (View.Piece (Elt F) S1x1536x1 .f32)), { LS0 : List (View.Piece (Elt F) S1536x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1_kernel i arg3 harg3 arg4 harg4 arg5 harg5 arg6 harg6) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%dO, %fO, -, HO⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS0

end Cert.Kernel.PassOne

end
-- ==== Proof.KernelPassOne.lean ====
/-
  The first pass, point by point: what the output block and the column of running minima hold after each grid point (by
  recursion on the point: the first key block starts from the reset column, every later one from what the point before
  left), the invariant that carries the column from point to point, and the body's obligation at every point.
-/
import proofs.«155866_j66176856097431_1_alg».proof.Proof.KernelPassOneRuns

set_option maxRecDepth 16384

noncomputable section

namespace Cert.Kernel.PassOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of every buffer of the core when the pass is entered
variable (V : (c : Dev nD) → (b : Ref sig .tc) → Buf (Elt F) ((c : Thread nD τ).loc b))

/-- Window `w`'s block at point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the scratch -/

abbrev VO : View sig .tc .vmem S1x1536x1 .f32 := (Memref.whole cc0_stg2_0 : Memref sig .tc .vmem S1x1536x1 .f32).view
abbrev ms0 (t : Fin cfg0.N) : Memref sig .tc .vmem S1x256x1536 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1536 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1536x1 .f32 := win0_2.stage (cfg0.slots t 2)
abbrev hs2 (t : Fin cfg0.N) : (ms2 t).IsWhole := hstage0_2 ((cfg0.slots t 2).cast nbuf0_2)
abbrev scM : Memref sig .tc .vmem S1536x1 .f32 := Memref.whole cc0_scratch0
abbrev VS : View sig .tc .vmem S1536x1 .f32 := scM.view

/-- The scoped buffers of the core that are neither a staging buffer of this pass nor its scratch, at some contents. -/
abbrev others (c : Dev nD) : sProp 𝕄 :=
  Pipeline.scopedRestBut (Ix := Unit) (Name := ℕ) (U := Pipeline.UD sig nD τ) (Lvl := ℕ) (Val := Elt F) spec0 c [cc0_scratch0]

/-- The pass's class invariant with the scratch as a memref owned at some contents, beside the other scoped buffers and the
    generator register. -/
theorem PhiA_eq (c : Dev nD) :
    (Pipeline.ΦA (U := Pipeline.UD sig nD τ) spec0 c : sProp 𝕄)
      = iprop(iprop((∃ d, owns (c : Thread nD τ) scM fullShare d) ∗ others c) ∗ (∃ r, prngReg c r)) := by
  unfold Pipeline.ΦA
  rw [Pipeline.scopedRest_split_of_list (win := spec0) (c := c) [cc0_scratch0] (by decide) (by decide)]
  simp only [scM, owns_whole, BI.bigSepL_singleton]; try rfl

/-! ## What each case leaves -/

def outFirst (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) : Vec F S1x1536x1 .f32 :=
  VO.read (Elt F) (VO.writes (Elt F) VO.junk (runFirst c i arg3 harg3 arg4 harg4 arg5 harg5 arg6 harg6 hc0 hc1 x0 x1).1)
theorem scrFirst_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) (y : S1536x1.Idx) :
    ∃ pc ∈ (runFirst c i arg3 harg3 arg4 harg4 arg5 harg5 arg6 harg6 hc0 hc1 x0 x1).2.1, y ∈ pc.1.set :=
  View.cover_of_tiledL (runFirst c i arg3 harg3 arg4 harg4 arg5 harg5 arg6 harg6 hc0 hc1 x0 x1).2.1 S1536x1.size (by sl_kernel_rfl) y
def scrFirst (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) : Vec F S1536x1 .f32 :=
  VS.read (Elt F) (VS.writes (Elt F) VS.junk (runFirst c i arg3 harg3 arg4 harg4 arg5 harg5 arg6 harg6 hc0 hc1 x0 x1).2.1)

def outMid (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) : Vec F S1x1536x1 .f32 :=
  VO.read (Elt F) (VO.writes (Elt F) VO.junk (runMid c i arg3 harg3 arg4 harg4 arg5 harg5 arg6 harg6 hc0 hc1 x0 x1 xs0).1)
theorem scrMid_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) (y : S1536x1.Idx) :
    ∃ pc ∈ (runMid c i arg3 harg3 arg4 harg4 arg5 harg5 arg6 harg6 hc0 hc1 x0 x1 xs0).2.1, y ∈ pc.1.set :=
  View.cover_of_tiledL (runMid c i arg3 harg3 arg4 harg4 arg5 harg5 arg6 harg6 hc0 hc1 x0 x1 xs0).2.1 S1536x1.size (by sl_kernel_rfl) y
def scrMid (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) : Vec F S1536x1 .f32 :=
  VS.read (Elt F) (VS.writes (Elt F) VS.junk (runMid c i arg3 harg3 arg4 harg4 arg5 harg5 arg6 harg6 hc0 hc1 x0 x1 xs0).2.1)

theorem outLast_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) (y : S1x1536x1.Idx) :
    ∃ pc ∈ (runLast c i arg3 harg3 arg4 harg4 arg5 harg5 arg6 harg6 hc0 hc1 x0 x1 xs0).1, y ∈ pc.1.set :=
  View.cover_of_tiledL (runLast c i arg3 harg3 arg4 harg4 arg5 harg5 arg6 harg6 hc0 hc1 x0 x1 xs0).1 S1x1536x1.size (by sl_kernel_rfl) y
def outLast (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) : Vec F S1x1536x1 .f32 :=
  VO.read (Elt F) (VO.writes (Elt F) VO.junk (runLast c i arg3 harg3 arg4 harg4 arg5 harg5 arg6 harg6 hc0 hc1 x0 x1 xs0).1)
theorem scrLast_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) (y : S1536x1.Idx) :
    ∃ pc ∈ (runLast c i arg3 harg3 arg4 harg4 arg5 harg5 arg6 harg6 hc0 hc1 x0 x1 xs0).2.1, y ∈ pc.1.set :=
  View.cover_of_tiledL (runLast c i arg3 harg3 arg4 harg4 arg5 harg5 arg6 harg6 hc0 hc1 x0 x1 xs0).2.1 S1536x1.size (by sl_kernel_rfl) y
def scrLast (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) : Vec F S1536x1 .f32 :=
  VS.read (Elt F) (VS.writes (Elt F) VS.junk (runLast c i arg3 harg3 arg4 harg4 arg5 harg5 arg6 harg6 hc0 hc1 x0 x1 xs0).2.1)

/-! ## What the output block and the scratch hold after each point -/

/-- After the body at position `n`: (the output window's staging buffer, the scratch). The case the position selects, run at
    the point's buffers and input blocks, from the scratch the point before left. -/
def outsAt (c : Dev nD) : (n : ℕ) → n < cfg0.N → Vec F S1x1536x1 .f32 × Vec F S1536x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩), scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 6 = 0 then
      (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩), scrFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩))
    else
      if h1 : (n + 1) % 6 = 5 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2, scrLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
      else
        (outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2, scrMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

theorem outsAt_first (c : Dev nD) (t : Fin cfg0.N) (h0 : t.val % 6 = 0) (h1 : ¬t.val % 6 = 5) :
    outsAt V c t.val t.isLt = (outFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t), scrFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t)) := by
  obtain ⟨n, hn⟩ := t
  cases n with
  | zero => exact rfl
  | succ n => exact (dif_pos h0).trans rfl

theorem outsAt_mid (c : Dev nD) (t : Fin cfg0.N) (h0 : ¬t.val % 6 = 0) (h1 : ¬t.val % 6 = 5) :
    outsAt V c t.val t.isLt = (outMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2, scrMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 6 = 0) (h1 : t.val % 6 = 5) :
    outsAt V c t.val t.isLt = (outLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2, scrLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every scoped buffer at anything); afterwards
    the scratch at what the point before left in it, the other scoped buffers at anything, the generator register. -/
def PhiS (c : Dev nD) : (n : ℕ) → n ≤ cfg0.N → sProp 𝕄
  | 0, _ => Pipeline.ΦA (U := Pipeline.UD sig nD τ) spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA (U := Pipeline.UD sig nD τ) spec0 c := by
  subst hz; rfl
theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pass's proof data -/

/-- The arrays as the pass finds them; after the body each input's buffer at its block, the output's at `outsAt`; the
    invariant `PhiS`; nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_out (c : Dev nD) (t : Fin cfg0.N) : (dat V c).after 2 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the position's remainder modulo six says which case the
    point is in; the invariant hands the body the scratch at what the point before left (at anything at the very first
    point) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 72 := lt_of_lt_of_eq t.isLt (show cfg0.N = 72 from N_0)
  by_cases h0 : t.val % 6 = 0
  · have h1 : ¬t.val % 6 = 5 := by omega
    rw [show (dat V c).leavesExact 0 t = owns (c : Thread nD τ) (ms0 t) fullShare ((dat V c).after 0 t) from by
      unfold Dat.leavesExact; rw [live_0 t], after_0]
    rw [show (dat V c).leavesExact 1 t = owns (c : Thread nD τ) (ms1 t) fullShare ((dat V c).after 1 t) from by
      unfold Dat.leavesExact; rw [live_1 t], after_1]
    rw [Dat.leavesExact_idle (dat V c) 2 t (idle_out t (fun h => h1 ((isLast_iff t).mp h))) (noFlush_out t (fun h => h1 ((isLast_iff t).mp h)))]
    rw [outsAt_first V c t h0 h1]
    unfold scrFirst; (try dsimp only)
    by_cases hz : t.val = 0
    · rw [PhiS_castSucc V c t, PhiS_zero V c _ _ hz, PhiA_eq]
      iintro ⟨⟨⟨HS0, Hrest⟩, Hg⟩, Ho, ⟨%d0, H0⟩, ⟨%d1, H1⟩, ⟨%d2, H2⟩⟩
      iapply ((runFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((runFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 6 = 5
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_out t ((isLast_iff t).mpr h1)], after_out]
      rw [outsAt_last V c t h0 h1]
      unfold outLast scrLast; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrLast_cover c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [Dat.leavesExact_idle (dat V c) 2 t (idle_out t (fun h => h1 ((isLast_iff t).mp h))) (noFlush_out t (fun h => h1 ((isLast_iff t).mp h)))]
      rw [outsAt_mid V c t h0 h1]
      unfold scrMid; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrMid_cover c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the pass is entered with (the class's invariant) is the invariant before the first point. -/
theorem hin (c : Dev nD) : Pipeline.ΦA (U := Pipeline.UD sig nD τ) spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg0.N) ⊢ Pipeline.ΦA (U := Pipeline.UD sig nD τ) spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 72 := N_0; omega), PhiA_eq]
  iintro ⟨⟨HS0, Hrest⟩, Hg⟩
  isplitl [HS0 Hrest]
  · isplitl [HS0]
    · iexists _; iexact HS0
    iexact Hrest
  iexact Hg

end Cert.Kernel.PassOne

end
-- ==== Proof.KernelPassTwoRuns.lean ====
/-
  The second pass: for every batch entry and every block of queries the grid walks the six key blocks; a column of running
  row sums of the exponential weights lives in a scratch buffer: reset to zero at the first key block, increased by the
  block's row sums at every point, copied to the output block at the last. Here: the three behaviours over the grid, where
  the output window is idle, and the body run in each case on any whole staging buffers.
-/
import proofs.«155866_j66176856097431_1_alg».proof.Proof.Gen.Kernel.Launch
import proofs.«155866_j66176856097431_1_alg».proof.Proof.Gen.Kernel.Skeleton
import proofs.«155866_j66176856097431_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.PassTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid -/

/-- "This is the first step of the reduction axis": the reset condition, from the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 6 = 0 :=
  (by decide +kernel : ∀ t : Fin grid1.N, isFirst (grid1.coords t) ↔ t.val % 6 = 0)

/-- "This is the last step of the reduction axis": the write-out condition. -/
abbrev isLast (i : grid1.Coords) : Prop := k1_cond2 i = 1#1
theorem isLast_iff : ∀ t : Fin cfg1.N, isLast (grid1.coords t) ↔ t.val % 6 = 5 :=
  (by decide +kernel : ∀ t : Fin grid1.N, isLast (grid1.coords t) ↔ t.val % 6 = 5)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
theorem live_out : ∀ t : Fin cfg1.N, isLast (grid1.coords t) → cfg1.idle 3 (grid1.coords t) = false := by decide +kernel

/-! ## The body on any whole staging buffers, case by case -/

set_option maxHeartbeats 1000000 in
/-- First step (and not the last): the scratch may hold anything and ends holding the pieces the run finds; the output block is handed back untouched. -/
noncomputable def runFirst (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i)
    (x0 : Vec F S1x256x1536 .f32) (x1 : Vec F S1x256x1536 .f32) (x2 : Vec F S1x1536x1 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xiO ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xiO ∗ (∃ f, arg7.view.loc (c : Thread nD τ) ↦[arg7.view.set]{fullShare} arg7.view.writes (Elt F) f LS0)) -∗ K ⟨⟩))
          ⊢ wp frame (wpE (defs₀ (F := F)) Variants.none c none) E (cc1__pass2_kernel i arg3 harg3 arg4 harg4 arg5 harg5 arg6 harg6 arg7 harg7) K } := by
  refine ⟨[], ?_, fun xiO E K => ?run⟩
  case run =>
    simp only [cc1__pass2_kernel_eq_skeleton]; unfold cc1__pass2_kernel_skel; simp only [k1_part1_eq_skeleton]; unfold k1_part1_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg3.eq_unread hf0; obtain rfl := harg4.eq_unread hf1; obtain rfl := harg5.eq_unread hf2; obtain rfl := harg6.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS0

set_option maxHeartbeats 1000000 in
/-- A middle step: the scratch holds what the point before left (`xs0`); the output block is handed back untouched. -/
noncomputable def runMid (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i)
    (x0 : Vec F S1x256x1536 .f32) (x1 : Vec F S1x256x1536 .f32) (x2 : Vec F S1x1536x1 .f32) (xs0 : Vec F S1536x1 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xiO ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xiO ∗ (∃ f, arg7.view.loc (c : Thread nD τ) ↦[arg7.view.set]{fullShare} arg7.view.writes (Elt F) f LS0)) -∗ K ⟨⟩))
          ⊢ wp frame (wpE (defs₀ (F := F)) Variants.none c none) E (cc1__pass2_kernel i arg3 harg3 arg4 harg4 arg5 harg5 arg6 harg6 arg7 harg7) K } := by
  refine ⟨[], ?_, fun xiO E K => ?run⟩
  case run =>
    simp only [cc1__pass2_kernel_eq_skeleton]; unfold cc1__pass2_kernel_skel; simp only [k1_part1_eq_skeleton]; unfold k1_part1_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg3.eq_unread hf0; obtain rfl := harg4.eq_unread hf1; obtain rfl := harg5.eq_unread hf2; obtain rfl := harg6.eq_unread hfO; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS0

set_option maxHeartbeats 1000000 in
/-- The last step: the scratch holds `xs0`; the output block may hold anything and ends holding the pieces found. -/
noncomputable def runLast (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i)
    (x0 : Vec F S1x256x1536 .f32) (x1 : Vec F S1x256x1536 .f32) (x2 : Vec F S1x1536x1 .f32) (xs0 : Vec F S1536x1 .f32) :
    Σ' (LO : List (View.Piece (Elt F) S1x1536x1 .f32)), { LS0 : List (View.Piece (Elt F) S1536x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS0)) -∗ K ⟨⟩))
          ⊢ wp frame (wpE (defs₀ (F := F)) Variants.none c none) E (cc1__pass2_kernel i arg3 harg3 arg4 harg4 arg5 harg5 arg6 harg6 arg7 harg7) K } := by
  refine ⟨?_, ?_, fun E K => ?run⟩
  case run =>
    simp only [cc1__pass2_kernel_eq_skeleton]; unfold cc1__pass2_kernel_skel; simp only [k1_part1_eq_skeleton]; unfold k1_part1_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS0

end Cert.Kernel.PassTwo

end
-- ==== Proof.KernelPassTwo.lean ====
/-
  The second pass, point by point: what the output block and the column of running row sums hold after each grid point,
  the invariant that carries the column from point to point, and the body's obligation at every point.
-/
import proofs.«155866_j66176856097431_1_alg».proof.Proof.KernelPassTwoRuns

set_option maxRecDepth 16384

noncomputable section

namespace Cert.Kernel.PassTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of every buffer of the core when the pass is entered
variable (V : (c : Dev nD) → (b : Ref sig .tc) → Buf (Elt F) ((c : Thread nD τ).loc b))

/-- Window `w`'s block at point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the scratch -/

abbrev VO : View sig .tc .vmem S1x1536x1 .f32 := (Memref.whole cc1_stg3_0 : Memref sig .tc .vmem S1x1536x1 .f32).view
abbrev ms0 (t : Fin cfg1.N) : Memref sig .tc .vmem S1x256x1536 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x256x1536 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1536x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1536x1 .f32 := win1_3.stage (cfg1.slots t 3)
abbrev hs3 (t : Fin cfg1.N) : (ms3 t).IsWhole := hstage1_3 ((cfg1.slots t 3).cast nbuf1_3)
abbrev scM : Memref sig .tc .vmem S1536x1 .f32 := Memref.whole cc1_scratch0
abbrev VS : View sig .tc .vmem S1536x1 .f32 := scM.view

/-- The scoped buffers of the core that are neither a staging buffer of this pass nor its scratch, at some contents. -/
abbrev others (c : Dev nD) : sProp 𝕄 :=
  Pipeline.scopedRestBut (Ix := Unit) (Name := ℕ) (U := Pipeline.UD sig nD τ) (Lvl := ℕ) (Val := Elt F) spec1 c [cc1_scratch0]

/-- The pass's class invariant with the scratch as a memref owned at some contents, beside the other scoped buffers and the
    generator register. -/
theorem PhiA_eq (c : Dev nD) :
    (Pipeline.ΦA (U := Pipeline.UD sig nD τ) spec1 c : sProp 𝕄)
      = iprop(iprop((∃ d, owns (c : Thread nD τ) scM fullShare d) ∗ others c) ∗ (∃ r, prngReg c r)) := by
  unfold Pipeline.ΦA
  rw [Pipeline.scopedRest_split_of_list (win := spec1) (c := c) [cc1_scratch0] (by decide) (by decide)]
  simp only [scM, owns_whole, BI.bigSepL_singleton]; try rfl

/-! ## What each case leaves -/

def outFirst (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) : Vec F S1x1536x1 .f32 :=
  VO.read (Elt F) (VO.writes (Elt F) VO.junk (runFirst c i arg3 harg3 arg4 harg4 arg5 harg5 arg6 harg6 arg7 harg7 hc0 hc1 x0 x1 x2).1)
theorem scrFirst_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) (y : S1536x1.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1536x1.size (by sl_kernel_rfl) y
def scrFirst (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) : Vec F S1536x1 .f32 :=
  VS.read (Elt F) (VS.writes (Elt F) VS.junk (runFirst c i arg3 harg3 arg4 harg4 arg5 harg5 arg6 harg6 arg7 harg7 hc0 hc1 x0 x1 x2).2.1)

def outMid (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) : Vec F S1x1536x1 .f32 :=
  VO.read (Elt F) (VO.writes (Elt F) VO.junk (runMid c i arg3 harg3 arg4 harg4 arg5 harg5 arg6 harg6 arg7 harg7 hc0 hc1 x0 x1 x2 xs0).1)
theorem scrMid_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) (y : S1536x1.Idx) :
    ∃ pc ∈ (runMid c i arg3 harg3 arg4 harg4 arg5 harg5 arg6 harg6 arg7 harg7 hc0 hc1 x0 x1 x2 xs0).2.1, y ∈ pc.1.set :=
  View.cover_of_tiledL (runMid c i arg3 harg3 arg4 harg4 arg5 harg5 arg6 harg6 arg7 harg7 hc0 hc1 x0 x1 x2 xs0).2.1 S1536x1.size (by sl_kernel_rfl) y
def scrMid (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) : Vec F S1536x1 .f32 :=
  VS.read (Elt F) (VS.writes (Elt F) VS.junk (runMid c i arg3 harg3 arg4 harg4 arg5 harg5 arg6 harg6 arg7 harg7 hc0 hc1 x0 x1 x2 xs0).2.1)

theorem outLast_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) (y : S1x1536x1.Idx) :
    ∃ pc ∈ (runLast c i arg3 harg3 arg4 harg4 arg5 harg5 arg6 harg6 arg7 harg7 hc0 hc1 x0 x1 x2 xs0).1, y ∈ pc.1.set :=
  View.cover_of_tiledL (runLast c i arg3 harg3 arg4 harg4 arg5 harg5 arg6 harg6 arg7 harg7 hc0 hc1 x0 x1 x2 xs0).1 S1x1536x1.size (by sl_kernel_rfl) y
def outLast (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) : Vec F S1x1536x1 .f32 :=
  VO.read (Elt F) (VO.writes (Elt F) VO.junk (runLast c i arg3 harg3 arg4 harg4 arg5 harg5 arg6 harg6 arg7 harg7 hc0 hc1 x0 x1 x2 xs0).1)
theorem scrLast_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) (y : S1536x1.Idx) :
    ∃ pc ∈ (runLast c i arg3 harg3 arg4 harg4 arg5 harg5 arg6 harg6 arg7 harg7 hc0 hc1 x0 x1 x2 xs0).2.1, y ∈ pc.1.set :=
  View.cover_of_tiledL (runLast c i arg3 harg3 arg4 harg4 arg5 harg5 arg6 harg6 arg7 harg7 hc0 hc1 x0 x1 x2 xs0).2.1 S1536x1.size (by sl_kernel_rfl) y
def scrLast (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) : Vec F S1536x1 .f32 :=
  VS.read (Elt F) (VS.writes (Elt F) VS.junk (runLast c i arg3 harg3 arg4 harg4 arg5 harg5 arg6 harg6 arg7 harg7 hc0 hc1 x0 x1 x2 xs0).2.1)

/-! ## What the output block and the scratch hold after each point -/

/-- After the body at position `n`: (the output window's staging buffer, the scratch). The case the position selects, run at
    the point's buffers and input blocks, from the scratch the point before left. -/
def outsAt (c : Dev nD) : (n : ℕ) → n < cfg1.N → Vec F S1x1536x1 .f32 × Vec F S1536x1 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩), scrFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 6 = 0 then
      (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩), scrFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩))
    else
      if h1 : (n + 1) % 6 = 5 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, scrLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2, scrMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_first (c : Dev nD) (t : Fin cfg1.N) (h0 : t.val % 6 = 0) (h1 : ¬t.val % 6 = 5) :
    outsAt V c t.val t.isLt = (outFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t), scrFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans rfl

theorem outsAt_mid (c : Dev nD) (t : Fin cfg1.N) (h0 : ¬t.val % 6 = 0) (h1 : ¬t.val % 6 = 5) :
    outsAt V c t.val t.isLt = (outMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2, scrMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 6 = 0) (h1 : t.val % 6 = 5) :
    outsAt V c t.val t.isLt = (outLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2, scrLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every scoped buffer at anything); afterwards
    the scratch at what the point before left in it, the other scoped buffers at anything, the generator register. -/
def PhiS (c : Dev nD) : (n : ℕ) → n ≤ cfg1.N → sProp 𝕄
  | 0, _ => Pipeline.ΦA (U := Pipeline.UD sig nD τ) spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA (U := Pipeline.UD sig nD τ) spec1 c := by
  subst hz; rfl
theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pass's proof data -/

/-- The arrays as the pass finds them; after the body each input's buffer at its block, the output's at `outsAt`; the
    invariant `PhiS`; nothing owed; full shares. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_out (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the position's remainder modulo six says which case the
    point is in; the invariant hands the body the scratch at what the point before left (at anything at the very first
    point) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 72 := lt_of_lt_of_eq t.isLt (show cfg1.N = 72 from N_1)
  by_cases h0 : t.val % 6 = 0
  · have h1 : ¬t.val % 6 = 5 := by omega
    rw [show (dat V c).leavesExact 0 t = owns (c : Thread nD τ) (ms0 t) fullShare ((dat V c).after 0 t) from by
      unfold Dat.leavesExact; rw [live_0 t], after_0]
    rw [show (dat V c).leavesExact 1 t = owns (c : Thread nD τ) (ms1 t) fullShare ((dat V c).after 1 t) from by
      unfold Dat.leavesExact; rw [live_1 t], after_1]
    rw [show (dat V c).leavesExact 2 t = owns (c : Thread nD τ) (ms2 t) fullShare ((dat V c).after 2 t) from by
      unfold Dat.leavesExact; rw [live_2 t], after_2]
    rw [Dat.leavesExact_idle (dat V c) 3 t (idle_out t (fun h => h1 ((isLast_iff t).mp h))) (noFlush_out t (fun h => h1 ((isLast_iff t).mp h)))]
    rw [outsAt_first V c t h0 h1]
    unfold scrFirst; (try dsimp only)
    by_cases hz : t.val = 0
    · rw [PhiS_castSucc V c t, PhiS_zero V c _ _ hz, PhiA_eq]
      iintro ⟨⟨⟨HS0, Hrest⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 6 = 5
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_out t ((isLast_iff t).mpr h1)], after_out]
      rw [outsAt_last V c t h0 h1]
      unfold outLast scrLast; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%eO, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrLast_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [Dat.leavesExact_idle (dat V c) 3 t (idle_out t (fun h => h1 ((isLast_iff t).mp h))) (noFlush_out t (fun h => h1 ((isLast_iff t).mp h)))]
      rw [outsAt_mid V c t h0 h1]
      unfold scrMid; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrMid_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the pass is entered with (the class's invariant) is the invariant before the first point. -/
theorem hin (c : Dev nD) : Pipeline.ΦA (U := Pipeline.UD sig nD τ) spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg1.N) ⊢ Pipeline.ΦA (U := Pipeline.UD sig nD τ) spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 72 := N_1; omega), PhiA_eq]
  iintro ⟨⟨HS0, Hrest⟩, Hg⟩
  isplitl [HS0 Hrest]
  · isplitl [HS0]
    · iexists _; iexact HS0
    iexact Hrest
  iexact Hg

end Cert.Kernel.PassTwo

end
-- ==== Proof.KernelPassThreeRuns.lean ====
/-
  The third pass: for every batch entry and every block of keys the grid walks the six query blocks; a row of running
  column maxima of the normalised weights lives in a scratch buffer: reset to −∞ at the first query block, raised by the
  block's column maxima at every point, copied to the output block at the last. Here: the three behaviours over the grid,
  where the output window is idle, and the body run in each case on any whole staging buffers.
-/
import proofs.«155866_j66176856097431_1_alg».proof.Proof.Gen.Kernel.Launch
import proofs.«155866_j66176856097431_1_alg».proof.Proof.Gen.Kernel.Skeleton
import proofs.«155866_j66176856097431_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.PassThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid -/

/-- "This is the first step of the reduction axis": the reset condition, from the grid coordinates. -/
abbrev isFirst (i : grid2.Coords) : Prop := (Scalar.cmpi .ne (Scalar.extui (Scalar.cmpi .eq (BitVec.ofNat 32 (i 2).val) 0#32)) 0#32) = 1#1
theorem isFirst_iff : ∀ t : Fin cfg2.N, isFirst (grid2.coords t) ↔ t.val % 6 = 0 :=
  (by decide +kernel : ∀ t : Fin grid2.N, isFirst (grid2.coords t) ↔ t.val % 6 = 0)

/-- "This is the last step of the reduction axis": the write-out condition. -/
abbrev isLast (i : grid2.Coords) : Prop := k2_cond2 i = 1#1
theorem isLast_iff : ∀ t : Fin cfg2.N, isLast (grid2.coords t) ↔ t.val % 6 = 5 :=
  (by decide +kernel : ∀ t : Fin grid2.N, isLast (grid2.coords t) ↔ t.val % 6 = 5)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem idle_out : ∀ t : Fin cfg2.N, ¬isLast (grid2.coords t) → cfg2.idle 4 (grid2.coords t) = true := by decide +kernel
theorem noFlush_out : ∀ t : Fin cfg2.N, ¬isLast (grid2.coords t) → (cfg2.win 4).flush t = false := by decide +kernel
theorem live_out : ∀ t : Fin cfg2.N, isLast (grid2.coords t) → cfg2.idle 4 (grid2.coords t) = false := by decide +kernel

/-! ## The body on any whole staging buffers, case by case -/

set_option maxHeartbeats 1000000 in
/-- First step (and not the last): the scratch may hold anything and ends holding the pieces the run finds; the output block is handed back untouched. -/
noncomputable def runFirst (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i)
    (x0 : Vec F S1x256x1536 .f32) (x1 : Vec F S1x256x1536 .f32) (x2 : Vec F S1x1536x1 .f32) (x3 : Vec F S1x1536x1 .f32) :
    Σ' (LO : List (View.Piece (Elt F) S1x1x1536 .f32)), { LS0 : List (View.Piece (Elt F) S1x1536 .f32) //
      ∀ (xiO : Vec F S1x1x1536 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ (∃ f, arg8.view.loc (c : Thread nD τ) ↦[arg8.view.set]{fullShare} arg8.view.writes (Elt F) f LS0)) -∗ K ⟨⟩))
          ⊢ wp frame (wpE (defs₀ (F := F)) Variants.none c none) E (cc2__pass3_kernel i arg3 harg3 arg4 harg4 arg5 harg5 arg6 harg6 arg7 harg7 arg8 harg8) K } := by
  refine ⟨[], ?_, fun xiO E K => ?run⟩
  case run =>
    simp only [cc2__pass3_kernel_eq_skeleton]; unfold cc2__pass3_kernel_skel; simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%fO, %hfO, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 1000000 in
/-- A middle step: the scratch holds what the point before left (`xs0`); the output block is handed back untouched. -/
noncomputable def runMid (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i)
    (x0 : Vec F S1x256x1536 .f32) (x1 : Vec F S1x256x1536 .f32) (x2 : Vec F S1x1536x1 .f32) (x3 : Vec F S1x1536x1 .f32) (xs0 : Vec F S1x1536 .f32) :
    Σ' (LO : List (View.Piece (Elt F) S1x1x1536 .f32)), { LS0 : List (View.Piece (Elt F) S1x1536 .f32) //
      ∀ (xiO : Vec F S1x1x1536 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ (∃ f, arg8.view.loc (c : Thread nD τ) ↦[arg8.view.set]{fullShare} arg8.view.writes (Elt F) f LS0)) -∗ K ⟨⟩))
          ⊢ wp frame (wpE (defs₀ (F := F)) Variants.none c none) E (cc2__pass3_kernel i arg3 harg3 arg4 harg4 arg5 harg5 arg6 harg6 arg7 harg7 arg8 harg8) K } := by
  refine ⟨[], ?_, fun xiO E K => ?run⟩
  case run =>
    simp only [cc2__pass3_kernel_eq_skeleton]; unfold cc2__pass3_kernel_skel; simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%fO, %hfO, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfO; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 1000000 in
/-- The last step: the scratch holds `xs0`; the output block may hold anything and ends holding the pieces found. -/
noncomputable def runLast (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i)
    (x0 : Vec F S1x256x1536 .f32) (x1 : Vec F S1x256x1536 .f32) (x2 : Vec F S1x1536x1 .f32) (x3 : Vec F S1x1536x1 .f32) (xs0 : Vec F S1x1536 .f32) :
    Σ' (LO : List (View.Piece (Elt F) S1x1x1536 .f32)), { LS0 : List (View.Piece (Elt F) S1x1536 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS0)) -∗ K ⟨⟩))
          ⊢ wp frame (wpE (defs₀ (F := F)) Variants.none c none) E (cc2__pass3_kernel i arg3 harg3 arg4 harg4 arg5 harg5 arg6 harg6 arg7 harg7 arg8 harg8) K } := by
  refine ⟨?_, ?_, fun E K => ?run⟩
  case run =>
    simp only [cc2__pass3_kernel_eq_skeleton]; unfold cc2__pass3_kernel_skel; simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]; · iexists _; iexact HO
    iexists _; iexact HS0

end Cert.Kernel.PassThree

end
-- ==== Proof.KernelPassThree.lean ====
/-
  The third pass, point by point: what the output block and the row of running column maxima hold after each grid point,
  the invariant that carries the row from point to point, and the body's obligation at every point.
-/
import proofs.«155866_j66176856097431_1_alg».proof.Proof.KernelPassThreeRuns

set_option maxRecDepth 16384

noncomputable section

namespace Cert.Kernel.PassThree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of every buffer of the core when the pass is entered
variable (V : (c : Dev nD) → (b : Ref sig .tc) → Buf (Elt F) ((c : Thread nD τ).loc b))

/-- Window `w`'s block at point `t`, read off its array as the pass finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_3_of {c : Dev nD} (dat : Dat τ (Elt F) Unit ℕ (Pipeline.UD sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the scratch -/

abbrev VO : View sig .tc .vmem S1x1x1536 .f32 := (Memref.whole cc2_stg4_0 : Memref sig .tc .vmem S1x1x1536 .f32).view
abbrev ms0 (t : Fin cfg2.N) : Memref sig .tc .vmem S1x256x1536 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x256x1536 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1536x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1536x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x1x1536 .f32 := win2_4.stage (cfg2.slots t 4)
abbrev hs4 (t : Fin cfg2.N) : (ms4 t).IsWhole := hstage2_4 ((cfg2.slots t 4).cast nbuf2_4)
abbrev scM : Memref sig .tc .vmem S1x1536 .f32 := Memref.whole cc2_scratch0
abbrev VS : View sig .tc .vmem S1x1536 .f32 := scM.view

/-- The scoped buffers of the core that are neither a staging buffer of this pass nor its scratch, at some contents. -/
abbrev others (c : Dev nD) : sProp 𝕄 :=
  Pipeline.scopedRestBut (Ix := Unit) (Name := ℕ) (U := Pipeline.UD sig nD τ) (Lvl := ℕ) (Val := Elt F) spec2 c [cc2_scratch0]

/-- The pass's class invariant with the scratch as a memref owned at some contents, beside the other scoped buffers and the
    generator register. -/
theorem PhiA_eq (c : Dev nD) :
    (Pipeline.ΦA (U := Pipeline.UD sig nD τ) spec2 c : sProp 𝕄)
      = iprop(iprop((∃ d, owns (c : Thread nD τ) scM fullShare d) ∗ others c) ∗ (∃ r, prngReg c r)) := by
  unfold Pipeline.ΦA
  rw [Pipeline.scopedRest_split_of_list (win := spec2) (c := c) [cc2_scratch0] (by decide) (by decide)]
  simp only [scM, owns_whole, BI.bigSepL_singleton]; try rfl

/-! ## What each case leaves -/

def outFirst (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) : Vec F S1x1x1536 .f32 :=
  VO.read (Elt F) (VO.writes (Elt F) VO.junk (runFirst c i arg3 harg3 arg4 harg4 arg5 harg5 arg6 harg6 arg7 harg7 arg8 harg8 hc0 hc1 x0 x1 x2 x3).1)
theorem scrFirst_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) (y : S1x1536.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S1x1536.size (by sl_kernel_rfl) y
def scrFirst (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) : Vec F S1x1536 .f32 :=
  VS.read (Elt F) (VS.writes (Elt F) VS.junk (runFirst c i arg3 harg3 arg4 harg4 arg5 harg5 arg6 harg6 arg7 harg7 arg8 harg8 hc0 hc1 x0 x1 x2 x3).2.1)

def outMid (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) : Vec F S1x1x1536 .f32 :=
  VO.read (Elt F) (VO.writes (Elt F) VO.junk (runMid c i arg3 harg3 arg4 harg4 arg5 harg5 arg6 harg6 arg7 harg7 arg8 harg8 hc0 hc1 x0 x1 x2 x3 xs0).1)
theorem scrMid_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) (y : S1x1536.Idx) :
    ∃ pc ∈ (runMid c i arg3 harg3 arg4 harg4 arg5 harg5 arg6 harg6 arg7 harg7 arg8 harg8 hc0 hc1 x0 x1 x2 x3 xs0).2.1, y ∈ pc.1.set :=
  View.cover_of_tiledL (runMid c i arg3 harg3 arg4 harg4 arg5 harg5 arg6 harg6 arg7 harg7 arg8 harg8 hc0 hc1 x0 x1 x2 x3 xs0).2.1 S1x1536.size (by sl_kernel_rfl) y
def scrMid (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) : Vec F S1x1536 .f32 :=
  VS.read (Elt F) (VS.writes (Elt F) VS.junk (runMid c i arg3 harg3 arg4 harg4 arg5 harg5 arg6 harg6 arg7 harg7 arg8 harg8 hc0 hc1 x0 x1 x2 x3 xs0).2.1)

theorem outLast_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) (y : S1x1x1536.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1x1x1536.size (by sl_kernel_rfl) y
def outLast (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) : Vec F S1x1x1536 .f32 :=
  VO.read (Elt F) (VO.writes (Elt F) VO.junk (runLast c i arg3 harg3 arg4 harg4 arg5 harg5 arg6 harg6 arg7 harg7 arg8 harg8 hc0 hc1 x0 x1 x2 x3 xs0).1)
theorem scrLast_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) (y : S1x1536.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S1x1536.size (by sl_kernel_rfl) y
def scrLast (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) : Vec F S1x1536 .f32 :=
  VS.read (Elt F) (VS.writes (Elt F) VS.junk (runLast c i arg3 harg3 arg4 harg4 arg5 harg5 arg6 harg6 arg7 harg7 arg8 harg8 hc0 hc1 x0 x1 x2 x3 xs0).2.1)

/-! ## What the output block and the scratch hold after each point -/

/-- After the body at position `n`: (the output window's staging buffer, the scratch). The case the position selects, run at
    the point's buffers and input blocks, from the scratch the point before left. -/
def outsAt (c : Dev nD) : (n : ℕ) → n < cfg2.N → Vec F S1x1x1536 .f32 × Vec F S1x1536 .f32
  | 0, hn => (outFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩), scrFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 6 = 0 then
      (outFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩), scrFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 6 = 5 then
        (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, scrLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, scrMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_first (c : Dev nD) (t : Fin cfg2.N) (h0 : t.val % 6 = 0) (h1 : ¬t.val % 6 = 5) :
    outsAt V c t.val t.isLt = (outFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t), scrFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)) := by
  obtain ⟨n, hn⟩ := t
  cases n with
  | zero => exact rfl
  | succ n => exact (dif_pos h0).trans rfl

theorem outsAt_mid (c : Dev nD) (t : Fin cfg2.N) (h0 : ¬t.val % 6 = 0) (h1 : ¬t.val % 6 = 5) :
    outsAt V c t.val t.isLt = (outMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2, scrMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg2.N) (h0 : ¬t.val % 6 = 0) (h1 : t.val % 6 = 5) :
    outsAt V c t.val t.isLt = (outLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2, scrLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every scoped buffer at anything); afterwards
    the scratch at what the point before left in it, the other scoped buffers at anything, the generator register. -/
def PhiS (c : Dev nD) : (n : ℕ) → n ≤ cfg2.N → sProp 𝕄
  | 0, _ => Pipeline.ΦA (U := Pipeline.UD sig nD τ) spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA (U := Pipeline.UD sig nD τ) spec2 c := by
  subst hz; rfl
theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pass's proof data -/

/-- The arrays as the pass finds them; after the body each input's buffer at its block, the output's at `outsAt`; the
    invariant `PhiS`; nothing owed; full shares. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_out (c : Dev nD) (t : Fin cfg2.N) : (dat V c).after 4 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' buffers hold their blocks; the position's remainder modulo six says which case the
    point is in; the invariant hands the body the scratch at what the point before left (at anything at the very first
    point) and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 72 := lt_of_lt_of_eq t.isLt (show cfg2.N = 72 from N_2)
  by_cases h0 : t.val % 6 = 0
  · have h1 : ¬t.val % 6 = 5 := by omega
    rw [show (dat V c).leavesExact 0 t = owns (c : Thread nD τ) (ms0 t) fullShare ((dat V c).after 0 t) from by
      unfold Dat.leavesExact; rw [live_0 t], after_0]
    rw [show (dat V c).leavesExact 1 t = owns (c : Thread nD τ) (ms1 t) fullShare ((dat V c).after 1 t) from by
      unfold Dat.leavesExact; rw [live_1 t], after_1]
    rw [show (dat V c).leavesExact 2 t = owns (c : Thread nD τ) (ms2 t) fullShare ((dat V c).after 2 t) from by
      unfold Dat.leavesExact; rw [live_2 t], after_2]
    rw [show (dat V c).leavesExact 3 t = owns (c : Thread nD τ) (ms3 t) fullShare ((dat V c).after 3 t) from by
      unfold Dat.leavesExact; rw [live_3 t], after_3]
    rw [Dat.leavesExact_idle (dat V c) 4 t (idle_out t (fun h => h1 ((isLast_iff t).mp h))) (noFlush_out t (fun h => h1 ((isLast_iff t).mp h)))]
    rw [outsAt_first V c t h0 h1]
    unfold scrFirst; (try dsimp only)
    by_cases hz : t.val = 0
    · rw [PhiS_castSucc V c t, PhiS_zero V c _ _ hz, PhiA_eq]
      iintro ⟨⟨⟨HS0, Hrest⟩, Hg⟩, Ho, ⟨%d0, H0⟩, ⟨%d1, H1⟩, ⟨%d2, H2⟩, ⟨%d3, H3⟩, ⟨%d4, H4⟩⟩
      iapply ((runFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 6 = 5
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_out t ((isLast_iff t).mpr h1)], after_out]
      rw [outsAt_last V c t h0 h1]
      unfold outLast scrLast; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%eO, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrLast_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast_cover c _ _ _ _ _ _ _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [Dat.leavesExact_idle (dat V c) 4 t (idle_out t (fun h => h1 ((isLast_iff t).mp h))) (noFlush_out t (fun h => h1 ((isLast_iff t).mp h)))]
      rw [outsAt_mid V c t h0 h1]
      unfold scrMid; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrMid_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the pass is entered with (the class's invariant) is the invariant before the first point. -/
theorem hin (c : Dev nD) : Pipeline.ΦA (U := Pipeline.UD sig nD τ) spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg2.N) ⊢ Pipeline.ΦA (U := Pipeline.UD sig nD τ) spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 72 := N_2; omega), PhiA_eq]
  iintro ⟨⟨HS0, Hrest⟩, Hg⟩
  isplitl [HS0 Hrest]
  · isplitl [HS0]
    · iexists _; iexact HS0
    iexact Hrest
  iexact Hg

end Cert.Kernel.PassThree

end
-- ==== Proof.KernelWhole.lean ====
/-
  The whole program as a run of five segments: the host operations that centre and normalise the features, the three
  passes, and the host operations that average and take logarithms. Between two segments the core's unscoped buffers are
  held at a named valuation: the launch memory, then what the host operations compute from it, then after each pass its
  output array at what the pass's write-backs leave and every other buffer unchanged. The run ends with every unscoped
  buffer at the last valuation; the frame and the value claims read their buffers off it.
-/
import proofs.«155866_j66176856097431_1_alg».proof.Proof.KernelPassOne
import proofs.«155866_j66176856097431_1_alg».proof.Proof.KernelPassTwo
import proofs.«155866_j66176856097431_1_alg».proof.Proof.KernelPassThree
import proofs.«155866_j66176856097431_1_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (HostSeg RegionSeg Seg)

variable (m : (ℓ : Loc nD τ sig) → Buf (Elt F) ℓ)

/-! ## The buffer contents at each segment boundary -/

/-- At launch. -/
abbrev W0 (c : Dev nD) : Valuation τ sig (Elt F) := fun b => m (c, b)
/-- After the leading host operations. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After pass 1: its arrays at what the pass leaves (the inputs as entered, the output's write-backs folded), every other
    buffer as entered. -/
def W2 (c : Dev nD) : Valuation τ sig (Elt F) :=
  Pipeline.withArrays spec0 c (W1 m c) fun w => (PassOne.dat (V1 m) c).arrAt w cfg0.N
theorem W2_arr (c : Dev nD) (w : Fin cfg0.W) :
    W2 m c (Proc.devRef .tc (Pipeline.arrRef spec0 w)) = (PassOne.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (PassOne.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pass 2: its arrays at what the pass leaves (the inputs as entered, the output's write-backs folded), every other
    buffer as entered. -/
def W3 (c : Dev nD) : Valuation τ sig (Elt F) :=
  Pipeline.withArrays spec1 c (W2 m c) fun w => (PassTwo.dat (V2 m) c).arrAt w cfg1.N
theorem W3_arr (c : Dev nD) (w : Fin cfg1.W) :
    W3 m c (Proc.devRef .tc (Pipeline.arrRef spec1 w)) = (PassTwo.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (PassTwo.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pass 3: its arrays at what the pass leaves (the inputs as entered, the output's write-backs folded), every other
    buffer as entered. -/
def W4 (c : Dev nD) : Valuation τ sig (Elt F) :=
  Pipeline.withArrays spec2 c (W3 m c) fun w => (PassThree.dat (V3 m) c).arrAt w cfg2.N
theorem W4_arr (c : Dev nD) (w : Fin cfg2.W) :
    W4 m c (Proc.devRef .tc (Pipeline.arrRef spec2 w)) = (PassThree.dat (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (PassThree.dat (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the trailing host operations. -/
abbrev W5 (c : Dev nD) : Valuation τ sig (Elt F) := StableHlo.after hostOps3 (W4 m c)

/-! ## The proof data family and the thread state -/

abbrev adm : (p : Fin 3) → (pcfgs (F := F) p).Adm := fun p => (cfgs p).toPCfg_adm
def pdats : (p : Fin 3) → (c : Dev nD) → Dat τ (Elt F) Unit ℕ (Pipeline.UD sig nD τ) ℕ (Pipeline.pin (pcfgs (F := F)) adm p) c
  | ⟨0, _⟩ => fun c => PassOne.dat (V1 m) c
  | ⟨1, _⟩ => fun c => PassTwo.dat (V2 m) c
  | ⟨2, _⟩ => fun c => PassThree.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The passes as segments -/

set_option backward.isDefEq.respectTransparency.types false in
/-- Pass 1 as a segment: entered from every unscoped buffer at `W1`, left at `W2`. Its arrays are split out of the
    unscoped buffers and put back at what the pass leaves; the generator register goes into the pass's invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA (U := Pipeline.UD sig nD τ) spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA (U := Pipeline.UD sig nD τ) spec0 c from PassOne.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at `W2`, left at `W3`. Its arrays are split out of the
    unscoped buffers and put back at what the pass leaves; the generator register goes into the pass's invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA (U := Pipeline.UD sig nD τ) spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA (U := Pipeline.UD sig nD τ) spec1 c from PassTwo.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at `W3`, left at `W4`. Its arrays are split out of the
    unscoped buffers and put back at what the pass leaves; the generator register goes into the pass's invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (PassThree.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA (U := Pipeline.UD sig nD τ) spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA (U := Pipeline.UD sig nD τ) spec2 c from PassThree.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and every
    final memory holds every unscoped buffer at the last valuation `W5`. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W5 m c (Proc.devRef .tc b)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c b hb => h c _ (mem_uc b hb))

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps3 _ hostOps3_writes (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps3 _ hostOps3_writes (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The frame: the program runs to the end, faults nowhere, and leaves its two argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W5_main_arg0 m c), (h c main_arg1 (by decide)).trans (W5_main_arg1 m c)⟩) (run_all m ρ)

end Cert.Kernel.Whole

end
-- ==== Proof.KernelIdealPassOneRuns.lean ====
/-
  The first pass of the kernel: for every batch entry and every block of 1536 queries the grid walks the six blocks of 1536
  keys; a column of running minima (one per query) lives in a scratch buffer across the six points: it is reset to +∞ at
  the first key block, lowered by the block's row minima of the distances at every point, and copied to the output block
  at the last. Here: which of the three behaviours each grid point shows (decided over the 72 points), where the output
  window is idle, and the body run in each of the three cases on any whole staging buffers.
-/
import proofs.«155866_j66176856097431_1_alg».proof.Proof.Gen.KernelIdeal.Launch
import proofs.«155866_j66176856097431_1_alg».proof.Proof.Gen.KernelIdeal.Skeleton
import proofs.«155866_j66176856097431_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid -/

/-- "This is the first step of the reduction axis": the reset condition, from the grid coordinates. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 6 = 0 :=
  (by decide +kernel : ∀ t : Fin grid0.N, isFirst (grid0.coords t) ↔ t.val % 6 = 0)

/-- "This is the last step of the reduction axis": the write-out condition. -/
abbrev isLast (i : grid0.Coords) : Prop := k0_cond2 i = 1#1
theorem isLast_iff : ∀ t : Fin cfg0.N, isLast (grid0.coords t) ↔ t.val % 6 = 5 :=
  (by decide +kernel : ∀ t : Fin grid0.N, isLast (grid0.coords t) ↔ t.val % 6 = 5)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The body on any whole staging buffers, case by case -/

set_option maxHeartbeats 1000000 in
/-- First step (and not the last): the scratch may hold anything and ends holding the pieces the run finds; the output block is handed back untouched. -/
noncomputable def runFirst (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i)
    (x0 : Vec F S1x256x1536 .f32) (x1 : Vec F S1x256x1536 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare xiO ∗ (∃ d, owns (c : Thread nD τ) arg6 fullShare d)
            ∗ (iprop(owns (c : Thread nD τ) arg3 fullShare x0 ∗ owns (c : Thread nD τ) arg4 fullShare x1 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc0__pass1_kernel i arg3 harg3 arg4 harg4 arg5 harg5 arg6 harg6) K } := by
  refine ⟨[], ?_, fun xiO E K => ?run⟩
  case run =>
    simp only [cc0__pass1_kernel_eq_skeleton]; unfold cc0__pass1_kernel_skel
    unfold owns
    iintro ⟨⟨%f0, %hf0, H0⟩, ⟨%f1, %hf1, H1⟩, ⟨%fO, %hfO, HO⟩, ⟨%ds0, %fs0, -, HS0⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

set_option maxHeartbeats 1000000 in
/-- A middle step: the scratch holds what the point before left (`xs0`); the output block is handed back untouched. -/
noncomputable def runMid (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i)
    (x0 : Vec F S1x256x1536 .f32) (x1 : Vec F S1x256x1536 .f32) (xs0 : Vec F S1536x1 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare xiO ∗ owns (c : Thread nD τ) arg6 fullShare xs0
            ∗ (iprop(owns (c : Thread nD τ) arg3 fullShare x0 ∗ owns (c : Thread nD τ) arg4 fullShare x1 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc0__pass1_kernel i arg3 harg3 arg4 harg4 arg5 harg5 arg6 harg6) K } := by
  refine ⟨[], ?_, fun xiO E K => ?run⟩
  case run =>
    simp only [cc0__pass1_kernel_eq_skeleton]; unfold cc0__pass1_kernel_skel
    unfold owns
    iintro ⟨⟨%f0, %hf0, H0⟩, ⟨%f1, %hf1, H1⟩, ⟨%fO, %hfO, HO⟩, ⟨%fs0, %hfs0, HS0⟩, Hk⟩
    obtain rfl := harg3.eq_unread hf0; obtain rfl := harg4.eq_unread hf1; obtain rfl := harg5.eq_unread hfO; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

set_option maxHeartbeats 1000000 in
/-- The last step: the scratch holds `xs0`; the output block may hold anything and ends holding the pieces found. -/
noncomputable def runLast (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i)
    (x0 : Vec F S1x256x1536 .f32) (x1 : Vec F S1x256x1536 .f32) (xs0 : Vec F S1536x1 .f32) :
    Σ' (LO : List (View.Piece (Elt F) S1x1536x1 .f32)), { LS0 : List (View.Piece (Elt F) S1536x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc0__pass1_kernel i arg3 harg3 arg4 harg4 arg5 harg5 arg6 harg6) K } := by
  refine ⟨?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%dO, %fO, -, HO⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS0

end Cert.KernelIdeal.PassOne

end
-- ==== Proof.KernelIdealPassOne.lean ====
/-
  The first pass, point by point: what the output block and the column of running minima hold after each grid point (by
  recursion on the point: the first key block starts from the reset column, every later one from what the point before
  left), the invariant that carries the column from point to point, and the body's obligation at every point.
-/
import proofs.«155866_j66176856097431_1_alg».proof.Proof.KernelIdealPassOneRuns

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of every buffer of the core when the pass is entered
variable (V : (c : Dev nD) → (b : Ref sig .tc) → Buf (Elt F) ((c : Thread nD τ).loc b))

/-- Window `w`'s block at point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the scratch -/

abbrev VO : View sig .tc .vmem S1x1536x1 .f32 := (Memref.whole cc0_stg2_0 : Memref sig .tc .vmem S1x1536x1 .f32).view
abbrev ms0 (t : Fin cfg0.N) : Memref sig .tc .vmem S1x256x1536 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1536 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1536x1 .f32 := win0_2.stage (cfg0.slots t 2)
abbrev hs2 (t : Fin cfg0.N) : (ms2 t).IsWhole := hstage0_2 ((cfg0.slots t 2).cast nbuf0_2)
abbrev scM : Memref sig .tc .vmem S1536x1 .f32 := Memref.whole cc0_scratch0
abbrev VS : View sig .tc .vmem S1536x1 .f32 := scM.view

/-- The scoped buffers of the core that are neither a staging buffer of this pass nor its scratch, at some contents. -/
abbrev others (c : Dev nD) : sProp 𝕄 :=
  Pipeline.scopedRestBut (Ix := Unit) (Name := ℕ) (U := Pipeline.UD sig nD τ) (Lvl := ℕ) (Val := Elt F) spec0 c [cc0_scratch0]

/-- The pass's class invariant with the scratch as a memref owned at some contents, beside the other scoped buffers and the
    generator register. -/
theorem PhiA_eq (c : Dev nD) :
    (Pipeline.ΦA (U := Pipeline.UD sig nD τ) spec0 c : sProp 𝕄)
      = iprop(iprop((∃ d, owns (c : Thread nD τ) scM fullShare d) ∗ others c) ∗ (∃ r, prngReg c r)) := by
  unfold Pipeline.ΦA
  rw [Pipeline.scopedRest_split_of_list (win := spec0) (c := c) [cc0_scratch0] (by decide) (by decide)]
  simp only [scM, owns_whole, BI.bigSepL_singleton]; try rfl

/-! ## What each case leaves -/

def outFirst (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) : Vec F S1x1536x1 .f32 :=
  VO.read (Elt F) (VO.writes (Elt F) VO.junk (runFirst c i arg3 harg3 arg4 harg4 arg5 harg5 arg6 harg6 hc0 hc1 x0 x1).1)
theorem scrFirst_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) (y : S1536x1.Idx) :
    ∃ pc ∈ (runFirst c i arg3 harg3 arg4 harg4 arg5 harg5 arg6 harg6 hc0 hc1 x0 x1).2.1, y ∈ pc.1.set :=
  View.cover_of_tiledL (runFirst c i arg3 harg3 arg4 harg4 arg5 harg5 arg6 harg6 hc0 hc1 x0 x1).2.1 S1536x1.size (by sl_kernel_rfl) y
def scrFirst (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) : Vec F S1536x1 .f32 :=
  VS.read (Elt F) (VS.writes (Elt F) VS.junk (runFirst c i arg3 harg3 arg4 harg4 arg5 harg5 arg6 harg6 hc0 hc1 x0 x1).2.1)

def outMid (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) : Vec F S1x1536x1 .f32 :=
  VO.read (Elt F) (VO.writes (Elt F) VO.junk (runMid c i arg3 harg3 arg4 harg4 arg5 harg5 arg6 harg6 hc0 hc1 x0 x1 xs0).1)
theorem scrMid_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) (y : S1536x1.Idx) :
    ∃ pc ∈ (runMid c i arg3 harg3 arg4 harg4 arg5 harg5 arg6 harg6 hc0 hc1 x0 x1 xs0).2.1, y ∈ pc.1.set :=
  View.cover_of_tiledL (runMid c i arg3 harg3 arg4 harg4 arg5 harg5 arg6 harg6 hc0 hc1 x0 x1 xs0).2.1 S1536x1.size (by sl_kernel_rfl) y
def scrMid (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) : Vec F S1536x1 .f32 :=
  VS.read (Elt F) (VS.writes (Elt F) VS.junk (runMid c i arg3 harg3 arg4 harg4 arg5 harg5 arg6 harg6 hc0 hc1 x0 x1 xs0).2.1)

theorem outLast_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) (y : S1x1536x1.Idx) :
    ∃ pc ∈ (runLast c i arg3 harg3 arg4 harg4 arg5 harg5 arg6 harg6 hc0 hc1 x0 x1 xs0).1, y ∈ pc.1.set :=
  View.cover_of_tiledL (runLast c i arg3 harg3 arg4 harg4 arg5 harg5 arg6 harg6 hc0 hc1 x0 x1 xs0).1 S1x1536x1.size (by sl_kernel_rfl) y
def outLast (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) : Vec F S1x1536x1 .f32 :=
  VO.read (Elt F) (VO.writes (Elt F) VO.junk (runLast c i arg3 harg3 arg4 harg4 arg5 harg5 arg6 harg6 hc0 hc1 x0 x1 xs0).1)
theorem scrLast_cover (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) (y : S1536x1.Idx) :
    ∃ pc ∈ (runLast c i arg3 harg3 arg4 harg4 arg5 harg5 arg6 harg6 hc0 hc1 x0 x1 xs0).2.1, y ∈ pc.1.set :=
  View.cover_of_tiledL (runLast c i arg3 harg3 arg4 harg4 arg5 harg5 arg6 harg6 hc0 hc1 x0 x1 xs0).2.1 S1536x1.size (by sl_kernel_rfl) y
def scrLast (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) : Vec F S1536x1 .f32 :=
  VS.read (Elt F) (VS.writes (Elt F) VS.junk (runLast c i arg3 harg3 arg4 harg4 arg5 harg5 arg6 harg6 hc0 hc1 x0 x1 xs0).2.1)

/-! ## What the output block and the scratch hold after each point -/

/-- After the body at position `n`: (the output window's staging buffer, the scratch). The case the position selects, run at
    the point's buffers and input blocks, from the scratch the point before left. -/
def outsAt (c : Dev nD) : (n : ℕ) → n < cfg0.N → Vec F S1x1536x1 .f32 × Vec F S1536x1 .f32
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩), scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩))
  | n + 1, hn =>
    if h0 : (n + 1) % 6 = 0 then
      (outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩), scrFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩))
    else
      if h1 : (n + 1) % 6 = 5 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2, scrLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
      else
        (outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2, scrMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

theorem outsAt_first (c : Dev nD) (t : Fin cfg0.N) (h0 : t.val % 6 = 0) (h1 : ¬t.val % 6 = 5) :
    outsAt V c t.val t.isLt = (outFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t), scrFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t)) := by
  obtain ⟨n, hn⟩ := t
  cases n with
  | zero => exact rfl
  | succ n => exact (dif_pos h0).trans rfl

theorem outsAt_mid (c : Dev nD) (t : Fin cfg0.N) (h0 : ¬t.val % 6 = 0) (h1 : ¬t.val % 6 = 5) :
    outsAt V c t.val t.isLt = (outMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2, scrMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 6 = 0) (h1 : t.val % 6 = 5) :
    outsAt V c t.val t.isLt = (outLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2, scrLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every scoped buffer at anything); afterwards
    the scratch at what the point before left in it, the other scoped buffers at anything, the generator register. -/
def PhiS (c : Dev nD) : (n : ℕ) → n ≤ cfg0.N → sProp 𝕄
  | 0, _ => Pipeline.ΦA (U := Pipeline.UD sig nD τ) spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA (U := Pipeline.UD sig nD τ) spec0 c := by
  subst hz; rfl
theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pass's proof data -/

/-- The arrays as the pass finds them; after the body each input's buffer at its block, the output's at `outsAt`; the
    invariant `PhiS`; nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_out (c : Dev nD) (t : Fin cfg0.N) : (dat V c).after 2 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the position's remainder modulo six says which case the
    point is in; the invariant hands the body the scratch at what the point before left (at anything at the very first
    point) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 72 := lt_of_lt_of_eq t.isLt (show cfg0.N = 72 from N_0)
  by_cases h0 : t.val % 6 = 0
  · have h1 : ¬t.val % 6 = 5 := by omega
    rw [show (dat V c).leavesExact 0 t = owns (c : Thread nD τ) (ms0 t) fullShare ((dat V c).after 0 t) from by
      unfold Dat.leavesExact; rw [live_0 t], after_0]
    rw [show (dat V c).leavesExact 1 t = owns (c : Thread nD τ) (ms1 t) fullShare ((dat V c).after 1 t) from by
      unfold Dat.leavesExact; rw [live_1 t], after_1]
    rw [Dat.leavesExact_idle (dat V c) 2 t (idle_out t (fun h => h1 ((isLast_iff t).mp h))) (noFlush_out t (fun h => h1 ((isLast_iff t).mp h)))]
    rw [outsAt_first V c t h0 h1]
    unfold scrFirst; (try dsimp only)
    by_cases hz : t.val = 0
    · rw [PhiS_castSucc V c t, PhiS_zero V c _ _ hz, PhiA_eq]
      iintro ⟨⟨⟨HS0, Hrest⟩, Hg⟩, Ho, ⟨%d0, H0⟩, ⟨%d1, H1⟩, ⟨%d2, H2⟩⟩
      iapply ((runFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((runFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h1 : t.val % 6 = 5
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_out t ((isLast_iff t).mpr h1)], after_out]
      rw [outsAt_last V c t h0 h1]
      unfold outLast scrLast; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrLast_cover c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [Dat.leavesExact_idle (dat V c) 2 t (idle_out t (fun h => h1 ((isLast_iff t).mp h))) (noFlush_out t (fun h => h1 ((isLast_iff t).mp h)))]
      rw [outsAt_mid V c t h0 h1]
      unfold scrMid; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((runMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrMid_cover c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the pass is entered with (the class's invariant) is the invariant before the first point. -/
theorem hin (c : Dev nD) : Pipeline.ΦA (U := Pipeline.UD sig nD τ) spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg0.N) ⊢ Pipeline.ΦA (U := Pipeline.UD sig nD τ) spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 72 := N_0; omega), PhiA_eq]
  iintro ⟨⟨HS0, Hrest⟩, Hg⟩
  isplitl [HS0 Hrest]
  · isplitl [HS0]
    · iexists _; iexact HS0
    iexact Hrest
  iexact Hg

end Cert.KernelIdeal.PassOne

end
-- ==== Proof.KernelIdealPassTwoRuns.lean ====
/-
  The second pass: for every batch entry and every block of queries the grid walks the six key blocks; a column of running
  row sums of the exponential weights lives in a scratch buffer: reset to zero at the first key block, increased by the
  block's row sums at every point, copied to the output block at the last. Here: the three behaviours over the grid, where
  the output window is idle, and the body run in each case on any whole staging buffers.
-/
import proofs.«155866_j66176856097431_1_alg».proof.Proof.Gen.KernelIdeal.Launch
import proofs.«155866_j66176856097431_1_alg».proof.Proof.Gen.KernelIdeal.Skeleton
import proofs.«155866_j66176856097431_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.PassTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid -/

/-- "This is the first step of the reduction axis": the reset condition, from the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 6 = 0 :=
  (by decide +kernel : ∀ t : Fin grid1.N, isFirst (grid1.coords t) ↔ t.val % 6 = 0)

/-- "This is the last step of the reduction axis": the write-out condition. -/
abbrev isLast (i : grid1.Coords) : Prop := k1_cond2 i = 1#1
theorem isLast_iff : ∀ t : Fin cfg1.N, isLast (grid1.coords t) ↔ t.val % 6 = 5 :=
  (by decide +kernel : ∀ t : Fin grid1.N, isLast (grid1.coords t) ↔ t.val % 6 = 5)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
theorem live_out : ∀ t : Fin cfg1.N, isLast (grid1.coords t) → cfg1.idle 3 (grid1.coords t) = false := by decide +kernel

/-! ## The body on any whole staging buffers, case by case -/

set_option maxHeartbeats 1000000 in
/-- First step (and not the last): the scratch may hold anything and ends holding the pieces the run finds; the output block is handed back untouched. -/
noncomputable def runFirst (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i)
    (x0 : Vec F S1x256x1536 .f32) (x1 : Vec F S1x256x1536 .f32) (x2 : Vec F S1x1536x1 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xiO ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xiO ∗ (∃ f, arg7.view.loc (c : Thread nD τ) ↦[arg7.view.set]{fullShare} arg7.view.writes (Elt F) f LS0)) -∗ K ⟨⟩))
          ⊢ wp frame (wpE (defs₀ (F := F)) Variants.none c none) E (cc1__pass2_kernel i arg3 harg3 arg4 harg4 arg5 harg5 arg6 harg6 arg7 harg7) K } := by
  refine ⟨[], ?_, fun xiO E K => ?run⟩
  case run =>
    simp only [cc1__pass2_kernel_eq_skeleton]; unfold cc1__pass2_kernel_skel; simp only [k1_part1_eq_skeleton]; unfold k1_part1_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg3.eq_unread hf0; obtain rfl := harg4.eq_unread hf1; obtain rfl := harg5.eq_unread hf2; obtain rfl := harg6.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS0

set_option maxHeartbeats 1000000 in
/-- A middle step: the scratch holds what the point before left (`xs0`); the output block is handed back untouched. -/
noncomputable def runMid (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i)
    (x0 : Vec F S1x256x1536 .f32) (x1 : Vec F S1x256x1536 .f32) (x2 : Vec F S1x1536x1 .f32) (xs0 : Vec F S1536x1 .f32) :
    Σ' (LO : List (View.Piece (Elt F) S1x1536x1 .f32)), { LS0 : List (View.Piece (Elt F) S1536x1 .f32) //
      ∀ (xiO : Vec F S1x1536x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xiO ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xiO ∗ (∃ f, arg7.view.loc (c : Thread nD τ) ↦[arg7.view.set]{fullShare} arg7.view.writes (Elt F) f LS0)) -∗ K ⟨⟩))
          ⊢ wp frame (wpE (defs₀ (F := F)) Variants.none c none) E (cc1__pass2_kernel i arg3 harg3 arg4 harg4 arg5 harg5 arg6 harg6 arg7 harg7) K } := by
  refine ⟨[], ?_, fun xiO E K => ?run⟩
  case run =>
    simp only [cc1__pass2_kernel_eq_skeleton]; unfold cc1__pass2_kernel_skel; simp only [k1_part1_eq_skeleton]; unfold k1_part1_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg3.eq_unread hf0; obtain rfl := harg4.eq_unread hf1; obtain rfl := harg5.eq_unread hf2; obtain rfl := harg6.eq_unread hfO; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    iexists _; iexact HS0

set_option maxHeartbeats 1000000 in
/-- The last step: the scratch holds `xs0`; the output block may hold anything and ends holding the pieces found. -/
noncomputable def runLast (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i)
    (x0 : Vec F S1x256x1536 .f32) (x1 : Vec F S1x256x1536 .f32) (x2 : Vec F S1x1536x1 .f32) (xs0 : Vec F S1536x1 .f32) :
    Σ' (LO : List (View.Piece (Elt F) S1x1536x1 .f32)), { LS0 : List (View.Piece (Elt F) S1536x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS0)) -∗ K ⟨⟩))
          ⊢ wp frame (wpE (defs₀ (F := F)) Variants.none c none) E (cc1__pass2_kernel i arg3 harg3 arg4 harg4 arg5 harg5 arg6 harg6 arg7 harg7) K } := by
  refine ⟨?_, ?_, fun E K => ?run⟩
  case run =>
    simp only [cc1__pass2_kernel_eq_skeleton]; unfold cc1__pass2_kernel_skel; simp only [k1_part1_eq_skeleton]; unfold k1_part1_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]; · iexists _; iexact HO
    iexists _; iexact HS0

end Cert.KernelIdeal.PassTwo

end
-- ==== Proof.KernelIdealPassTwo.lean ====
/-
  The second pass, point by point: what the output block and the column of running row sums hold after each grid point,
  the invariant that carries the column from point to point, and the body's obligation at every point.
-/
import proofs.«155866_j66176856097431_1_alg».proof.Proof.KernelIdealPassTwoRuns

set_option maxRecDepth 16384

noncomputable section

namespace Cert.KernelIdeal.PassTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of every buffer of the core when the pass is entered
variable (V : (c : Dev nD) → (b : Ref sig .tc) → Buf (Elt F) ((c : Thread nD τ).loc b))

/-- Window `w`'s block at point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the scratch -/

abbrev VO : View sig .tc .vmem S1x1536x1 .f32 := (Memref.whole cc1_stg3_0 : Memref sig .tc .vmem S1x1536x1 .f32).view
abbrev ms0 (t : Fin cfg1.N) : Memref sig .tc .vmem S1x256x1536 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x256x1536 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1536x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1536x1 .f32 := win1_3.stage (cfg1.slots t 3)
abbrev hs3 (t : Fin cfg1.N) : (ms3 t).IsWhole := hstage1_3 ((cfg1.slots t 3).cast nbuf1_3)
abbrev scM : Memref sig .tc .vmem S1536x1 .f32 := Memref.whole cc1_scratch0
abbrev VS : View sig .tc .vmem S1536x1 .f32 := scM.view

/-- The scoped buffers of the core that are neither a staging buffer of this pass nor its scratch, at some contents. -/
abbrev others (c : Dev nD) : sProp 𝕄 :=
  Pipeline.scopedRestBut (Ix := Unit) (Name := ℕ) (U := Pipeline.UD sig nD τ) (Lvl := ℕ) (Val := Elt F) spec1 c [cc1_scratch0]

/-- The pass's class invariant with the scratch as a memref owned at some contents, beside the other scoped buffers and the
    generator register. -/
theorem PhiA_eq (c : Dev nD) :
    (Pipeline.ΦA (U := Pipeline.UD sig nD τ) spec1 c : sProp 𝕄)
      = iprop(iprop((∃ d, owns (c : Thread nD τ) scM fullShare d) ∗ others c) ∗ (∃ r, prngReg c r)) := by
  unfold Pipeline.ΦA
  rw [Pipeline.scopedRest_split_of_list (win := spec1) (c := c) [cc1_scratch0] (by decide) (by decide)]
  simp only [scM, owns_whole, BI.bigSepL_singleton]; try rfl

/-! ## What each case leaves -/

def outFirst (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) : Vec F S1x1536x1 .f32 :=
  VO.read (Elt F) (VO.writes (Elt F) VO.junk (runFirst c i arg3 harg3 arg4 harg4 arg5 harg5 arg6 harg6 arg7 harg7 hc0 hc1 x0 x1 x2).1)
theorem scrFirst_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) (y : S1536x1.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1536x1.size (by sl_kernel_rfl) y
def scrFirst (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) : Vec F S1536x1 .f32 :=
  VS.read (Elt F) (VS.writes (Elt F) VS.junk (runFirst c i arg3 harg3 arg4 harg4 arg5 harg5 arg6 harg6 arg7 harg7 hc0 hc1 x0 x1 x2).2.1)

def outMid (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) : Vec F S1x1536x1 .f32 :=
  VO.read (Elt F) (VO.writes (Elt F) VO.junk (runMid c i arg3 harg3 arg4 harg4 arg5 harg5 arg6 harg6 arg7 harg7 hc0 hc1 x0 x1 x2 xs0).1)
theorem scrMid_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) (y : S1536x1.Idx) :
    ∃ pc ∈ (runMid c i arg3 harg3 arg4 harg4 arg5 harg5 arg6 harg6 arg7 harg7 hc0 hc1 x0 x1 x2 xs0).2.1, y ∈ pc.1.set :=
  View.cover_of_tiledL (runMid c i arg3 harg3 arg4 harg4 arg5 harg5 arg6 harg6 arg7 harg7 hc0 hc1 x0 x1 x2 xs0).2.1 S1536x1.size (by sl_kernel_rfl) y
def scrMid (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) : Vec F S1536x1 .f32 :=
  VS.read (Elt F) (VS.writes (Elt F) VS.junk (runMid c i arg3 harg3 arg4 harg4 arg5 harg5 arg6 harg6 arg7 harg7 hc0 hc1 x0 x1 x2 xs0).2.1)

theorem outLast_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) (y : S1x1536x1.Idx) :
    ∃ pc ∈ (runLast c i arg3 harg3 arg4 harg4 arg5 harg5 arg6 harg6 arg7 harg7 hc0 hc1 x0 x1 x2 xs0).1, y ∈ pc.1.set :=
  View.cover_of_tiledL (runLast c i arg3 harg3 arg4 harg4 arg5 harg5 arg6 harg6 arg7 harg7 hc0 hc1 x0 x1 x2 xs0).1 S1x1536x1.size (by sl_kernel_rfl) y
def outLast (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) : Vec F S1x1536x1 .f32 :=
  VO.read (Elt F) (VO.writes (Elt F) VO.junk (runLast c i arg3 harg3 arg4 harg4 arg5 harg5 arg6 harg6 arg7 harg7 hc0 hc1 x0 x1 x2 xs0).1)
theorem scrLast_cover (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) (y : S1536x1.Idx) :
    ∃ pc ∈ (runLast c i arg3 harg3 arg4 harg4 arg5 harg5 arg6 harg6 arg7 harg7 hc0 hc1 x0 x1 x2 xs0).2.1, y ∈ pc.1.set :=
  View.cover_of_tiledL (runLast c i arg3 harg3 arg4 harg4 arg5 harg5 arg6 harg6 arg7 harg7 hc0 hc1 x0 x1 x2 xs0).2.1 S1536x1.size (by sl_kernel_rfl) y
def scrLast (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) : Vec F S1536x1 .f32 :=
  VS.read (Elt F) (VS.writes (Elt F) VS.junk (runLast c i arg3 harg3 arg4 harg4 arg5 harg5 arg6 harg6 arg7 harg7 hc0 hc1 x0 x1 x2 xs0).2.1)

/-! ## What the output block and the scratch hold after each point -/

/-- After the body at position `n`: (the output window's staging buffer, the scratch). The case the position selects, run at
    the point's buffers and input blocks, from the scratch the point before left. -/
def outsAt (c : Dev nD) : (n : ℕ) → n < cfg1.N → Vec F S1x1536x1 .f32 × Vec F S1536x1 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩), scrFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 6 = 0 then
      (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩), scrFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩))
    else
      if h1 : (n + 1) % 6 = 5 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, scrLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2, scrMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_first (c : Dev nD) (t : Fin cfg1.N) (h0 : t.val % 6 = 0) (h1 : ¬t.val % 6 = 5) :
    outsAt V c t.val t.isLt = (outFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t), scrFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans rfl

theorem outsAt_mid (c : Dev nD) (t : Fin cfg1.N) (h0 : ¬t.val % 6 = 0) (h1 : ¬t.val % 6 = 5) :
    outsAt V c t.val t.isLt = (outMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2, scrMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 6 = 0) (h1 : t.val % 6 = 5) :
    outsAt V c t.val t.isLt = (outLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2, scrLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every scoped buffer at anything); afterwards
    the scratch at what the point before left in it, the other scoped buffers at anything, the generator register. -/
def PhiS (c : Dev nD) : (n : ℕ) → n ≤ cfg1.N → sProp 𝕄
  | 0, _ => Pipeline.ΦA (U := Pipeline.UD sig nD τ) spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA (U := Pipeline.UD sig nD τ) spec1 c := by
  subst hz; rfl
theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pass's proof data -/

/-- The arrays as the pass finds them; after the body each input's buffer at its block, the output's at `outsAt`; the
    invariant `PhiS`; nothing owed; full shares. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_out (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the position's remainder modulo six says which case the
    point is in; the invariant hands the body the scratch at what the point before left (at anything at the very first
    point) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 72 := lt_of_lt_of_eq t.isLt (show cfg1.N = 72 from N_1)
  by_cases h0 : t.val % 6 = 0
  · have h1 : ¬t.val % 6 = 5 := by omega
    rw [show (dat V c).leavesExact 0 t = owns (c : Thread nD τ) (ms0 t) fullShare ((dat V c).after 0 t) from by
      unfold Dat.leavesExact; rw [live_0 t], after_0]
    rw [show (dat V c).leavesExact 1 t = owns (c : Thread nD τ) (ms1 t) fullShare ((dat V c).after 1 t) from by
      unfold Dat.leavesExact; rw [live_1 t], after_1]
    rw [show (dat V c).leavesExact 2 t = owns (c : Thread nD τ) (ms2 t) fullShare ((dat V c).after 2 t) from by
      unfold Dat.leavesExact; rw [live_2 t], after_2]
    rw [Dat.leavesExact_idle (dat V c) 3 t (idle_out t (fun h => h1 ((isLast_iff t).mp h))) (noFlush_out t (fun h => h1 ((isLast_iff t).mp h)))]
    rw [outsAt_first V c t h0 h1]
    unfold scrFirst; (try dsimp only)
    by_cases hz : t.val = 0
    · rw [PhiS_castSucc V c t, PhiS_zero V c _ _ hz, PhiA_eq]
      iintro ⟨⟨⟨HS0, Hrest⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 6 = 5
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_out t ((isLast_iff t).mpr h1)], after_out]
      rw [outsAt_last V c t h0 h1]
      unfold outLast scrLast; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%eO, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrLast_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [Dat.leavesExact_idle (dat V c) 3 t (idle_out t (fun h => h1 ((isLast_iff t).mp h))) (noFlush_out t (fun h => h1 ((isLast_iff t).mp h)))]
      rw [outsAt_mid V c t h0 h1]
      unfold scrMid; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((runMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrMid_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the pass is entered with (the class's invariant) is the invariant before the first point. -/
theorem hin (c : Dev nD) : Pipeline.ΦA (U := Pipeline.UD sig nD τ) spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg1.N) ⊢ Pipeline.ΦA (U := Pipeline.UD sig nD τ) spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 72 := N_1; omega), PhiA_eq]
  iintro ⟨⟨HS0, Hrest⟩, Hg⟩
  isplitl [HS0 Hrest]
  · isplitl [HS0]
    · iexists _; iexact HS0
    iexact Hrest
  iexact Hg

end Cert.KernelIdeal.PassTwo

end
-- ==== Proof.KernelIdealPassThreeRuns.lean ====
/-
  The third pass: for every batch entry and every block of keys the grid walks the six query blocks; a row of running
  column maxima of the normalised weights lives in a scratch buffer: reset to −∞ at the first query block, raised by the
  block's column maxima at every point, copied to the output block at the last. Here: the three behaviours over the grid,
  where the output window is idle, and the body run in each case on any whole staging buffers.
-/
import proofs.«155866_j66176856097431_1_alg».proof.Proof.Gen.KernelIdeal.Launch
import proofs.«155866_j66176856097431_1_alg».proof.Proof.Gen.KernelIdeal.Skeleton
import proofs.«155866_j66176856097431_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.PassThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid -/

/-- "This is the first step of the reduction axis": the reset condition, from the grid coordinates. -/
abbrev isFirst (i : grid2.Coords) : Prop := (Scalar.cmpi .ne (Scalar.extui (Scalar.cmpi .eq (BitVec.ofNat 32 (i 2).val) 0#32)) 0#32) = 1#1
theorem isFirst_iff : ∀ t : Fin cfg2.N, isFirst (grid2.coords t) ↔ t.val % 6 = 0 :=
  (by decide +kernel : ∀ t : Fin grid2.N, isFirst (grid2.coords t) ↔ t.val % 6 = 0)

/-- "This is the last step of the reduction axis": the write-out condition. -/
abbrev isLast (i : grid2.Coords) : Prop := k2_cond2 i = 1#1
theorem isLast_iff : ∀ t : Fin cfg2.N, isLast (grid2.coords t) ↔ t.val % 6 = 5 :=
  (by decide +kernel : ∀ t : Fin grid2.N, isLast (grid2.coords t) ↔ t.val % 6 = 5)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem idle_out : ∀ t : Fin cfg2.N, ¬isLast (grid2.coords t) → cfg2.idle 4 (grid2.coords t) = true := by decide +kernel
theorem noFlush_out : ∀ t : Fin cfg2.N, ¬isLast (grid2.coords t) → (cfg2.win 4).flush t = false := by decide +kernel
theorem live_out : ∀ t : Fin cfg2.N, isLast (grid2.coords t) → cfg2.idle 4 (grid2.coords t) = false := by decide +kernel

/-! ## The body on any whole staging buffers, case by case -/

set_option maxHeartbeats 1000000 in
/-- First step (and not the last): the scratch may hold anything and ends holding the pieces the run finds; the output block is handed back untouched. -/
noncomputable def runFirst (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i)
    (x0 : Vec F S1x256x1536 .f32) (x1 : Vec F S1x256x1536 .f32) (x2 : Vec F S1x1536x1 .f32) (x3 : Vec F S1x1536x1 .f32) :
    Σ' (LO : List (View.Piece (Elt F) S1x1x1536 .f32)), { LS0 : List (View.Piece (Elt F) S1x1536 .f32) //
      ∀ (xiO : Vec F S1x1x1536 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ (∃ f, arg8.view.loc (c : Thread nD τ) ↦[arg8.view.set]{fullShare} arg8.view.writes (Elt F) f LS0)) -∗ K ⟨⟩))
          ⊢ wp frame (wpE (defs₀ (F := F)) Variants.none c none) E (cc2__pass3_kernel i arg3 harg3 arg4 harg4 arg5 harg5 arg6 harg6 arg7 harg7 arg8 harg8) K } := by
  refine ⟨[], ?_, fun xiO E K => ?run⟩
  case run =>
    simp only [cc2__pass3_kernel_eq_skeleton]; unfold cc2__pass3_kernel_skel; simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%fO, %hfO, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 1000000 in
/-- A middle step: the scratch holds what the point before left (`xs0`); the output block is handed back untouched. -/
noncomputable def runMid (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i)
    (x0 : Vec F S1x256x1536 .f32) (x1 : Vec F S1x256x1536 .f32) (x2 : Vec F S1x1536x1 .f32) (x3 : Vec F S1x1536x1 .f32) (xs0 : Vec F S1x1536 .f32) :
    Σ' (LO : List (View.Piece (Elt F) S1x1x1536 .f32)), { LS0 : List (View.Piece (Elt F) S1x1536 .f32) //
      ∀ (xiO : Vec F S1x1x1536 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xiO ∗ (∃ f, arg8.view.loc (c : Thread nD τ) ↦[arg8.view.set]{fullShare} arg8.view.writes (Elt F) f LS0)) -∗ K ⟨⟩))
          ⊢ wp frame (wpE (defs₀ (F := F)) Variants.none c none) E (cc2__pass3_kernel i arg3 harg3 arg4 harg4 arg5 harg5 arg6 harg6 arg7 harg7 arg8 harg8) K } := by
  refine ⟨[], ?_, fun xiO E K => ?run⟩
  case run =>
    simp only [cc2__pass3_kernel_eq_skeleton]; unfold cc2__pass3_kernel_skel; simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%fO, %hfO, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfO; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

set_option maxHeartbeats 1000000 in
/-- The last step: the scratch holds `xs0`; the output block may hold anything and ends holding the pieces found. -/
noncomputable def runLast (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i)
    (x0 : Vec F S1x256x1536 .f32) (x1 : Vec F S1x256x1536 .f32) (x2 : Vec F S1x1536x1 .f32) (x3 : Vec F S1x1536x1 .f32) (xs0 : Vec F S1x1536 .f32) :
    Σ' (LO : List (View.Piece (Elt F) S1x1x1536 .f32)), { LS0 : List (View.Piece (Elt F) S1x1536 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS0)) -∗ K ⟨⟩))
          ⊢ wp frame (wpE (defs₀ (F := F)) Variants.none c none) E (cc2__pass3_kernel i arg3 harg3 arg4 harg4 arg5 harg5 arg6 harg6 arg7 harg7 arg8 harg8) K } := by
  refine ⟨?_, ?_, fun E K => ?run⟩
  case run =>
    simp only [cc2__pass3_kernel_eq_skeleton]; unfold cc2__pass3_kernel_skel; simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%dO, %fO, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]; · iexists _; iexact HO
    iexists _; iexact HS0

end Cert.KernelIdeal.PassThree

end
-- ==== Proof.KernelIdealPassThree.lean ====
/-
  The third pass, point by point: what the output block and the row of running column maxima hold after each grid point,
  the invariant that carries the row from point to point, and the body's obligation at every point.
-/
import proofs.«155866_j66176856097431_1_alg».proof.Proof.KernelIdealPassThreeRuns

set_option maxRecDepth 16384

noncomputable section

namespace Cert.KernelIdeal.PassThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of every buffer of the core when the pass is entered
variable (V : (c : Dev nD) → (b : Ref sig .tc) → Buf (Elt F) ((c : Thread nD τ).loc b))

/-- Window `w`'s block at point `t`, read off its array as the pass finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_3_of {c : Dev nD} (dat : Dat τ (Elt F) Unit ℕ (Pipeline.UD sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point, and the scratch -/

abbrev VO : View sig .tc .vmem S1x1x1536 .f32 := (Memref.whole cc2_stg4_0 : Memref sig .tc .vmem S1x1x1536 .f32).view
abbrev ms0 (t : Fin cfg2.N) : Memref sig .tc .vmem S1x256x1536 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x256x1536 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1536x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1536x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x1x1536 .f32 := win2_4.stage (cfg2.slots t 4)
abbrev hs4 (t : Fin cfg2.N) : (ms4 t).IsWhole := hstage2_4 ((cfg2.slots t 4).cast nbuf2_4)
abbrev scM : Memref sig .tc .vmem S1x1536 .f32 := Memref.whole cc2_scratch0
abbrev VS : View sig .tc .vmem S1x1536 .f32 := scM.view

/-- The scoped buffers of the core that are neither a staging buffer of this pass nor its scratch, at some contents. -/
abbrev others (c : Dev nD) : sProp 𝕄 :=
  Pipeline.scopedRestBut (Ix := Unit) (Name := ℕ) (U := Pipeline.UD sig nD τ) (Lvl := ℕ) (Val := Elt F) spec2 c [cc2_scratch0]

/-- The pass's class invariant with the scratch as a memref owned at some contents, beside the other scoped buffers and the
    generator register. -/
theorem PhiA_eq (c : Dev nD) :
    (Pipeline.ΦA (U := Pipeline.UD sig nD τ) spec2 c : sProp 𝕄)
      = iprop(iprop((∃ d, owns (c : Thread nD τ) scM fullShare d) ∗ others c) ∗ (∃ r, prngReg c r)) := by
  unfold Pipeline.ΦA
  rw [Pipeline.scopedRest_split_of_list (win := spec2) (c := c) [cc2_scratch0] (by decide) (by decide)]
  simp only [scM, owns_whole, BI.bigSepL_singleton]; try rfl

/-! ## What each case leaves -/

def outFirst (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) : Vec F S1x1x1536 .f32 :=
  VO.read (Elt F) (VO.writes (Elt F) VO.junk (runFirst c i arg3 harg3 arg4 harg4 arg5 harg5 arg6 harg6 arg7 harg7 arg8 harg8 hc0 hc1 x0 x1 x2 x3).1)
theorem scrFirst_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) (y : S1x1536.Idx) :
    ∃ pc ∈ (runFirst c i arg3 harg3 arg4 harg4 arg5 harg5 arg6 harg6 arg7 harg7 arg8 harg8 hc0 hc1 x0 x1 x2 x3).2.1, y ∈ pc.1.set :=
  View.cover_of_tiledL (runFirst c i arg3 harg3 arg4 harg4 arg5 harg5 arg6 harg6 arg7 harg7 arg8 harg8 hc0 hc1 x0 x1 x2 x3).2.1 S1x1536.size (by sl_kernel_rfl) y
def scrFirst (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) : Vec F S1x1536 .f32 :=
  VS.read (Elt F) (VS.writes (Elt F) VS.junk (runFirst c i arg3 harg3 arg4 harg4 arg5 harg5 arg6 harg6 arg7 harg7 arg8 harg8 hc0 hc1 x0 x1 x2 x3).2.1)

def outMid (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) : Vec F S1x1x1536 .f32 :=
  VO.read (Elt F) (VO.writes (Elt F) VO.junk (runMid c i arg3 harg3 arg4 harg4 arg5 harg5 arg6 harg6 arg7 harg7 arg8 harg8 hc0 hc1 x0 x1 x2 x3 xs0).1)
theorem scrMid_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) (y : S1x1536.Idx) :
    ∃ pc ∈ (runMid c i arg3 harg3 arg4 harg4 arg5 harg5 arg6 harg6 arg7 harg7 arg8 harg8 hc0 hc1 x0 x1 x2 x3 xs0).2.1, y ∈ pc.1.set :=
  View.cover_of_tiledL (runMid c i arg3 harg3 arg4 harg4 arg5 harg5 arg6 harg6 arg7 harg7 arg8 harg8 hc0 hc1 x0 x1 x2 x3 xs0).2.1 S1x1536.size (by sl_kernel_rfl) y
def scrMid (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) : Vec F S1x1536 .f32 :=
  VS.read (Elt F) (VS.writes (Elt F) VS.junk (runMid c i arg3 harg3 arg4 harg4 arg5 harg5 arg6 harg6 arg7 harg7 arg8 harg8 hc0 hc1 x0 x1 x2 x3 xs0).2.1)

theorem outLast_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) (y : S1x1x1536.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1x1x1536.size (by sl_kernel_rfl) y
def outLast (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) : Vec F S1x1x1536 .f32 :=
  VO.read (Elt F) (VO.writes (Elt F) VO.junk (runLast c i arg3 harg3 arg4 harg4 arg5 harg5 arg6 harg6 arg7 harg7 arg8 harg8 hc0 hc1 x0 x1 x2 x3 xs0).1)
theorem scrLast_cover (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) (y : S1x1536.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S1x1536.size (by sl_kernel_rfl) y
def scrLast (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) : Vec F S1x1536 .f32 :=
  VS.read (Elt F) (VS.writes (Elt F) VS.junk (runLast c i arg3 harg3 arg4 harg4 arg5 harg5 arg6 harg6 arg7 harg7 arg8 harg8 hc0 hc1 x0 x1 x2 x3 xs0).2.1)

/-! ## What the output block and the scratch hold after each point -/

/-- After the body at position `n`: (the output window's staging buffer, the scratch). The case the position selects, run at
    the point's buffers and input blocks, from the scratch the point before left. -/
def outsAt (c : Dev nD) : (n : ℕ) → n < cfg2.N → Vec F S1x1x1536 .f32 × Vec F S1x1536 .f32
  | 0, hn => (outFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩), scrFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 6 = 0 then
      (outFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩), scrFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((isFirst_iff ⟨n + 1, hn⟩).mpr h0) (fun h => (fun h : (n + 1) % 6 = 5 => by omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 6 = 5 then
        (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, scrLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (outMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, scrMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_first (c : Dev nD) (t : Fin cfg2.N) (h0 : t.val % 6 = 0) (h1 : ¬t.val % 6 = 5) :
    outsAt V c t.val t.isLt = (outFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t), scrFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)) := by
  obtain ⟨n, hn⟩ := t
  cases n with
  | zero => exact rfl
  | succ n => exact (dif_pos h0).trans rfl

theorem outsAt_mid (c : Dev nD) (t : Fin cfg2.N) (h0 : ¬t.val % 6 = 0) (h1 : ¬t.val % 6 = 5) :
    outsAt V c t.val t.isLt = (outMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2, scrMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg2.N) (h0 : ¬t.val % 6 = 0) (h1 : t.val % 6 = 5) :
    outsAt V c t.val t.isLt = (outLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2, scrLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (every scoped buffer at anything); afterwards
    the scratch at what the point before left in it, the other scoped buffers at anything, the generator register. -/
def PhiS (c : Dev nD) : (n : ℕ) → n ≤ cfg2.N → sProp 𝕄
  | 0, _ => Pipeline.ΦA (U := Pipeline.UD sig nD τ) spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA (U := Pipeline.UD sig nD τ) spec2 c := by
  subst hz; rfl
theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pass's proof data -/

/-- The arrays as the pass finds them; after the body each input's buffer at its block, the output's at `outsAt`; the
    invariant `PhiS`; nothing owed; full shares. -/
def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_out (c : Dev nD) (t : Fin cfg2.N) : (dat V c).after 4 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' buffers hold their blocks; the position's remainder modulo six says which case the
    point is in; the invariant hands the body the scratch at what the point before left (at anything at the very first
    point) and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 72 := lt_of_lt_of_eq t.isLt (show cfg2.N = 72 from N_2)
  by_cases h0 : t.val % 6 = 0
  · have h1 : ¬t.val % 6 = 5 := by omega
    rw [show (dat V c).leavesExact 0 t = owns (c : Thread nD τ) (ms0 t) fullShare ((dat V c).after 0 t) from by
      unfold Dat.leavesExact; rw [live_0 t], after_0]
    rw [show (dat V c).leavesExact 1 t = owns (c : Thread nD τ) (ms1 t) fullShare ((dat V c).after 1 t) from by
      unfold Dat.leavesExact; rw [live_1 t], after_1]
    rw [show (dat V c).leavesExact 2 t = owns (c : Thread nD τ) (ms2 t) fullShare ((dat V c).after 2 t) from by
      unfold Dat.leavesExact; rw [live_2 t], after_2]
    rw [show (dat V c).leavesExact 3 t = owns (c : Thread nD τ) (ms3 t) fullShare ((dat V c).after 3 t) from by
      unfold Dat.leavesExact; rw [live_3 t], after_3]
    rw [Dat.leavesExact_idle (dat V c) 4 t (idle_out t (fun h => h1 ((isLast_iff t).mp h))) (noFlush_out t (fun h => h1 ((isLast_iff t).mp h)))]
    rw [outsAt_first V c t h0 h1]
    unfold scrFirst; (try dsimp only)
    by_cases hz : t.val = 0
    · rw [PhiS_castSucc V c t, PhiS_zero V c _ _ hz, PhiA_eq]
      iintro ⟨⟨⟨HS0, Hrest⟩, Hg⟩, Ho, ⟨%d0, H0⟩, ⟨%d1, H1⟩, ⟨%d2, H2⟩, ⟨%d3, H3⟩, ⟨%d4, H4⟩⟩
      iapply ((runFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrFirst_cover c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 6 = 5
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [show (dat V c).leavesExact 4 t = owns (c : Thread nD τ) (ms4 t) fullShare ((dat V c).after 4 t) from by
        unfold Dat.leavesExact; rw [live_out t ((isLast_iff t).mpr h1)], after_out]
      rw [outsAt_last V c t h0 h1]
      unfold outLast scrLast; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%eO, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrLast_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast_cover c _ _ _ _ _ _ _ _ _ _ _ _ _ _ _ _ _ _ _ _)
    ·
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t], after_3]
      rw [Dat.leavesExact_idle (dat V c) 4 t (idle_out t (fun h => h1 ((isLast_iff t).mp h))) (noFlush_out t (fun h => h1 ((isLast_iff t).mp h)))]
      rw [outsAt_mid V c t h0 h1]
      unfold scrMid; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((runMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scrMid_cover c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the pass is entered with (the class's invariant) is the invariant before the first point. -/
theorem hin (c : Dev nD) : Pipeline.ΦA (U := Pipeline.UD sig nD τ) spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's named contents are forgotten. -/
theorem hout (c : Dev nD) : (dat V c).Φ (Fin.last cfg2.N) ⊢ Pipeline.ΦA (U := Pipeline.UD sig nD τ) spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 72 := N_2; omega), PhiA_eq]
  iintro ⟨⟨HS0, Hrest⟩, Hg⟩
  isplitl [HS0 Hrest]
  · isplitl [HS0]
    · iexists _; iexact HS0
    iexact Hrest
  iexact Hg

end Cert.KernelIdeal.PassThree

end
-- ==== Proof.KernelIdealWhole.lean ====
/-
  The whole program as a run of five segments: the host operations that centre and normalise the features, the three
  passes, and the host operations that average and take logarithms. Between two segments the core's unscoped buffers are
  held at a named valuation: the launch memory, then what the host operations compute from it, then after each pass its
  output array at what the pass's write-backs leave and every other buffer unchanged. The run ends with every unscoped
  buffer at the last valuation; the frame and the value claims read their buffers off it.
-/
import proofs.«155866_j66176856097431_1_alg».proof.Proof.KernelIdealPassOne
import proofs.«155866_j66176856097431_1_alg».proof.Proof.KernelIdealPassTwo
import proofs.«155866_j66176856097431_1_alg».proof.Proof.KernelIdealPassThree
import proofs.«155866_j66176856097431_1_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (HostSeg RegionSeg Seg)

variable (m : (ℓ : Loc nD τ sig) → Buf (Elt F) ℓ)

/-! ## The buffer contents at each segment boundary -/

/-- At launch. -/
abbrev W0 (c : Dev nD) : Valuation τ sig (Elt F) := fun b => m (c, b)
/-- After the leading host operations. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After pass 1: its arrays at what the pass leaves (the inputs as entered, the output's write-backs folded), every other
    buffer as entered. -/
def W2 (c : Dev nD) : Valuation τ sig (Elt F) :=
  Pipeline.withArrays spec0 c (W1 m c) fun w => (PassOne.dat (V1 m) c).arrAt w cfg0.N
theorem W2_arr (c : Dev nD) (w : Fin cfg0.W) :
    W2 m c (Proc.devRef .tc (Pipeline.arrRef spec0 w)) = (PassOne.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (PassOne.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After pass 2: its arrays at what the pass leaves (the inputs as entered, the output's write-backs folded), every other
    buffer as entered. -/
def W3 (c : Dev nD) : Valuation τ sig (Elt F) :=
  Pipeline.withArrays spec1 c (W2 m c) fun w => (PassTwo.dat (V2 m) c).arrAt w cfg1.N
theorem W3_arr (c : Dev nD) (w : Fin cfg1.W) :
    W3 m c (Proc.devRef .tc (Pipeline.arrRef spec1 w)) = (PassTwo.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (PassTwo.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After pass 3: its arrays at what the pass leaves (the inputs as entered, the output's write-backs folded), every other
    buffer as entered. -/
def W4 (c : Dev nD) : Valuation τ sig (Elt F) :=
  Pipeline.withArrays spec2 c (W3 m c) fun w => (PassThree.dat (V3 m) c).arrAt w cfg2.N
theorem W4_arr (c : Dev nD) (w : Fin cfg2.W) :
    W4 m c (Proc.devRef .tc (Pipeline.arrRef spec2 w)) = (PassThree.dat (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (PassThree.dat (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the trailing host operations. -/
abbrev W5 (c : Dev nD) : Valuation τ sig (Elt F) := StableHlo.after hostOps3 (W4 m c)

/-! ## The proof data family and the thread state -/

abbrev adm : (p : Fin 3) → (pcfgs (F := F) p).Adm := fun p => (cfgs p).toPCfg_adm
def pdats : (p : Fin 3) → (c : Dev nD) → Dat τ (Elt F) Unit ℕ (Pipeline.UD sig nD τ) ℕ (Pipeline.pin (pcfgs (F := F)) adm p) c
  | ⟨0, _⟩ => fun c => PassOne.dat (V1 m) c
  | ⟨1, _⟩ => fun c => PassTwo.dat (V2 m) c
  | ⟨2, _⟩ => fun c => PassThree.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The passes as segments -/

set_option backward.isDefEq.respectTransparency.types false in
/-- Pass 1 as a segment: entered from every unscoped buffer at `W1`, left at `W2`. Its arrays are split out of the
    unscoped buffers and put back at what the pass leaves; the generator register goes into the pass's invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA (U := Pipeline.UD sig nD τ) spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA (U := Pipeline.UD sig nD τ) spec0 c from PassOne.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at `W2`, left at `W3`. Its arrays are split out of the
    unscoped buffers and put back at what the pass leaves; the generator register goes into the pass's invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA (U := Pipeline.UD sig nD τ) spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA (U := Pipeline.UD sig nD τ) spec1 c from PassTwo.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at `W3`, left at `W4`. Its arrays are split out of the
    unscoped buffers and put back at what the pass leaves; the generator register goes into the pass's invariant and comes
    back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (PassThree.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA (U := Pipeline.UD sig nD τ) spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA (U := Pipeline.UD sig nD τ) spec2 c from PassThree.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]
theorem main_run (c : Dev nD) : main (F := F) c = Pipeline.Seg.run (segs m) := (main_chain c).trans (by chain_rfl)

set_option backward.isDefEq.respectTransparency.types false in
/-- Every weakly fair execution of the program from memory `m` with zero counters terminates, nothing faulting, and every
    final memory holds every unscoped buffer at the last valuation `W5`. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W5 m c (Proc.devRef .tc b)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c b hb => h c _ (mem_uc b hb))

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps3 _ hostOps3_writes (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps3 _ hostOps3_writes (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The frame: the program runs to the end, faults nowhere, and leaves its two argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W5_main_arg0 m c), (h c main_arg1 (by decide)).trans (W5_main_arg1 m c)⟩) (run_all m ρ)

end Cert.KernelIdeal.Whole

end
-- ==== Proof.Literals.lean ====
/-
  The float literals of the two programs, read as extended reals.

  An IEEE binary32 word with sign `s`, biased exponent `E` (0 < E < 255) and fraction `T` denotes the dyadic rational
  `(-1)^s · (2^23 + T) · 2^(E - 150)`; exponent 255 with `T = 0` denotes `±∞`; the all-zero word denotes `0`.
  Each literal below is evaluated once, here, so that no other module unfolds the reading of a word.

    0x3F800000 = 1          0x3F000000 = 1/2        0x40000000 = 2
    0x46900000 = 18432      0x46100000 = 9216       0x00000000 = 0
    0x7F800000 = +∞         0xFF800000 = −∞
    0x3727C5AC = 10995116 / 2^40  (about 1.0e-5, positive)
    0x2B8CBCCC = 9223372 / 2^63   (about 1.0e-12, positive)
-/
import Idealize.ShloMosaic.PureOps.Ideal

noncomputable section

namespace Cert.Literals

open Idealize.ShloMosaic

/-- The word of `1.0` denotes the real `1`. -/
theorem ofBits_one : Ideal.ofBits .f32 0x3F800000#32 = ((1 : ℝ) : EReal) := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

/-- The word of `18432.0` denotes the real `18432`. -/
theorem ofBits_18432 : Ideal.ofBits .f32 0x46900000#32 = ((18432 : ℝ) : EReal) := by
  simp [Ideal.ofBits, Ideal.ieee, -EReal.coe_mul]; norm_num

/-- The word of `9216.0` denotes the real `9216`. -/
theorem ofBits_9216 : Ideal.ofBits .f32 0x46100000#32 = ((9216 : ℝ) : EReal) := by
  simp [Ideal.ofBits, Ideal.ieee, -EReal.coe_mul]; norm_num

/-- The all-zero word denotes `0`. -/
theorem ofBits_zero : Ideal.ofBits .f32 0x00000000#32 = 0 := by
  simp [Ideal.ofBits, Ideal.ieee]

/-- The all-zero word denotes the real `0`. -/
theorem ofBits_zero_coe : Ideal.ofBits .f32 0x00000000#32 = ((0 : ℝ) : EReal) := by
  rw [ofBits_zero, EReal.coe_zero]

/-- The word of `+∞` denotes the top element. -/
theorem ofBits_pinf : Ideal.ofBits .f32 0x7F800000#32 = ⊤ := by
  simp [Ideal.ofBits, Ideal.ieee]

/-- The word of `−∞` denotes the bottom element. -/
theorem ofBits_ninf : Ideal.ofBits .f32 0xFF800000#32 = ⊥ := by
  simp [Ideal.ofBits, Ideal.ieee]

/-- The word `0x3727C5AC` (the float nearest `1e-5`) denotes `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The word `0x2B8CBCCC` (the float nearest `1e-12`) denotes `9223372 / 2^63`. -/
theorem ofBits_tiny : Ideal.ofBits .f32 0x2B8CBCCC#32 = ((9223372 / 2 ^ 63 : ℝ) : EReal) := by
  simp [Ideal.ofBits, Ideal.ieee, -EReal.coe_mul]; norm_num

/-- The word `0x3727C5AC` denotes a positive real. -/
theorem ofBits_eps_pos : ∃ e : ℝ, 0 < e ∧ Ideal.ofBits .f32 0x3727C5AC#32 = (e : EReal) :=
  ⟨10995116 / 2 ^ 40, by positivity, ofBits_eps⟩

/-- The word `0x2B8CBCCC` denotes a positive real. -/
theorem ofBits_tiny_pos : ∃ t : ℝ, 0 < t ∧ Ideal.ofBits .f32 0x2B8CBCCC#32 = (t : EReal) :=
  ⟨9223372 / 2 ^ 63, by positivity, ofBits_tiny⟩

end Cert.Literals

end
-- ==== Proof.Contextual.lean ====
/-
  The contextual (cosine) similarity of two families of feature vectors, in two spellings.

  Fix feature vectors `a · q` (one per query `q`) and `b · k` (one per key `k`), both indexed by a channel `c`, with
  extended-real entries. The cosine distance of a query and a key is `dist q k = 1 − Σ_c a c q · b c k`; `dmin q` is its
  minimum over the keys. Each spelling turns the distances of a query into positive weights, normalises them over the
  keys, and takes, per key, the maximum over the queries:

    first spelling:    w q k = exp ((0 − dist q k) / (½ · (dmin q + ε)))
    second spelling:   w' q k = exp ((1 − dist q k / (dmin q + ε)) / ½)

  with `c q k = w q k / Σ_k' w q k'` and `m k = max_q c q k` in both. Over real distances with `dmin q + ε ≠ 0` the
  exponents differ by the constant 2, so the weights differ by the factor e², which cancels in the quotient.
  The literals are kept as float words: `1`, `½`, `ε`, `0`, `±∞` below are the extended reals those words denote.
-/
import Idealize.ShloMosaic.PureOps.Ideal

noncomputable section

namespace Cert.Contextual

open Idealize.ShloMosaic

/-- The words of the float literals both programs use, read as extended reals. -/
abbrev one : EReal := Ideal.ofBits .f32 0x3F800000#32
abbrev half : EReal := Ideal.ofBits .f32 0x3F000000#32
abbrev eps : EReal := Ideal.ofBits .f32 0x3727C5AC#32
abbrev zero : EReal := Ideal.ofBits .f32 0x00000000#32
abbrev pinf : EReal := Ideal.ofBits .f32 0x7F800000#32
abbrev ninf : EReal := Ideal.ofBits .f32 0xFF800000#32

variable {C Q K : Type} [Fintype C] [Fintype Q] [Fintype K]

/-- The cosine distance of query `q` and key `k`. -/
def dist (a : C → Q → EReal) (b : C → K → EReal) (q : Q) (k : K) : EReal := one - ∑ c, a c q * b c k

/-- The least distance from query `q` to a key, starting from +∞. -/
def dmin (a : C → Q → EReal) (b : C → K → EReal) (q : Q) : EReal :=
  (Finset.univ : Finset K).fold min pinf (fun k => dist a b q k)

/-- First spelling: the weight of key `k` for query `q`, given the query's least distance `μ`. -/
def wgt (μ : Q → EReal) (a : C → Q → EReal) (b : C → K → EReal) (q : Q) (k : K) : EReal :=
  Ideal.exp (Ideal.div (zero - dist a b q k) (half * (μ q + eps)))

/-- Second spelling of the weight. -/
def wgt' (μ : Q → EReal) (a : C → Q → EReal) (b : C → K → EReal) (q : Q) (k : K) : EReal :=
  Ideal.exp (Ideal.div (one - Ideal.div (dist a b q k) (μ q + eps)) half)

/-- The weights of a query summed over the keys (either spelling: `w` is `wgt μ a b` or `wgt' μ a b`). -/
def wsum (w : Q → K → EReal) (q : Q) : EReal := ∑ k, w q k

/-- The greatest normalised weight of key `k` over the queries, starting from −∞; `s q` is the normaliser of query `q`. -/
def cmax (w : Q → K → EReal) (s : Q → EReal) (k : K) : EReal :=
  (Finset.univ : Finset Q).fold max ninf (fun q => Ideal.div (w q k) (s q))

/-- The first spelling end to end. -/
def sim (a : C → Q → EReal) (b : C → K → EReal) (k : K) : EReal :=
  cmax (wgt (dmin a b) a b) (wsum (wgt (dmin a b) a b)) k

/-- The second spelling end to end. -/
def sim' (a : C → Q → EReal) (b : C → K → EReal) (k : K) : EReal :=
  cmax (wgt' (dmin a b) a b) (wsum (wgt' (dmin a b) a b)) k

end Cert.Contextual

end
-- ==== Proof.Spellings.lean ====
/-
  The two spellings of the contextual weights give the same normalised weights.

  Fix a query. Write `d k` for its (real) distance to key `k`, `m ≥ 0` for its least distance and `ε > 0`.
  The first spelling's weight is `exp u_k` with `u_k = (0 − d k) / (½ · (m + ε))`; the second's is
  `exp ((1 − d k / (m + ε)) / ½) = exp (2 + u_k) = e² · exp u_k`, because `m + ε ≠ 0` and `½ ≠ 0` make both
  divisions real divisions. Hence the second row sum is `e²` times the first, both row sums are positive (a sum of
  exponentials over a nonempty set of keys), and the factor `e²` cancels in the quotient.

  Also here: the least of finitely many nonnegative real distances over a nonempty set of keys is a nonnegative real.
-/
import proofs.«155866_j66176856097431_1_alg».proof.Proof.Contextual
import proofs.«155866_j66176856097431_1_alg».proof.Proof.Literals

noncomputable section

namespace Cert.Contextual

open Idealize.ShloMosaic

/-- A finite sum of coerced reals is the coercion of the real sum. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real-number core: with `g k = e² · f k` for positive `f`, the normalised values agree. -/
theorem real_core {K : Type} [Fintype K] (d : K → ℝ) (m e : ℝ) (hm : 0 ≤ m) (he : 0 < e) (k : K) :
    Real.exp ((0 - d k) * (1 / (1 / 2 * (m + e)))) * (1 / ∑ k', Real.exp ((0 - d k') * (1 / (1 / 2 * (m + e)))))
      = Real.exp ((1 - d k * (1 / (m + e))) * (1 / (1 / 2)))
          * (1 / ∑ k', Real.exp ((1 - d k' * (1 / (m + e))) * (1 / (1 / 2)))) := by
  have hme : m + e ≠ 0 := by positivity
  have hg : ∀ k', Real.exp ((1 - d k' * (1 / (m + e))) * (1 / (1 / 2)))
      = Real.exp 2 * Real.exp ((0 - d k') * (1 / (1 / 2 * (m + e)))) := by
    intro k'
    rw [← Real.exp_add]
    congr 1
    field_simp
    ring
  have hpos : 0 < ∑ k', Real.exp ((0 - d k') * (1 / (1 / 2 * (m + e)))) :=
    Finset.sum_pos (fun _ _ => Real.exp_pos _) ⟨k, Finset.mem_univ k⟩
  simp only [hg]
  rw [← Finset.mul_sum]
  have h2 : Real.exp 2 ≠ 0 := (Real.exp_pos 2).ne'
  field_simp

variable {C Q K : Type} [Fintype C] [Fintype Q] [Fintype K]

/-- The first spelling's weight at real data. -/
theorem wgt_coe (μ : Q → EReal) (a : C → Q → EReal) (b : C → K → EReal) (q : Q) (k : K) {m e d : ℝ}
    (hm : 0 ≤ m) (he : 0 < e) (hμ : μ q = (m : EReal)) (heps : eps = (e : EReal)) (hd : dist a b q k = (d : EReal)) :
    wgt μ a b q k = ((Real.exp ((0 - d) * (1 / (1 / 2 * (m + e)))) : ℝ) : EReal) := by
  have hs : (1 / 2 * (m + e) : ℝ) ≠ 0 := by positivity
  unfold wgt
  rw [hd, hμ, heps]
  show Ideal.exp (Ideal.div (Ideal.ofBits .f32 0x00000000#32 - (d : EReal))
    (Ideal.ofBits .f32 0x3F000000#32 * ((m : EReal) + (e : EReal)))) = _
  rw [Cert.Literals.ofBits_zero_coe, Cert.Literals.ofBits_half, ← EReal.coe_sub, ← EReal.coe_add, ← EReal.coe_mul,
    Ideal.div_coe hs, ← EReal.coe_mul, Ideal.exp_coe]

/-- The second spelling's weight at real data. -/
theorem wgt'_coe (μ : Q → EReal) (a : C → Q → EReal) (b : C → K → EReal) (q : Q) (k : K) {m e d : ℝ}
    (hm : 0 ≤ m) (he : 0 < e) (hμ : μ q = (m : EReal)) (heps : eps = (e : EReal)) (hd : dist a b q k = (d : EReal)) :
    wgt' μ a b q k = ((Real.exp ((1 - d * (1 / (m + e))) * (1 / (1 / 2))) : ℝ) : EReal) := by
  have hme : (m + e : ℝ) ≠ 0 := by positivity
  have hh : (1 / 2 : ℝ) ≠ 0 := by norm_num
  unfold wgt'
  rw [hd, hμ, heps]
  show Ideal.exp (Ideal.div (Ideal.ofBits .f32 0x3F800000#32 - Ideal.div (d : EReal) ((m : EReal) + (e : EReal)))
    (Ideal.ofBits .f32 0x3F000000#32)) = _
  rw [Cert.Literals.ofBits_one, Cert.Literals.ofBits_half, ← EReal.coe_add, Ideal.div_coe hme, ← EReal.coe_mul,
    ← EReal.coe_sub, Ideal.div_coe hh, ← EReal.coe_mul, Ideal.exp_coe]

/-- **The two spellings agree after normalisation.** If every query's `μ` is a nonnegative real and every distance is
    a real, each normalised weight of the first spelling equals that of the second. -/
theorem div_wgt_eq (μ : Q → EReal) (a : C → Q → EReal) (b : C → K → EReal)
    (hμ : ∀ q, ∃ r : ℝ, 0 ≤ r ∧ μ q = (r : EReal)) (hd : ∀ q k, ∃ r : ℝ, dist a b q k = (r : EReal)) (q : Q) (k : K) :
    Ideal.div (wgt μ a b q k) (wsum (wgt μ a b) q) = Ideal.div (wgt' μ a b q k) (wsum (wgt' μ a b) q) := by
  obtain ⟨m, hm, hμq⟩ := hμ q
  obtain ⟨e, he, heps⟩ := Cert.Literals.ofBits_eps_pos
  choose d hdq using hd q
  have hw : ∀ k', wgt μ a b q k' = ((Real.exp ((0 - d k') * (1 / (1 / 2 * (m + e)))) : ℝ) : EReal) :=
    fun k' => wgt_coe μ a b q k' hm he hμq heps (hdq k')
  have hw' : ∀ k', wgt' μ a b q k' = ((Real.exp ((1 - d k' * (1 / (m + e))) * (1 / (1 / 2))) : ℝ) : EReal) :=
    fun k' => wgt'_coe μ a b q k' hm he hμq heps (hdq k')
  have hpos : 0 < ∑ k', Real.exp ((0 - d k') * (1 / (1 / 2 * (m + e)))) :=
    Finset.sum_pos (fun _ _ => Real.exp_pos _) ⟨k, Finset.mem_univ k⟩
  have hpos' : 0 < ∑ k', Real.exp ((1 - d k' * (1 / (m + e))) * (1 / (1 / 2))) :=
    Finset.sum_pos (fun _ _ => Real.exp_pos _) ⟨k, Finset.mem_univ k⟩
  unfold wsum
  simp only [hw, hw']
  rw [coe_finset_sum, coe_finset_sum, Ideal.div_coe hpos.ne', Ideal.div_coe hpos'.ne', ← EReal.coe_mul, ← EReal.coe_mul,
    real_core d m e hm he k]

/-- Hence the per-key maxima over the queries agree. -/
theorem cmax_wgt_eq (μ : Q → EReal) (a : C → Q → EReal) (b : C → K → EReal)
    (hμ : ∀ q, ∃ r : ℝ, 0 ≤ r ∧ μ q = (r : EReal)) (hd : ∀ q k, ∃ r : ℝ, dist a b q k = (r : EReal)) :
    cmax (wgt μ a b) (wsum (wgt μ a b)) = cmax (wgt' μ a b) (wsum (wgt' μ a b)) := by
  funext k
  unfold cmax
  congr 1
  funext q
  exact div_wgt_eq μ a b hμ hd q k

/-! ### The least distance -/

/-- The minimum, started from `+∞`, of finitely many nonnegative reals is `+∞` or a nonnegative real. -/
theorem fold_min_top_or_nonneg {ι : Type} (s : Finset ι) (f : ι → EReal)
    (h : ∀ i ∈ s, ∃ r : ℝ, 0 ≤ r ∧ f i = (r : EReal)) :
    s.fold min ⊤ f = ⊤ ∨ ∃ r : ℝ, 0 ≤ r ∧ s.fold min ⊤ f = (r : EReal) := by
  classical
  induction s using Finset.induction_on with
  | empty => left; exact Finset.fold_empty
  | insert i s hi ih =>
    right
    obtain ⟨ri, hri, hfi⟩ := h i (Finset.mem_insert_self i s)
    rw [Finset.fold_insert hi, hfi]
    rcases ih (fun j hj => h j (Finset.mem_insert_of_mem hj)) with htop | ⟨r, hr, hfold⟩
    · rw [htop, min_eq_left le_top]
      exact ⟨ri, hri, rfl⟩
    · rw [hfold]
      rcases le_total ri r with hle | hle
      · exact ⟨ri, hri, min_eq_left (EReal.coe_le_coe_iff.mpr hle)⟩
      · exact ⟨r, hr, min_eq_right (EReal.coe_le_coe_iff.mpr hle)⟩

/-- Over a nonempty index set the minimum is a nonnegative real. -/
theorem fold_min_nonneg_real {ι : Type} (s : Finset ι) (hs : s.Nonempty) (f : ι → EReal)
    (h : ∀ i ∈ s, ∃ r : ℝ, 0 ≤ r ∧ f i = (r : EReal)) :
    ∃ r : ℝ, 0 ≤ r ∧ s.fold min ⊤ f = (r : EReal) := by
  rcases fold_min_top_or_nonneg s f h with htop | hreal
  · exfalso
    obtain ⟨i, hi⟩ := hs
    obtain ⟨ri, -, hfi⟩ := h i hi
    have hle : s.fold min ⊤ f ≤ f i := (Finset.fold_min_le _).mpr (Or.inr ⟨i, hi, le_rfl⟩)
    rw [htop, hfi] at hle
    exact absurd hle (not_le.mpr (EReal.coe_lt_top ri))
  · exact hreal

/-- **The least distance is a nonnegative real** when every distance is one and there is a key. -/
theorem dmin_nonneg_real [Nonempty K] (a : C → Q → EReal) (b : C → K → EReal)
    (h : ∀ q k, ∃ r : ℝ, 0 ≤ r ∧ dist a b q k = (r : EReal)) (q : Q) :
    ∃ r : ℝ, 0 ≤ r ∧ dmin a b q = (r : EReal) := by
  unfold dmin
  show ∃ r : ℝ, 0 ≤ r ∧ (Finset.univ : Finset K).fold min (Ideal.ofBits .f32 0x7F800000#32) (fun k => dist a b q k) = (r : EReal)
  rw [Cert.Literals.ofBits_pinf]
  exact fold_min_nonneg_real Finset.univ Finset.univ_nonempty _ (fun k _ => h q k)

/-- **The two spellings agree end to end** when every distance is a nonnegative real. -/
theorem sim_eq_sim' (a : C → Q → EReal) (b : C → K → EReal)
    (h : ∀ q k, ∃ r : ℝ, 0 ≤ r ∧ dist a b q k = (r : EReal)) : sim a b = sim' a b := by
  funext k
  haveI : Nonempty K := ⟨k⟩
  unfold sim sim'
  rw [cmax_wgt_eq (dmin a b) a b (dmin_nonneg_real a b h) (fun q k' => (h q k').imp fun _ hr => hr.2)]

end Cert.Contextual

end
-- ==== Proof.Cosine.lean ====
/-
  Why the cosine distance of two channel-normalised vectors is a nonnegative real.

  For real vectors `u, v` over the channels, `2 · u_c · v_c ≤ u_c² + v_c²` (a square is nonnegative), so
  `Σ u_c v_c ≤ ½ (Σ u_c² + Σ v_c²)`; when both sums of squares are at most `1` this is at most `1` (the
  Cauchy–Schwarz bound for vectors in the unit ball), so `1 − Σ u_c v_c ≥ 0`.

  A vector `z` divided by `n = max (√(Σ z_c²)) t` with `t > 0` lies in the unit ball: `n > 0` and `n² ≥ Σ z_c²`, so
  `Σ (z_c / n)² = (Σ z_c²) / n² ≤ 1`. On the extended reals the same operations applied to real data are these real
  operations: the sum of squares is a nonnegative real, its square root is the real square root, the maximum with a
  real is real and positive, and division by a nonzero real is real division.
-/
import proofs.«155866_j66176856097431_1_alg».proof.Proof.Spellings

noncomputable section

namespace Cert.Contextual

open Idealize.ShloMosaic

variable {C Q K : Type} [Fintype C] [Fintype Q] [Fintype K]

/-! ### The Cauchy–Schwarz bound in the unit ball -/

/-- For vectors in the unit ball the inner product is at most `1`. -/
theorem one_sub_inner_nonneg (u v : C → ℝ) (hu : ∑ c, u c * u c ≤ 1) (hv : ∑ c, v c * v c ≤ 1) :
    0 ≤ 1 - ∑ c, u c * v c := by
  have hpt : ∀ c ∈ (Finset.univ : Finset C), u c * v c ≤ (u c * u c + v c * v c) / 2 := by
    intro c _
    nlinarith [sq_nonneg (u c - v c)]
  have hsum : ∑ c, u c * v c ≤ (∑ c, u c * u c + ∑ c, v c * v c) / 2 := by
    calc ∑ c, u c * v c ≤ ∑ c, (u c * u c + v c * v c) / 2 := Finset.sum_le_sum hpt
      _ = (∑ c, u c * u c + ∑ c, v c * v c) / 2 := by rw [← Finset.sum_div, Finset.sum_add_distrib]
  linarith

/-- The distance of real vectors is the coerced real `1 − Σ u_c v_c`. -/
theorem dist_coe (a : C → Q → EReal) (b : C → K → EReal) (u : C → Q → ℝ) (v : C → K → ℝ)
    (ha : ∀ c q, a c q = ((u c q : ℝ) : EReal)) (hb : ∀ c k, b c k = ((v c k : ℝ) : EReal)) (q : Q) (k : K) :
    dist a b q k = ((1 - ∑ c, u c q * v c k : ℝ) : EReal) := by
  unfold dist
  show Ideal.ofBits .f32 0x3F800000#32 - ∑ c, a c q * b c k = _
  have hterm : ∀ c, a c q * b c k = ((u c q * v c k : ℝ) : EReal) := by
    intro c
    rw [ha, hb, EReal.coe_mul]
  simp only [hterm]
  rw [coe_finset_sum, Cert.Literals.ofBits_one, ← EReal.coe_sub]

/-- **The distance of vectors in the unit ball is a nonnegative real.** -/
theorem dist_nonneg_real (a : C → Q → EReal) (b : C → K → EReal) (u : C → Q → ℝ) (v : C → K → ℝ)
    (ha : ∀ c q, a c q = ((u c q : ℝ) : EReal)) (hb : ∀ c k, b c k = ((v c k : ℝ) : EReal))
    (hu : ∀ q, ∑ c, u c q * u c q ≤ 1) (hv : ∀ k, ∑ c, v c k * v c k ≤ 1) (q : Q) (k : K) :
    ∃ r : ℝ, 0 ≤ r ∧ dist a b q k = (r : EReal) :=
  ⟨1 - ∑ c, u c q * v c k, one_sub_inner_nonneg (fun c => u c q) (fun c => v c k) (hu q) (hv k),
    dist_coe a b u v ha hb q k⟩

/-! ### Normalisation puts a vector in the unit ball -/

/-- The normaliser `max (√(Σ z_c²)) t` is positive. -/
theorem normaliser_pos (z : C → ℝ) {t : ℝ} (ht : 0 < t) : 0 < max (Real.sqrt (∑ c, z c * z c)) t :=
  lt_of_lt_of_le ht (le_max_right _ _)

/-- A vector divided by `max (√(Σ z_c²)) t`, `t > 0`, has sum of squares at most `1`. -/
theorem sum_sq_normalised_le_one (z : C → ℝ) {t : ℝ} (ht : 0 < t) :
    ∑ c, (z c / max (Real.sqrt (∑ c, z c * z c)) t) * (z c / max (Real.sqrt (∑ c, z c * z c)) t) ≤ 1 := by
  have hS : 0 ≤ ∑ c, z c * z c := Finset.sum_nonneg (fun c _ => mul_self_nonneg (z c))
  have hn : 0 < max (Real.sqrt (∑ c, z c * z c)) t := normaliser_pos z ht
  have hle : ∑ c, z c * z c ≤ max (Real.sqrt (∑ c, z c * z c)) t * max (Real.sqrt (∑ c, z c * z c)) t := by
    calc ∑ c, z c * z c = Real.sqrt (∑ c, z c * z c) * Real.sqrt (∑ c, z c * z c) := (Real.mul_self_sqrt hS).symm
      _ ≤ _ := mul_le_mul (le_max_left _ _) (le_max_left _ _) (Real.sqrt_nonneg _) hn.le
  have hrew : ∀ c, (z c / max (Real.sqrt (∑ c, z c * z c)) t) * (z c / max (Real.sqrt (∑ c, z c * z c)) t)
      = z c * z c / (max (Real.sqrt (∑ c, z c * z c)) t * max (Real.sqrt (∑ c, z c * z c)) t) :=
    fun c => div_mul_div_comm _ _ _ _
  simp only [hrew]
  rw [← Finset.sum_div]
  exact (div_le_one (mul_pos hn hn)).mpr hle

/-- The sum of squares of coerced reals is the coerced real sum of squares. -/
theorem sum_sq_coe (z : C → ℝ) : (∑ c, ((z c : ℝ) : EReal) * ((z c : ℝ) : EReal)) = ((∑ c, z c * z c : ℝ) : EReal) := by
  simp only [← EReal.coe_mul]
  exact coe_finset_sum Finset.univ _

/-- The extended-real normaliser of real data is the coerced real normaliser. -/
theorem normaliser_coe (z : C → ℝ) (t : ℝ) :
    max (Ideal.sqrt (∑ c, ((z c : ℝ) : EReal) * ((z c : ℝ) : EReal))) ((t : ℝ) : EReal)
      = ((max (Real.sqrt (∑ c, z c * z c)) t : ℝ) : EReal) := by
  have hS : 0 ≤ ∑ c, z c * z c := Finset.sum_nonneg (fun c _ => mul_self_nonneg (z c))
  rw [sum_sq_coe, Ideal.sqrt_coe, if_neg (not_lt.mpr hS)]
  exact (EReal.coe_strictMono.monotone.map_max).symm

/-- **Normalising real data on the extended reals is real normalisation.** -/
theorem div_normaliser_coe (z : C → ℝ) {t : ℝ} (ht : 0 < t) (c : C) :
    Ideal.div ((z c : ℝ) : EReal) (max (Ideal.sqrt (∑ c, ((z c : ℝ) : EReal) * ((z c : ℝ) : EReal))) ((t : ℝ) : EReal))
      = ((z c / max (Real.sqrt (∑ c, z c * z c)) t : ℝ) : EReal) := by
  rw [normaliser_coe, Ideal.div_coe (normaliser_pos z ht).ne', ← EReal.coe_mul, mul_one_div]

/-! ### The two together -/

/-- **Channel-normalised real features have nonnegative real distances**, and so the two spellings agree on them. -/
theorem dist_normalised_nonneg_real (x : C → Q → ℝ) (y : C → K → ℝ) {t : ℝ} (ht : 0 < t)
    (a : C → Q → EReal) (b : C → K → EReal)
    (ha : ∀ c q, a c q = Ideal.div ((x c q : ℝ) : EReal)
      (max (Ideal.sqrt (∑ c, ((x c q : ℝ) : EReal) * ((x c q : ℝ) : EReal))) ((t : ℝ) : EReal)))
    (hb : ∀ c k, b c k = Ideal.div ((y c k : ℝ) : EReal)
      (max (Ideal.sqrt (∑ c, ((y c k : ℝ) : EReal) * ((y c k : ℝ) : EReal))) ((t : ℝ) : EReal)))
    (q : Q) (k : K) : ∃ r : ℝ, 0 ≤ r ∧ dist a b q k = (r : EReal) :=
  dist_nonneg_real a b
    (fun c q => x c q / max (Real.sqrt (∑ c, x c q * x c q)) t)
    (fun c k => y c k / max (Real.sqrt (∑ c, y c k * y c k)) t)
    (fun c q => (ha c q).trans (div_normaliser_coe (fun c => x c q) ht c))
    (fun c k => (hb c k).trans (div_normaliser_coe (fun c => y c k) ht c))
    (fun q => sum_sq_normalised_le_one (fun c => x c q) ht)
    (fun k => sum_sq_normalised_le_one (fun c => y c k) ht) q k

/-- The end-to-end agreement of the two spellings on channel-normalised real features. -/
theorem sim_eq_sim'_of_normalised (x : C → Q → ℝ) (y : C → K → ℝ) {t : ℝ} (ht : 0 < t)
    (a : C → Q → EReal) (b : C → K → EReal)
    (ha : ∀ c q, a c q = Ideal.div ((x c q : ℝ) : EReal)
      (max (Ideal.sqrt (∑ c, ((x c q : ℝ) : EReal) * ((x c q : ℝ) : EReal))) ((t : ℝ) : EReal)))
    (hb : ∀ c k, b c k = Ideal.div ((y c k : ℝ) : EReal)
      (max (Ideal.sqrt (∑ c, ((y c k : ℝ) : EReal) * ((y c k : ℝ) : EReal))) ((t : ℝ) : EReal))) :
    sim a b = sim' a b :=
  sim_eq_sim' a b (dist_normalised_nonneg_real x y ht a b ha hb)

end Cert.Contextual

end
-- ==== Proof.Tiles.lean ====
/-
  Reductions carried tile by tile.

  A reduction over `N = n · m` indices that is computed in `n` tiles of `m` consecutive indices, with an accumulator
  that starts from the operation's identity and absorbs one tile's partial result per step, gives the reduction over all
  `N` indices. Three facts make this up:

  * unrolling: an accumulator with `acc 0 = op z (g 0)` and `acc (j+1) = op (acc j) (g (j+1))` is the fold of `op` from
    `z` over `g 0, …, g j` (for a commutative, associative `op`);
  * regrouping: every index `k < n · m` is `j · m + l` for exactly one tile `j < n` and offset `l < m` (`j = k / m`,
    `l = k mod m`), so the minimum (maximum, sum) over the tiles of the per-tile minima (maxima, sums) is the minimum
    (maximum, sum) over all indices. For the minimum this is read off the universal property
    `c ≤ min-fold ↔ c ≤ start ∧ ∀ i, c ≤ f i`; the per-tile folds may start from any `z' ≥ z` (e.g. `+∞`);
  * the identities `min ⊤ x = x`, `max ⊥ x = x`, `0 + x = x`, `0 − x = −x` on the extended reals.
-/
import proofs.«155866_j66176856097431_1_alg».proof.Proof.Contextual
import proofs.«155866_j66176856097431_1_alg».proof.Proof.Literals

noncomputable section

namespace Cert.Contextual

open Idealize.ShloMosaic

/-! ### Index arithmetic -/

/-- Offset `l` of tile `j` is an index below `n · m`. -/
theorem tile_idx_lt {n m : ℕ} (j : Fin n) (l : Fin m) : j.val * m + l.val < n * m := by
  calc j.val * m + l.val < j.val * m + m := Nat.add_lt_add_left l.isLt _
    _ = (j.val + 1) * m := by ring
    _ ≤ n * m := Nat.mul_le_mul_right m j.isLt

/-- Every index below `n · m` is an offset of a tile. -/
theorem exists_tile_idx {n m : ℕ} (k : Fin (n * m)) : ∃ (j : Fin n) (l : Fin m), k.val = j.val * m + l.val := by
  have hm : 0 < m := by
    rcases Nat.eq_zero_or_pos m with h | h
    · exfalso
      have hk : k.val < n * m := k.isLt
      have h0 : n * m = 0 := by rw [h, Nat.mul_zero]
      omega
    · exact h
  exact ⟨⟨k.val / m, (Nat.div_lt_iff_lt_mul hm).mpr k.isLt⟩, ⟨k.val % m, Nat.mod_lt _ hm⟩,
    (Nat.div_add_mod' k.val m).symm⟩

/-! ### Regrouping a reduction by tiles -/

/-- **Minimum by tiles.** The per-tile folds may start from any `z' ≥ z`. -/
theorem fold_min_tiles {n m N : ℕ} (hN : N = n * m) (F : Fin N → EReal) {z z' : EReal} (hz : z ≤ z') :
    (Finset.univ : Finset (Fin n)).fold min z (fun j => (Finset.univ : Finset (Fin m)).fold min z'
        (fun l => F ⟨j.val * m + l.val, by rw [hN]; exact tile_idx_lt j l⟩))
      = (Finset.univ : Finset (Fin N)).fold min z F := by
  subst hN
  refine eq_of_forall_le_iff fun c => ?_
  simp only [Finset.le_fold_min, Finset.mem_univ, true_implies]
  constructor
  · rintro ⟨hcz, h⟩
    refine ⟨hcz, fun k => ?_⟩
    obtain ⟨j, l, hk⟩ := exists_tile_idx k
    have hFk : F k = F ⟨j.val * m + l.val, tile_idx_lt j l⟩ := congrArg F (Fin.ext hk)
    rw [hFk]
    exact (h j).2 l
  · rintro ⟨hcz, h⟩
    exact ⟨hcz, fun j => ⟨hcz.trans hz, fun l => h _⟩⟩

/-- **Maximum by tiles.** The per-tile folds may start from any `z' ≤ z`. -/
theorem fold_max_tiles {n m N : ℕ} (hN : N = n * m) (F : Fin N → EReal) {z z' : EReal} (hz : z' ≤ z) :
    (Finset.univ : Finset (Fin n)).fold max z (fun j => (Finset.univ : Finset (Fin m)).fold max z'
        (fun l => F ⟨j.val * m + l.val, by rw [hN]; exact tile_idx_lt j l⟩))
      = (Finset.univ : Finset (Fin N)).fold max z F := by
  subst hN
  refine eq_of_forall_ge_iff fun c => ?_
  simp only [Finset.fold_max_le, Finset.mem_univ, true_implies]
  constructor
  · rintro ⟨hcz, h⟩
    refine ⟨hcz, fun k => ?_⟩
    obtain ⟨j, l, hk⟩ := exists_tile_idx k
    have hFk : F k = F ⟨j.val * m + l.val, tile_idx_lt j l⟩ := congrArg F (Fin.ext hk)
    rw [hFk]
    exact (h j).2 l
  · rintro ⟨hcz, h⟩
    exact ⟨hcz, fun j => ⟨hz.trans hcz, fun l => h _⟩⟩

/-- **Sum by tiles.** -/
theorem sum_tiles {n m N : ℕ} (hN : N = n * m) (F : Fin N → EReal) :
    ∑ j : Fin n, ∑ l : Fin m, F ⟨j.val * m + l.val, by rw [hN]; exact tile_idx_lt j l⟩ = ∑ k : Fin N, F k := by
  subst hN
  symm
  calc ∑ k, F k = ∑ p : Fin n × Fin m, F (finProdFinEquiv p) := (Equiv.sum_comp finProdFinEquiv F).symm
    _ = ∑ j : Fin n, ∑ l : Fin m, F (finProdFinEquiv (j, l)) := Fintype.sum_prod_type _
    _ = ∑ j : Fin n, ∑ l : Fin m, F ⟨j.val * m + l.val, tile_idx_lt j l⟩ := by
        refine Finset.sum_congr rfl fun j _ => Finset.sum_congr rfl fun l _ => congrArg F (Fin.ext ?_)
        show l.val + m * j.val = j.val * m + l.val
        ring

/-! ### Unrolling an accumulator -/

section Acc

variable (op : EReal → EReal → EReal) [hc : Std.Commutative op] [ha : Std.Associative op]

/-- An accumulator that absorbs `g 0, g 1, …` one per step is the fold over the steps so far. -/
theorem acc_eq_fold_range (z : EReal) (g acc : ℕ → EReal) (J : ℕ) (h0 : acc 0 = op z (g 0))
    (hs : ∀ j, j < J → acc (j + 1) = op (acc j) (g (j + 1))) :
    ∀ j, j ≤ J → acc j = (Finset.range (j + 1)).fold op z g := by
  intro j
  induction j with
  | zero =>
    intro _
    rw [h0, Finset.range_one, Finset.fold_singleton, hc.comm]
  | succ j ih =>
    intro hj
    have hr : Finset.range (j + 1 + 1) = insert (j + 1) (Finset.range (j + 1)) := Finset.range_add_one
    rw [hs j hj, ih (Nat.le_of_succ_le hj), hr, Finset.fold_insert (by simp), hc.comm]

/-- A fold over the first `n` naturals is the fold over `Fin n`. -/
theorem fold_range_eq_fold_fin (z : EReal) (g : ℕ → EReal) (n : ℕ) :
    (Finset.range n).fold op z g = (Finset.univ : Finset (Fin n)).fold op z (fun j => g j.val) := by
  rw [← Nat.Iio_eq_range, ← Fin.map_valEmbedding_univ, Finset.fold_map]
  rfl

/-- The accumulator after step `j` is the fold over the `j + 1` steps. -/
theorem acc_eq_fold_fin (z : EReal) (g acc : ℕ → EReal) (J : ℕ) (h0 : acc 0 = op z (g 0))
    (hs : ∀ j, j < J → acc (j + 1) = op (acc j) (g (j + 1))) :
    acc J = (Finset.univ : Finset (Fin (J + 1))).fold op z (fun j => g j.val) := by
  rw [acc_eq_fold_range op z g acc J h0 hs J le_rfl, fold_range_eq_fold_fin]

end Acc

/-- A summing accumulator is the start value plus the sum over the steps so far. -/
theorem acc_sum_eq (z : EReal) (g acc : ℕ → EReal) (J : ℕ) (h0 : acc 0 = z + g 0)
    (hs : ∀ j, j < J → acc (j + 1) = acc j + g (j + 1)) :
    acc J = z + ∑ j : Fin (J + 1), g j.val := by
  have h : ∀ j, j ≤ J → acc j = z + ∑ i ∈ Finset.range (j + 1), g i := by
    intro j
    induction j with
    | zero => intro _; rw [h0, Finset.sum_range_one]
    | succ j ih =>
      intro hj
      rw [hs j hj, ih (Nat.le_of_succ_le hj), Finset.sum_range_succ g (j + 1), add_assoc]
  rw [h J le_rfl, Finset.sum_range]

/-! ### Accumulating over tiles -/

/-- **Minimum, accumulated over `n + 1` tiles of `m`.** -/
theorem acc_min_tiles {n m N : ℕ} (hN : N = (n + 1) * m) (F : Fin N → EReal) {z z' : EReal} (hz : z ≤ z')
    (g acc : ℕ → EReal)
    (hg : ∀ j : Fin (n + 1), g j.val = (Finset.univ : Finset (Fin m)).fold min z'
      (fun l => F ⟨j.val * m + l.val, by rw [hN]; exact tile_idx_lt j l⟩))
    (h0 : acc 0 = min z (g 0)) (hs : ∀ j, j < n → acc (j + 1) = min (acc j) (g (j + 1))) :
    acc n = (Finset.univ : Finset (Fin N)).fold min z F := by
  rw [acc_eq_fold_fin min z g acc n h0 hs, ← fold_min_tiles hN F hz]
  exact Finset.fold_congr (fun j _ => hg j)

/-- **Maximum, accumulated over `n + 1` tiles of `m`.** -/
theorem acc_max_tiles {n m N : ℕ} (hN : N = (n + 1) * m) (F : Fin N → EReal) {z z' : EReal} (hz : z' ≤ z)
    (g acc : ℕ → EReal)
    (hg : ∀ j : Fin (n + 1), g j.val = (Finset.univ : Finset (Fin m)).fold max z'
      (fun l => F ⟨j.val * m + l.val, by rw [hN]; exact tile_idx_lt j l⟩))
    (h0 : acc 0 = max z (g 0)) (hs : ∀ j, j < n → acc (j + 1) = max (acc j) (g (j + 1))) :
    acc n = (Finset.univ : Finset (Fin N)).fold max z F := by
  rw [acc_eq_fold_fin max z g acc n h0 hs, ← fold_max_tiles hN F hz]
  exact Finset.fold_congr (fun j _ => hg j)

/-- **Sum, accumulated over `n + 1` tiles of `m`.** -/
theorem acc_sum_tiles {n m N : ℕ} (hN : N = (n + 1) * m) (F : Fin N → EReal) (z : EReal) (g acc : ℕ → EReal)
    (hg : ∀ j : Fin (n + 1), g j.val = ∑ l : Fin m, F ⟨j.val * m + l.val, by rw [hN]; exact tile_idx_lt j l⟩)
    (h0 : acc 0 = z + g 0) (hs : ∀ j, j < n → acc (j + 1) = acc j + g (j + 1)) :
    acc n = z + ∑ k : Fin N, F k := by
  rw [acc_sum_eq z g acc n h0 hs, ← sum_tiles hN F]
  congr 1
  exact Finset.sum_congr rfl (fun j _ => hg j)

/-! ### Six tiles of 1536 -/

/-- Minimum over 9216 indices accumulated in six tiles of 1536. -/
theorem acc_min_6x1536 (F : Fin 9216 → EReal) {z z' : EReal} (hz : z ≤ z') (g acc : ℕ → EReal)
    (hg : ∀ j : Fin 6, g j.val = (Finset.univ : Finset (Fin 1536)).fold min z'
      (fun l => F ⟨j.val * 1536 + l.val, by omega⟩))
    (h0 : acc 0 = min z (g 0)) (hs : ∀ j, j < 5 → acc (j + 1) = min (acc j) (g (j + 1))) :
    acc 5 = (Finset.univ : Finset (Fin 9216)).fold min z F :=
  acc_min_tiles (n := 5) (m := 1536) (N := 9216) (by norm_num) F hz g acc hg h0 hs

/-- Maximum over 9216 indices accumulated in six tiles of 1536. -/
theorem acc_max_6x1536 (F : Fin 9216 → EReal) {z z' : EReal} (hz : z' ≤ z) (g acc : ℕ → EReal)
    (hg : ∀ j : Fin 6, g j.val = (Finset.univ : Finset (Fin 1536)).fold max z'
      (fun l => F ⟨j.val * 1536 + l.val, by omega⟩))
    (h0 : acc 0 = max z (g 0)) (hs : ∀ j, j < 5 → acc (j + 1) = max (acc j) (g (j + 1))) :
    acc 5 = (Finset.univ : Finset (Fin 9216)).fold max z F :=
  acc_max_tiles (n := 5) (m := 1536) (N := 9216) (by norm_num) F hz g acc hg h0 hs

/-- Sum over 9216 indices accumulated in six tiles of 1536. -/
theorem acc_sum_6x1536 (F : Fin 9216 → EReal) (z : EReal) (g acc : ℕ → EReal)
    (hg : ∀ j : Fin 6, g j.val = ∑ l : Fin 1536, F ⟨j.val * 1536 + l.val, by omega⟩)
    (h0 : acc 0 = z + g 0) (hs : ∀ j, j < 5 → acc (j + 1) = acc j + g (j + 1)) :
    acc 5 = z + ∑ k : Fin 9216, F k :=
  acc_sum_tiles (n := 5) (m := 1536) (N := 9216) (by norm_num) F z g acc hg h0 hs

/-- The regrouping facts at six tiles of 1536. -/
theorem fold_min_6x1536 (F : Fin 9216 → EReal) {z z' : EReal} (hz : z ≤ z') :
    (Finset.univ : Finset (Fin 6)).fold min z (fun j => (Finset.univ : Finset (Fin 1536)).fold min z'
        (fun l => F ⟨j.val * 1536 + l.val, by omega⟩))
      = (Finset.univ : Finset (Fin 9216)).fold min z F :=
  fold_min_tiles (n := 6) (m := 1536) (N := 9216) (by norm_num) F hz

theorem fold_max_6x1536 (F : Fin 9216 → EReal) {z z' : EReal} (hz : z' ≤ z) :
    (Finset.univ : Finset (Fin 6)).fold max z (fun j => (Finset.univ : Finset (Fin 1536)).fold max z'
        (fun l => F ⟨j.val * 1536 + l.val, by omega⟩))
      = (Finset.univ : Finset (Fin 9216)).fold max z F :=
  fold_max_tiles (n := 6) (m := 1536) (N := 9216) (by norm_num) F hz

theorem sum_6x1536 (F : Fin 9216 → EReal) :
    ∑ j : Fin 6, ∑ l : Fin 1536, F ⟨j.val * 1536 + l.val, by omega⟩ = ∑ k : Fin 9216, F k :=
  sum_tiles (n := 6) (m := 1536) (N := 9216) (by norm_num) F

/-! ### Identities -/

theorem min_top_eq (x : EReal) : min ⊤ x = x := min_eq_right le_top
theorem min_eq_top (x : EReal) : min x ⊤ = x := min_eq_left le_top
theorem max_bot_eq (x : EReal) : max ⊥ x = x := max_eq_right bot_le
theorem max_eq_bot (x : EReal) : max x ⊥ = x := max_eq_left bot_le
theorem min_pinf_eq (x : EReal) : min pinf x = x := by
  show min (Ideal.ofBits .f32 0x7F800000#32) x = x
  rw [Cert.Literals.ofBits_pinf]; exact min_top_eq x
theorem min_eq_pinf (x : EReal) : min x pinf = x := by rw [min_comm]; exact min_pinf_eq x
theorem max_ninf_eq (x : EReal) : max ninf x = x := by
  show max (Ideal.ofBits .f32 0xFF800000#32) x = x
  rw [Cert.Literals.ofBits_ninf]; exact max_bot_eq x
theorem max_eq_ninf (x : EReal) : max x ninf = x := by rw [max_comm]; exact max_ninf_eq x
theorem zero_word_add (x : EReal) : zero + x = x := by
  show Ideal.ofBits .f32 0x00000000#32 + x = x
  rw [Cert.Literals.ofBits_zero, zero_add]
theorem add_zero_word (x : EReal) : x + zero = x := by rw [add_comm]; exact zero_word_add x
theorem zero_sub_eq_neg (x : EReal) : (0 : EReal) - x = -x := by rw [sub_eq_add_neg, zero_add]
theorem zero_word_sub (x : EReal) : zero - x = -x := by
  show Ideal.ofBits .f32 0x00000000#32 - x = -x
  rw [Cert.Literals.ofBits_zero]; exact zero_sub_eq_neg x
theorem pinf_eq_top : pinf = ⊤ := Cert.Literals.ofBits_pinf
theorem ninf_eq_bot : ninf = ⊥ := Cert.Literals.ofBits_ninf
theorem zero_eq : zero = 0 := Cert.Literals.ofBits_zero

end Cert.Contextual

end
-- ==== Proof.LibReal.lean ====
/-
  Real-valued extended reals.

  On the extended reals the laws that a rearrangement of a computation needs — distributivity, cancelling, moving a
  factor across a sum — fail at the infinities. A computation whose inputs are finite never leaves the reals as long as
  it adds, subtracts, multiplies, takes maxima and finite sums, divides by a nonzero real, takes the reciprocal square
  root of a positive real, exponentials and logistic values. This file is that closure, stated with the predicate
  `IsReal x` ("x is the coercion of a real number"), together with the sign facts a later division needs (a logistic
  value is positive; a sum of nonnegative reals is nonnegative).

  Generic; nothing mentions a program.
-/
import Idealize.ShloMosaic.PureOps.Ideal

noncomputable section

namespace Cert.Lib.Real

open Idealize.ShloMosaic

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real by a nonzero real is a real. -/
theorem IsReal.div {x : EReal} (hx : IsReal x) {r : ℝ} (hr : r ≠ 0) : IsReal (Ideal.div x (r : EReal)) := by
  obtain ⟨a, rfl⟩ := hx
  rw [Ideal.div_coe hr, ← EReal.coe_mul]
  exact ⟨_, rfl⟩

/-- The exponential of a real is a real. -/
theorem IsReal.exp {x : EReal} (hx : IsReal x) : IsReal (Ideal.exp x) := by
  obtain ⟨a, rfl⟩ := hx; exact ⟨Real.exp a, Ideal.exp_coe a⟩

/-- The logistic value of a real is a POSITIVE real. -/
theorem logistic_coe_pos (a : ℝ) : ∃ r : ℝ, 0 < r ∧ Ideal.logistic (a : EReal) = (r : EReal) :=
  ⟨(1 + Real.exp (-a))⁻¹, inv_pos.mpr (by positivity), Ideal.logistic_coe a⟩

theorem IsReal.logistic {x : EReal} (hx : IsReal x) : IsReal (Ideal.logistic x) := by
  obtain ⟨a, rfl⟩ := hx
  obtain ⟨r, -, hr⟩ := logistic_coe_pos a
  exact ⟨r, hr⟩

/-- The reciprocal square root of a POSITIVE real is a real. -/
theorem isReal_rsqrt_of_pos {r : ℝ} (hr : 0 < r) : IsReal (Ideal.rsqrt (r : EReal)) := by
  refine ⟨(Real.sqrt r)⁻¹, ?_⟩
  rw [Ideal.rsqrt_coe, if_neg (not_lt.mpr hr.le), if_neg hr.ne']

/-- A finite sum of nonnegative reals, coerced, is a nonnegative real. -/
theorem sum_coe_nonneg {ι : Type} (s : Finset ι) (f : ι → ℝ) (h : ∀ i ∈ s, 0 ≤ f i) :
    ∃ r : ℝ, 0 ≤ r ∧ (∑ i ∈ s, ((f i : ℝ) : EReal)) = (r : EReal) := by
  classical
  refine ⟨∑ i ∈ s, f i, Finset.sum_nonneg h, ?_⟩
  induction s using Finset.induction_on with
  | empty => simp
  | insert a s ha ih =>
    rw [Finset.sum_insert ha, Finset.sum_insert ha, ih fun i hi => h i (Finset.mem_insert_of_mem hi), EReal.coe_add]

end Cert.Lib.Real

end
-- ==== Proof.KernelHost.lean ====
/-
  The host operations of the kernel's program, as pure functions of the two input arrays, read at an index.

  Before the three passes the program centres both arrays by the per-channel mean of the second one (a sum over the batch
  and the two spatial axes divided by 18432 = 2 · 96 · 96), divides every pixel's channel vector by
  `max (√(Σ_c z_c²)) t` (`t` the float nearest 1e-12) and flattens the two spatial axes into one of 9216 = 96 · 96
  positions, position `p` being pixel `(p / 96, p mod 96)`. After the passes it averages the per-key maxima over the 9216
  keys, adds ε, takes minus the logarithm, and averages over the two batch entries.
-/
import proofs.«155866_j66176856097431_1_alg».proof.Proof.Gen.KernelIdeal
import proofs.«155866_j66176856097431_1_alg».proof.Proof.Literals
import proofs.«155866_j66176856097431_1_alg».proof.Proof.Spellings
import proofs.«155866_j66176856097431_1_alg».proof.Proof.Cosine
import proofs.«155866_j66176856097431_1_alg».proof.Proof.Tiles
import proofs.«155866_j66176856097431_1_alg».proof.Proof.LibReal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostOps

open Idealize.ShloMosaic Idealize.ShloMosaic.ValueIdx Cert.KernelIdeal Cert.KernelIdeal.Facts₀ Cert.KernelIdeal.Facts

variable [Cert.KernelIdeal.Facts]

/-! ### The operations, composed exactly as the program lists them -/

/-- `%0`: the per-channel sum of the second array over the batch and the two spatial axes. -/
def meanSum (y : FVec Ideal S2x256x96x96 .f32) : FVec Ideal S256 .f32 :=
  Host.reduceAdd y (constant (F := Ideal) S_ .f32 0x00000000#32) reducesTo_S2x256x96x96_S256_d0_2_3 h_S_

/-- `%3`: the per-channel mean, `%0` over 18432, as a `[1, 256, 1, 1]` array. -/
def mean (y : FVec Ideal S2x256x96x96 .f32) : FVec Ideal S1x256x1x1 .f32 :=
  Host.divf (broadcastInDim S1x256x1x1 ![1] bcast_S256_S1x256x1x1_1 (meanSum y))
    (broadcastInDim S1x256x1x1 ![] bcast_S_S1x256x1x1 (constant (F := Ideal) S_ .f32 0x46900000#32))

/-- `%5` (at `x`) and `%7` (at `y`): an array minus the broadcast mean of `y`. -/
def centre (x y : FVec Ideal S2x256x96x96 .f32) : FVec Ideal S2x256x96x96 .f32 :=
  subf x (broadcastInDim S2x256x96x96 ![0, 1, 2, 3] bcast_S1x256x1x1_S2x256x96x96_0_1_2_3 (mean y))

/-- `%17` / `%21`: the per-pixel normaliser `max (√(Σ_c z_c²)) t`, as a `[2, 1, 96, 96]` array. -/
def normaliser (z : FVec Ideal S2x256x96x96 .f32) : FVec Ideal S2x1x96x96 .f32 :=
  maximumf
    (Host.sqrt (broadcastInDim S2x1x96x96 ![0, 2, 3] bcast_S2x96x96_S2x1x96x96_0_2_3
      (Host.reduceAdd (mulf z z) (constant (F := Ideal) S_ .f32 0x00000000#32) reducesTo_S2x256x96x96_S2x96x96_d1 h_S_)))
    (broadcastInDim S2x1x96x96 ![] bcast_S_S2x1x96x96 (constant (F := Ideal) S_ .f32 0x2B8CBCCC#32))

/-- `%19` / `%23`: the array divided by its broadcast normaliser. -/
def unit (z : FVec Ideal S2x256x96x96 .f32) : FVec Ideal S2x256x96x96 .f32 :=
  Host.divf z (broadcastInDim S2x256x96x96 ![0, 1, 2, 3] bcast_S2x1x96x96_S2x256x96x96_0_1_2_3 (normaliser z))

/-- `%24` / `%25`: the normalised array with its two spatial axes flattened. -/
def feat (z : FVec Ideal S2x256x96x96 .f32) : FVec Ideal S2x256x9216 .f32 :=
  shapeCast S2x256x9216 (unit z) shapeCasts_S2x256x96x96_S2x256x9216

/-- `%24`: the query features, from the program's two arguments. -/
def featX (x y : FVec Ideal S2x256x96x96 .f32) : FVec Ideal S2x256x9216 .f32 := feat (centre x y)

/-- `%25`: the key features. -/
def featY (x y : FVec Ideal S2x256x96x96 .f32) : FVec Ideal S2x256x9216 .f32 := feat (centre y y)

/-- `%38` from `%28`: the fifteen operations after the passes. -/
def tail (v : FVec Ideal S2x1x9216 .f32) : FVec Ideal S_ .f32 :=
  Host.divf
    (Host.reduceAdd
      (Host.negf (Host.log (addf
        (shapeCast S2
          (Host.divf (Host.reduceAdd v (constant (F := Ideal) S_ .f32 0x00000000#32) reducesTo_S2x1x9216_S2x1_d2 h_S_)
            (broadcastInDim S2x1 ![] bcast_S_S2x1 (constant (F := Ideal) S_ .f32 0x46100000#32)))
          shapeCasts_S2x1_S2)
        (broadcastInDim S2 ![] bcast_S_S2 (constant (F := Ideal) S_ .f32 0x3727C5AC#32)))))
      (constant (F := Ideal) S_ .f32 0x00000000#32) reducesTo_S2_S_d0 h_S_)
    (constant (F := Ideal) S_ .f32 0x40000000#32)

/-! ### The operations read at an index -/

/-- The mean at channel `c`: the channel's sum over 18432. -/
theorem mean_apply (y : FVec Ideal S2x256x96x96 .f32) (u : Fin 1) (c : Fin 256) (a b : Fin 1) :
    mean y (ix4 u c a b) = Ideal.div (meanSum y (ix1 c)) (Ideal.ofBits .f32 0x46900000#32) := by
  unfold mean
  refine congrArg₂ Ideal.div ?_ ?_
  · exact broadcastInDim_apply _ bcast_S256_S1x256x1x1_1 (meanSum y) (ix4 u c a b) (ix1 c) (fun d => match d with
      | ⟨0, _⟩ => by show c.val = if (256 : Nat) = 1 then 0 else c.val; rw [if_neg (by decide)])
  · exact broadcastInDim_apply _ bcast_S_S1x256x1x1 (constant (F := Ideal) S_ .f32 0x46900000#32) (ix4 u c a b) ix0
      (fun d => d.elim0)

/-- A centred entry: the entry minus its channel's mean. -/
theorem centre_apply (x y : FVec Ideal S2x256x96x96 .f32) (n : Fin 2) (c : Fin 256) (h w : Fin 96) :
    centre x y (ix4 n c h w) = x (ix4 n c h w) - mean y (ix4 (0 : Fin 1) c (0 : Fin 1) (0 : Fin 1)) := by
  unfold centre
  refine congrArg (x (ix4 n c h w) - ·) ?_
  exact broadcastInDim_apply _ bcast_S1x256x1x1_S2x256x96x96_0_1_2_3 (mean y) (ix4 n c h w)
    (ix4 (0 : Fin 1) c (0 : Fin 1) (0 : Fin 1)) (fun d => match d with
      | ⟨0, _⟩ => by show 0 = if (1 : Nat) = 1 then 0 else n.val; rw [if_pos rfl]
      | ⟨1, _⟩ => by show c.val = if (256 : Nat) = 1 then 0 else c.val; rw [if_neg (by decide)]
      | ⟨2, _⟩ => by show 0 = if (1 : Nat) = 1 then 0 else h.val; rw [if_pos rfl]
      | ⟨3, _⟩ => by show 0 = if (1 : Nat) = 1 then 0 else w.val; rw [if_pos rfl])

/-- The sum over the channels at a pixel, from the zero word. -/
theorem chanSum_apply (v : FVec Ideal S2x256x96x96 .f32) (n : Fin 2) (h w : Fin 96) :
    (Host.reduceAdd v (constant (F := Ideal) S_ .f32 0x00000000#32) reducesTo_S2x256x96x96_S2x96x96_d1 h_S_
        : FVec Ideal S2x96x96 .f32) (ix3 n h w)
      = Ideal.ofBits .f32 0x00000000#32 + ∑ c : Fin 256, v (ix4 n c h w) := by
  simp only [Host.reduceAdd, Ideal.hostReduceAdd_def]
  rw [Ideal.hostReduceAdd_single reducesTo_S2x256x96x96_S2x96x96_d1 (by decide)]
  refine congrArg₂ (· + ·) rfl (Finset.sum_congr rfl fun k _ => ?_)
  exact congrArg v (funext fun d => Fin.ext (by
    match d with | ⟨0, _⟩ => rfl | ⟨1, _⟩ => rfl | ⟨2, _⟩ => rfl | ⟨3, _⟩ => rfl))

/-- The normaliser at a pixel. -/
theorem normaliser_apply (z : FVec Ideal S2x256x96x96 .f32) (n : Fin 2) (u : Fin 1) (h w : Fin 96) :
    normaliser z (ix4 n u h w)
      = max (Ideal.sqrt (Ideal.ofBits .f32 0x00000000#32 + ∑ c : Fin 256, z (ix4 n c h w) * z (ix4 n c h w)))
          (Ideal.ofBits .f32 0x2B8CBCCC#32) := by
  unfold normaliser
  refine congrArg₂ max (congrArg Ideal.sqrt ?_) ?_
  · refine (broadcastInDim_apply _ bcast_S2x96x96_S2x1x96x96_0_2_3 _ (ix4 n u h w) (ix3 n h w) (fun d => match d with
      | ⟨0, _⟩ => by show n.val = if (2 : Nat) = 1 then 0 else n.val; rw [if_neg (by decide)]
      | ⟨1, _⟩ => by show h.val = if (96 : Nat) = 1 then 0 else h.val; rw [if_neg (by decide)]
      | ⟨2, _⟩ => by show w.val = if (96 : Nat) = 1 then 0 else w.val; rw [if_neg (by decide)])).trans ?_
    exact chanSum_apply (mulf z z) n h w
  · exact broadcastInDim_apply _ bcast_S_S2x1x96x96 (constant (F := Ideal) S_ .f32 0x2B8CBCCC#32) (ix4 n u h w) ix0
      (fun d => d.elim0)

/-- A normalised entry: the entry over its pixel's normaliser. -/
theorem unit_apply (z : FVec Ideal S2x256x96x96 .f32) (n : Fin 2) (c : Fin 256) (h w : Fin 96) :
    unit z (ix4 n c h w) = Ideal.div (z (ix4 n c h w)) (normaliser z (ix4 n (0 : Fin 1) h w)) := by
  unfold unit
  refine congrArg (Ideal.div (z (ix4 n c h w))) ?_
  exact broadcastInDim_apply _ bcast_S2x1x96x96_S2x256x96x96_0_1_2_3 (normaliser z) (ix4 n c h w)
    (ix4 n (0 : Fin 1) h w) (fun d => match d with
      | ⟨0, _⟩ => by show n.val = if (2 : Nat) = 1 then 0 else n.val; rw [if_neg (by decide)]
      | ⟨1, _⟩ => by show 0 = if (1 : Nat) = 1 then 0 else c.val; rw [if_pos rfl]
      | ⟨2, _⟩ => by show h.val = if (96 : Nat) = 1 then 0 else h.val; rw [if_neg (by decide)]
      | ⟨3, _⟩ => by show w.val = if (96 : Nat) = 1 then 0 else w.val; rw [if_neg (by decide)])

/-- Position `p` of the flattened array is pixel `(p / 96, p mod 96)`. -/
theorem feat_apply (z : FVec Ideal S2x256x96x96 .f32) (n : Fin 2) (c : Fin 256) (p : Fin 9216) :
    feat z (ix3 n c p)
      = unit z (ix4 n c (⟨p.val / 96, by omega⟩ : Fin 96) (⟨p.val % 96, by omega⟩ : Fin 96)) := by
  unfold feat
  refine shapeCast_apply (unit z) shapeCasts_S2x256x96x96_S2x256x9216 _ _ ?_
  rw [Shape.rowMajor_val_four, Shape.rowMajor_val_three]
  show ((n.val * 256 + c.val) * 96 + p.val / 96) * 96 + p.val % 96 = (n.val * 256 + c.val) * 9216 + p.val
  omega

/-- Pixel `(h, w)` is position `h · 96 + w`. -/
theorem feat_apply_hw (z : FVec Ideal S2x256x96x96 .f32) (n : Fin 2) (c : Fin 256) (h w : Fin 96) :
    feat z (ix3 n c (⟨h.val * 96 + w.val, by omega⟩ : Fin 9216)) = unit z (ix4 n c h w) := by
  unfold feat
  refine shapeCast_apply (unit z) shapeCasts_S2x256x96x96_S2x256x9216 _ _ ?_
  rw [Shape.rowMajor_val_four, Shape.rowMajor_val_three]
  show ((n.val * 256 + c.val) * 96 + h.val) * 96 + w.val = (n.val * 256 + c.val) * 9216 + (h.val * 96 + w.val)
  omega

/-! ### The features in closed form -/

/-- The mean of channel `c` of the second array: its sum over the other three axes over 18432. -/
def meanK (y : FVec Ideal S2x256x96x96 .f32) (c : Fin 256) : EReal :=
  Ideal.div (meanSum y (ix1 c)) (Ideal.ofBits .f32 0x46900000#32)

/-- The floor of the norms. -/
abbrev tiny : EReal := Ideal.ofBits .f32 0x2B8CBCCC#32

/-- An array centred by the second array's channel means. -/
def zK (x y : FVec Ideal S2x256x96x96 .f32) (n : Fin 2) (c : Fin 256) (h w : Fin 96) : EReal :=
  x (ix4 n c h w) - meanK y c

/-- Height and width of a flattened position. -/
def hOf (p : Fin 9216) : Fin 96 := ⟨p.val / 96, by have := p.isLt; omega⟩
def wOf (p : Fin 9216) : Fin 96 := ⟨p.val % 96, by omega⟩

theorem mean_eq_meanK (y : FVec Ideal S2x256x96x96 .f32) (c : Fin 256) :
    mean y (ix4 (0 : Fin 1) c (0 : Fin 1) (0 : Fin 1)) = meanK y c :=
  mean_apply y 0 c 0 0

theorem centre_eq_zK (x y : FVec Ideal S2x256x96x96 .f32) (n : Fin 2) (c : Fin 256) (h w : Fin 96) :
    centre x y (ix4 n c h w) = zK x y n c h w := by
  rw [centre_apply, mean_eq_meanK]
  rfl

/-- **A feature entry**: the centred entry over the floored channel norm of its pixel. -/
theorem feat_centre_apply (x y : FVec Ideal S2x256x96x96 .f32) (n : Fin 2) (c : Fin 256) (p : Fin 9216) :
    feat (centre x y) (ix3 n c p)
      = Ideal.div (zK x y n c (hOf p) (wOf p))
          (max (Ideal.sqrt (∑ c' : Fin 256, zK x y n c' (hOf p) (wOf p) * zK x y n c' (hOf p) (wOf p))) tiny) := by
  rw [feat_apply, unit_apply, normaliser_apply, Ideal.ofBits_zero_f32, zero_add]
  simp only [mulf_apply, centre_eq_zK]
  rfl

/-- The query features at `(n, c, p)`. -/
theorem featX_apply (x y : FVec Ideal S2x256x96x96 .f32) (n : Fin 2) (c : Fin 256) (p : Fin 9216) :
    featX x y (ix3 n c p)
      = Ideal.div (zK x y n c (hOf p) (wOf p))
          (max (Ideal.sqrt (∑ c' : Fin 256, zK x y n c' (hOf p) (wOf p) * zK x y n c' (hOf p) (wOf p))) tiny) :=
  feat_centre_apply x y n c p

/-- The key features at `(n, c, p)`. -/
theorem featY_apply (x y : FVec Ideal S2x256x96x96 .f32) (n : Fin 2) (c : Fin 256) (p : Fin 9216) :
    featY x y (ix3 n c p)
      = Ideal.div (zK y y n c (hOf p) (wOf p))
          (max (Ideal.sqrt (∑ c' : Fin 256, zK y y n c' (hOf p) (wOf p) * zK y y n c' (hOf p) (wOf p))) tiny) :=
  feat_centre_apply y y n c p

/-! ### Real inputs give channel-normalised real features -/

open Cert.Lib.Real in
/-- The channel mean of a real array is real. -/
theorem meanK_real (y : FVec Ideal S2x256x96x96 .f32) (hy : ∀ i, ∃ r : ℝ, y i = (r : EReal)) (c : Fin 256) :
    ∃ r : ℝ, meanK y c = (r : EReal) := by
  have hsum : IsReal (meanSum y (ix1 c)) := by
    show IsReal (Ideal.hostReduceAdd _ _ _ (ix1 c))
    unfold Ideal.hostReduceAdd
    refine IsReal.add ?_ (IsReal.sum _ _ fun i _ => hy i)
    show IsReal (Ideal.ofBits .f32 0x00000000#32)
    rw [Ideal.ofBits_zero_f32]
    exact isReal_zero
  unfold meanK
  rw [Cert.Literals.ofBits_18432]
  exact IsReal.div hsum (by norm_num)

/-- A centred entry of real arrays is real. -/
theorem zK_real (x y : FVec Ideal S2x256x96x96 .f32) (hx : ∀ i, ∃ r : ℝ, x i = (r : EReal))
    (hy : ∀ i, ∃ r : ℝ, y i = (r : EReal)) (n : Fin 2) (c : Fin 256) (h w : Fin 96) :
    ∃ r : ℝ, zK x y n c h w = (r : EReal) := by
  obtain ⟨a, ha⟩ := hx (ix4 n c h w)
  obtain ⟨m, hm⟩ := meanK_real y hy c
  exact ⟨a - m, by unfold zK; rw [ha, hm, EReal.coe_sub]⟩

/-- **Real inputs**: each batch entry's features are a real family divided, pixel by pixel, by
    `max (√(Σ_c z_c²)) t` with `t > 0`. -/
theorem feat_centre_normalised (x y : FVec Ideal S2x256x96x96 .f32) (hx : ∀ i, ∃ r : ℝ, x i = (r : EReal))
    (hy : ∀ i, ∃ r : ℝ, y i = (r : EReal)) (n : Fin 2) :
    ∃ (z : Fin 256 → Fin 9216 → ℝ) (t : ℝ), 0 < t ∧ (tiny = (t : EReal)) ∧ ∀ c q,
      feat (centre x y) (ix3 n c q)
        = Ideal.div ((z c q : ℝ) : EReal)
            (max (Ideal.sqrt (∑ c, ((z c q : ℝ) : EReal) * ((z c q : ℝ) : EReal))) ((t : ℝ) : EReal)) := by
  obtain ⟨t, ht, htiny⟩ := Cert.Literals.ofBits_tiny_pos
  choose z hz using fun (c : Fin 256) (q : Fin 9216) => zK_real x y hx hy n c (hOf q) (wOf q)
  refine ⟨z, t, ht, htiny, fun c q => ?_⟩
  rw [feat_centre_apply]
  simp only [hz]
  show Ideal.div _ (max _ (Ideal.ofBits .f32 0x2B8CBCCC#32)) = _
  rw [htiny]

/-- **The two spellings agree on the program's features** when both inputs are real. -/
theorem sim_feat_eq (x y : FVec Ideal S2x256x96x96 .f32) (hx : ∀ i, ∃ r : ℝ, x i = (r : EReal))
    (hy : ∀ i, ∃ r : ℝ, y i = (r : EReal)) (n : Fin 2) :
    Cert.Contextual.sim (fun (c : Fin 256) (q : Fin 9216) => featX x y (ix3 n c q))
        (fun (c : Fin 256) (k : Fin 9216) => featY x y (ix3 n c k))
      = Cert.Contextual.sim' (fun (c : Fin 256) (q : Fin 9216) => featX x y (ix3 n c q))
        (fun (c : Fin 256) (k : Fin 9216) => featY x y (ix3 n c k)) := by
  obtain ⟨z, t, ht, htiny, hz⟩ := feat_centre_normalised x y hx hy n
  obtain ⟨z', t', _, htiny', hz'⟩ := feat_centre_normalised y y hy hy n
  have htt : t' = t := EReal.coe_injective (htiny'.symm.trans htiny)
  subst htt
  exact Cert.Contextual.sim_eq_sim'_of_normalised z z' ht _ _ (fun c q => hz c q) (fun c k => hz' c k)

end Cert.KernelIdeal.HostOps

end
-- ==== Proof.KernelTail.lean ====
/-
  The operations after the passes, read at their one index.

  The result is the mean over the two batch entries of `−log (mean_k m n k + ε)`, where `m n k` is the value the third
  pass leaves for key `k` of batch entry `n`: a sum over the 9216 keys divided by 9216, ε added, minus the logarithm,
  a sum over the two entries divided by 2. Each host sum starts from the zero word, which adds nothing.
-/
import proofs.«155866_j66176856097431_1_alg».proof.Proof.KernelHost

noncomputable section

namespace Cert.KernelIdeal.HostOps

open Idealize.ShloMosaic Idealize.ShloMosaic.ValueIdx Cert.KernelIdeal Cert.KernelIdeal.Facts₀ Cert.KernelIdeal.Facts

variable [Cert.KernelIdeal.Facts]

/-- The result as a function of the per-key values `m n k`. -/
def TailK (m : Fin 2 → Fin 9216 → EReal) : EReal :=
  Ideal.div (∑ n : Fin 2, -(Ideal.log (Ideal.div (∑ k : Fin 9216, m n k) (Ideal.ofBits .f32 0x46100000#32)
    + Cert.Contextual.eps))) (Ideal.ofBits .f32 0x40000000#32)

/-- The sum over the keys of a batch entry, from the zero word. -/
theorem keySum_apply (v : FVec Ideal S2x1x9216 .f32) (n : Fin 2) (u : Fin 1) :
    (Host.reduceAdd v (constant (F := Ideal) S_ .f32 0x00000000#32) reducesTo_S2x1x9216_S2x1_d2 h_S_
        : FVec Ideal S2x1 .f32) (ix2 n u)
      = ∑ k : Fin 9216, v (ix3 n u k) := by
  simp only [Host.reduceAdd, Ideal.hostReduceAdd_def]
  rw [Ideal.hostReduceAdd_single reducesTo_S2x1x9216_S2x1_d2 (by decide)]
  refine (congrArg₂ (· + ·) Ideal.ofBits_zero_f32 (Finset.sum_congr rfl fun (k : Fin 9216) _ => ?_)).trans (zero_add _)
  exact congrArg v (funext fun d => Fin.ext (by
    match d with | ⟨0, _⟩ => rfl | ⟨1, _⟩ => rfl | ⟨2, _⟩ => rfl))

/-- A sum over a rank-one index set is the sum over its coordinate. -/
theorem sum_idx1 {n : ℕ} (f : (⟨1, ![n]⟩ : Shape).Idx → EReal) : ∑ i, f i = ∑ k : Fin n, f (ix1 k) :=
  Fintype.sum_equiv ⟨fun i => i 0, fun k => ix1 k, fun i => (eq_ix1 i).symm, fun _ => rfl⟩ _ _
    (fun i => congrArg f (eq_ix1 i))

/-- The sum over the two batch entries, from the zero word. -/
theorem batchSum_apply (w : FVec Ideal S2 .f32) :
    (Host.reduceAdd w (constant (F := Ideal) S_ .f32 0x00000000#32) reducesTo_S2_S_d0 h_S_ : FVec Ideal S_ .f32) ix0
      = ∑ n : Fin 2, w (ix1 n) := by
  simp only [Host.reduceAdd, Ideal.hostReduceAdd_def]
  rw [Ideal.hostReduceAdd_total reducesTo_S2_S_d0 (fun b => b.elim0)]
  refine (congrArg₂ (· + ·) Ideal.ofBits_zero_f32 (sum_idx1 w)).trans (zero_add _)

/-- The per-entry term before the logarithm: the key mean plus ε. -/
theorem entry_apply (v : FVec Ideal S2x1x9216 .f32) (n : Fin 2) :
    (addf
        (shapeCast S2
          (Host.divf (Host.reduceAdd v (constant (F := Ideal) S_ .f32 0x00000000#32) reducesTo_S2x1x9216_S2x1_d2 h_S_)
            (broadcastInDim S2x1 ![] bcast_S_S2x1 (constant (F := Ideal) S_ .f32 0x46100000#32)) : FVec Ideal S2x1 .f32)
          shapeCasts_S2x1_S2)
        (broadcastInDim S2 ![] bcast_S_S2 (constant (F := Ideal) S_ .f32 0x3727C5AC#32)) : FVec Ideal S2 .f32) (ix1 n)
      = Ideal.div (∑ k : Fin 9216, v (ix3 n (0 : Fin 1) k)) (Ideal.ofBits .f32 0x46100000#32) + Cert.Contextual.eps := by
  refine congrArg₂ (· + ·) ?_ ?_
  · refine (shapeCast_apply _ shapeCasts_S2x1_S2 (ix1 n) (ix2 n (0 : Fin 1)) (by
      rw [Shape.rowMajor_val_two, Shape.rowMajor_val_one]
      show n.val * 1 + 0 = n.val
      omega)).trans ?_
    refine congrArg₂ Ideal.div (keySum_apply v n 0) ?_
    exact broadcastInDim_apply _ bcast_S_S2x1 (constant (F := Ideal) S_ .f32 0x46100000#32) (ix2 n (0 : Fin 1)) ix0
      (fun d => d.elim0)
  · exact broadcastInDim_apply _ bcast_S_S2 (constant (F := Ideal) S_ .f32 0x3727C5AC#32) (ix1 n) ix0
      (fun d => d.elim0)

/-- **The result** from the third pass's output. -/
theorem tail_apply (v : FVec Ideal S2x1x9216 .f32) :
    tail v ix0 = TailK (fun (n : Fin 2) (k : Fin 9216) => v (ix3 n (0 : Fin 1) k)) := by
  unfold tail TailK
  refine congrArg₂ Ideal.div ?_ rfl
  refine (batchSum_apply _).trans ?_
  refine Finset.sum_congr rfl fun (n : Fin 2) _ => ?_
  exact congrArg (fun e : EReal => -(Ideal.log e)) (entry_apply v n)

end Cert.KernelIdeal.HostOps

end
-- ==== Proof.Transport.lean ====
/-
  The contents of the arrays the three passes exchange, between the program's segments.

  The host operations before the passes leave the query and key features in the two arrays every pass reads; a pass
  changes only its own output array, so the features, and each earlier pass's output, reach the later passes unchanged;
  the host operations after the passes turn the third pass's output into the result.
-/
import proofs.«155866_j66176856097431_1_alg».proof.Proof.KernelIdealWhole
import proofs.«155866_j66176856097431_1_alg».proof.Proof.KernelHost
import proofs.«155866_j66176856097431_1_alg».proof.Proof.KernelTail

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-! ### After the leading host operations -/

set_option maxHeartbeats 8000000 in
/-- The query features after the leading host operations. -/
theorem V1_v24 (c : Dev nD) :
    V1 m c main_v24 = HostOps.featX (m ((c : Thread nD τ).loc main_arg0)) (m ((c : Thread nD τ).loc main_arg1)) := by
  dsimp only [V1, W1, W0]
  show StableHlo.after hostOps0 (fun b => m (c, b)) (Proc.devRef .tc main_v24) = _
  after_results_simp
  rfl

set_option maxHeartbeats 8000000 in
/-- The key features after the leading host operations. -/
theorem V1_v25 (c : Dev nD) :
    V1 m c main_v25 = HostOps.featY (m ((c : Thread nD τ).loc main_arg0)) (m ((c : Thread nD τ).loc main_arg1)) := by
  dsimp only [V1, W1, W0]
  show StableHlo.after hostOps0 (fun b => m (c, b)) (Proc.devRef .tc main_v25) = _
  after_results_simp
  rfl

/-! ### Through the passes: a pass changes its output array only -/

/-- Pass one leaves the query features as it found them. -/
theorem V2_v24 (c : Dev nD) : V2 m c main_v24 = V1 m c main_v24 :=
  (W2_arr m c 0).trans (((PassOne.dat (V1 m) c).arrAt_in 0 rfl _).trans (PassOne.A_eq (V1 m) c 0))

/-- Pass one leaves the key features as it found them. -/
theorem V2_v25 (c : Dev nD) : V2 m c main_v25 = V1 m c main_v25 :=
  (W2_arr m c 1).trans (((PassOne.dat (V1 m) c).arrAt_in 1 rfl _).trans (PassOne.A_eq (V1 m) c 1))

/-- Pass one's output array: what its write-backs leave. -/
theorem V2_v26 (c : Dev nD) : V2 m c main_v26 = (PassOne.dat (V1 m) c).arrAt 2 cfg0.N :=
  W2_arr m c 2

/-- Pass two leaves the query features as the host operations made them. -/
theorem V3_v24 (c : Dev nD) : V3 m c main_v24 = V1 m c main_v24 :=
  ((W3_arr m c 0).trans (((PassTwo.dat (V2 m) c).arrAt_in 0 rfl _).trans (PassTwo.A_eq (V2 m) c 0))).trans (V2_v24 m c)

/-- Pass two leaves the key features as the host operations made them. -/
theorem V3_v25 (c : Dev nD) : V3 m c main_v25 = V1 m c main_v25 :=
  ((W3_arr m c 1).trans (((PassTwo.dat (V2 m) c).arrAt_in 1 rfl _).trans (PassTwo.A_eq (V2 m) c 1))).trans (V2_v25 m c)

/-- Pass two leaves pass one's output as it found it. -/
theorem V3_v26 (c : Dev nD) : V3 m c main_v26 = V2 m c main_v26 :=
  (W3_arr m c 2).trans (((PassTwo.dat (V2 m) c).arrAt_in 2 rfl _).trans (PassTwo.A_eq (V2 m) c 2))

/-- Pass two's output array: what its write-backs leave. -/
theorem V3_v27 (c : Dev nD) : V3 m c main_v27 = (PassTwo.dat (V2 m) c).arrAt 3 cfg1.N :=
  W3_arr m c 3

/-- Pass three's output array: what its write-backs leave. -/
theorem W4_v28 (c : Dev nD) : W4 m c (Proc.devRef .tc main_v28) = (PassThree.dat (V3 m) c).arrAt 4 cfg2.N :=
  W4_arr m c 4

/-! ### After the trailing host operations -/

set_option maxHeartbeats 8000000 in
/-- The result from pass three's output. -/
theorem W5_v38 (c : Dev nD) :
    W5 m c (Proc.devRef .tc main_v38) = HostOps.tail (W4 m c (Proc.devRef .tc main_v28)) := by
  dsimp only [W5]
  show StableHlo.after hostOps3 (W4 m c) (Proc.devRef .tc main_v38) = _
  after_results_simp
  rfl

end Cert.KernelIdeal.Whole

end
-- ==== Proof.KernelIdealPassOneValue.lean ====
/-
  What the found pieces of pass 1 are, as values: each case leaves in the scratch the step's payload of the input blocks
  and of what the scratch held (the reset value at the first step), and the last step leaves in the output block the
  scratch's final contents, recast. So the scratch after each point is a closed recursion over the points.
-/
import proofs.«155866_j66176856097431_1_alg».proof.Proof.KernelIdealPassOne
import Idealize.ShloMosaic.Lib.Pipeline.Value

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem scrMid_eq (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : ¬isLast i) (x0 : Vec F S1x256x1536 .f32) (x1 : Vec F S1x256x1536 .f32) (xs0 : Vec F S1536x1 .f32) :
    scrMid c i arg3 harg3 arg4 harg4 arg5 harg5 arg6 harg6 hc0 hc1 x0 x1 xs0 = k0_pay2 x0 x1 xs0 := by
  unfold scrMid
  rw [View.read_writes_eq_canon _ _ _ (scrMid_cover c i arg3 harg3 arg4 harg4 arg5 harg5 arg6 harg6 hc0 hc1 x0 x1 xs0)]
  unfold runMid
  dsimp only
  try sl_unfold_words
  rw [View.canon_unit_zero hz2]
  simp only [View.readAt_eq_ld, View.readCov_unit_zero (S := S1536x1) _ hz2, harg3.read_unread, harg4.read_unread, harg5.read_unread, harg6.read_unread, View.ld_unit_zero (S := S1x256x1536) hz3, View.ld_unit_zero (S := S1x1536x1) hz3, View.ld_unit_zero (S := S1536x1) hz2]

theorem scrLast_eq (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) :
    scrLast c i arg3 harg3 arg4 harg4 arg5 harg5 arg6 harg6 hc0 hc1 x0 x1 xs0 = k0_pay2 x0 x1 xs0 := by
  unfold scrLast
  rw [View.read_writes_eq_canon _ _ _ (scrLast_cover c i arg3 harg3 arg4 harg4 arg5 harg5 arg6 harg6 hc0 hc1 x0 x1 xs0)]
  unfold runLast
  dsimp only
  try sl_unfold_words
  rw [View.canon_unit_zero hz2]
  simp only [View.readAt_eq_ld, View.readCov_unit_zero (S := S1536x1) _ hz2, harg3.read_unread, harg4.read_unread, harg5.read_unread, harg6.read_unread, View.ld_unit_zero (S := S1x256x1536) hz3, View.ld_unit_zero (S := S1x1536x1) hz3, View.ld_unit_zero (S := S1536x1) hz2]

theorem outLast_eq (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : ¬isFirst i) (hc1 : isLast i) (x0 : Vec F S1x256x1536 .f32) (x1 : Vec F S1x256x1536 .f32) (xs0 : Vec F S1536x1 .f32) :
    outLast c i arg3 harg3 arg4 harg4 arg5 harg5 arg6 harg6 hc0 hc1 x0 x1 xs0 = k0_pay3 (k0_pay2 x0 x1 xs0) := by
  unfold outLast
  rw [View.read_writes_eq_canon _ _ _ (outLast_cover c i arg3 harg3 arg4 harg4 arg5 harg5 arg6 harg6 hc0 hc1 x0 x1 xs0)]
  unfold runLast
  dsimp only
  try sl_unfold_words
  rw [View.canon_unit_zero hz3]
  simp only [View.readAt_eq_ld, View.readCov_unit_zero (S := S1536x1) _ hz2, harg3.read_unread, harg4.read_unread, harg5.read_unread, harg6.read_unread, View.ld_unit_zero (S := S1x256x1536) hz3, View.ld_unit_zero (S := S1x1536x1) hz3, View.ld_unit_zero (S := S1536x1) hz2]

theorem scrFirst_eq (c : Dev nD) (i : grid0.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1536x1 .f32) (harg6 : arg6.IsWhole) (hc0 : isFirst i) (hc1 : ¬isLast i) (x0 : Vec F S1x256x1536 .f32) (x1 : Vec F S1x256x1536 .f32) :
    scrFirst c i arg3 harg3 arg4 harg4 arg5 harg5 arg6 harg6 hc0 hc1 x0 x1 = k0_pay2 x0 x1 (k0_pay1 (F := F)) := by
  unfold scrFirst
  rw [View.read_writes_eq_canon _ _ _ (scrFirst_cover c i arg3 harg3 arg4 harg4 arg5 harg5 arg6 harg6 hc0 hc1 x0 x1)]
  unfold runFirst
  dsimp only
  try sl_unfold_words
  rw [View.canon_cons_unit_zero (S := S1536x1) hz2]
  simp only [View.readAt_eq_ld, View.readCov_unit_zero (S := S1536x1) _ hz2, harg3.read_unread, harg4.read_unread, harg5.read_unread, harg6.read_unread, View.ld_unit_zero (S := S1x256x1536) hz3, View.ld_unit_zero (S := S1x1536x1) hz3, View.ld_unit_zero (S := S1536x1) hz2]

variable (V : (c : Dev nD) → (b : Ref sig .tc) → Buf (Elt F) ((c : Thread nD τ).loc b))

/-- The scratch after point `n`: at the first step of a reduction the step's payload of the reset value, afterwards of
    what the point before left. -/
def acc (c : Dev nD) : (n : ℕ) → n < cfg0.N → Vec F S1536x1 .f32
  | 0, h => k0_pay2 (iblk V c 0 ⟨0, h⟩) (iblk V c 1 ⟨0, h⟩) (k0_pay1 (F := F))
  | n + 1, h =>
    if (n + 1) % 6 = 0 then k0_pay2 (iblk V c 0 ⟨n + 1, h⟩) (iblk V c 1 ⟨n + 1, h⟩) (k0_pay1 (F := F))
    else k0_pay2 (iblk V c 0 ⟨n + 1, h⟩) (iblk V c 1 ⟨n + 1, h⟩) (acc c n (Nat.lt_of_succ_lt h))

theorem acc_zero (c : Dev nD) (h : 0 < cfg0.N) : acc V c 0 h = k0_pay2 (iblk V c 0 ⟨0, h⟩) (iblk V c 1 ⟨0, h⟩) (k0_pay1 (F := F)) := rfl
theorem acc_first (c : Dev nD) (n : ℕ) (h : n + 1 < cfg0.N) (h0 : (n + 1) % 6 = 0) :
    acc V c (n + 1) h = k0_pay2 (iblk V c 0 ⟨n + 1, h⟩) (iblk V c 1 ⟨n + 1, h⟩) (k0_pay1 (F := F)) := by
  rw [acc]; exact if_pos h0
theorem acc_next (c : Dev nD) (n : ℕ) (h : n + 1 < cfg0.N) (h0 : ¬(n + 1) % 6 = 0) :
    acc V c (n + 1) h = k0_pay2 (iblk V c 0 ⟨n + 1, h⟩) (iblk V c 1 ⟨n + 1, h⟩) (acc V c n (Nat.lt_of_succ_lt h)) := by
  rw [acc]; exact if_neg h0

theorem proj_first (c : Dev nD) (t : Fin cfg0.N) (h0 : t.val % 6 = 0) (h1 : ¬t.val % 6 = 5) :
    (outsAt V c t.val t.isLt).2 = scrFirst c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t) := by
  rw [outsAt_first V c t h0 h1]
theorem proj_mid (c : Dev nD) (t : Fin cfg0.N) (h0 : ¬t.val % 6 = 0) (h1 : ¬t.val % 6 = 5) :
    (outsAt V c t.val t.isLt).2 = scrMid c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2 := by
  rw [outsAt_mid V c t h0 h1]
theorem proj_last (c : Dev nD) (t : Fin cfg0.N) (h0 : ¬t.val % 6 = 0) (h1 : t.val % 6 = 5) :
    (outsAt V c t.val t.isLt).2 = scrLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2 := by
  rw [outsAt_last V c t h0 h1]
theorem proj_out (c : Dev nD) (t : Fin cfg0.N) (h0 : ¬t.val % 6 = 0) (h1 : t.val % 6 = 5) :
    (outsAt V c t.val t.isLt).1 = outLast c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2 := by
  rw [outsAt_last V c t h0 h1]

theorem snd_first (c : Dev nD) (t : Fin cfg0.N) (h0 : t.val % 6 = 0) (h1 : ¬t.val % 6 = 5) :
    (outsAt V c t.val t.isLt).2 = k0_pay2 (iblk V c 0 t) (iblk V c 1 t) (k0_pay1 (F := F)) :=
  (proj_first V c t h0 h1).trans (scrFirst_eq c (grid0.coords t) (ms0 t) (hs0 t) (ms1 t) (hs1 t) (ms2 t) (hs2 t) scM (Memref.isWhole_whole _) ((isFirst_iff t).mpr h0) (fun h => h1 ((isLast_iff t).mp h)) (iblk V c 0 t) (iblk V c 1 t))
theorem snd_mid (c : Dev nD) (t : Fin cfg0.N) (h0 : ¬t.val % 6 = 0) (h1 : ¬t.val % 6 = 5) :
    (outsAt V c t.val t.isLt).2 = k0_pay2 (iblk V c 0 t) (iblk V c 1 t) (outsAt V c (t.val - 1) (Nat.lt_of_le_of_lt (Nat.sub_le _ _) t.isLt)).2 :=
  (proj_mid V c t h0 h1).trans (scrMid_eq c (grid0.coords t) (ms0 t) (hs0 t) (ms1 t) (hs1 t) (ms2 t) (hs2 t) scM (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2)
theorem snd_last (c : Dev nD) (t : Fin cfg0.N) (h0 : ¬t.val % 6 = 0) (h1 : t.val % 6 = 5) :
    (outsAt V c t.val t.isLt).2 = k0_pay2 (iblk V c 0 t) (iblk V c 1 t) (outsAt V c (t.val - 1) (Nat.lt_of_le_of_lt (Nat.sub_le _ _) t.isLt)).2 :=
  (proj_last V c t h0 h1).trans (scrLast_eq c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2)
theorem fst_last (c : Dev nD) (t : Fin cfg0.N) (h0 : ¬t.val % 6 = 0) (h1 : t.val % 6 = 5) :
    (outsAt V c t.val t.isLt).1 = k0_pay3 (k0_pay2 (iblk V c 0 t) (iblk V c 1 t) (outsAt V c (t.val - 1) (Nat.lt_of_le_of_lt (Nat.sub_le _ _) t.isLt)).2) :=
  (proj_out V c t h0 h1).trans (outLast_eq c (grid0.coords t) (ms0 t) (hs0 t) (ms1 t) (hs1 t) (ms2 t) (hs2 t) scM (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2)

theorem scr_eq (c : Dev nD) : ∀ (n : ℕ) (h : n < cfg0.N), (outsAt V c n h).2 = acc V c n h
  | 0, h => snd_first V c ⟨0, h⟩ rfl (by show ¬ 0 % 6 = 5; decide)
  | n + 1, h => by
    by_cases h0 : (n + 1) % 6 = 0
    · exact (snd_first V c ⟨n + 1, h⟩ h0 (by show ¬ (n + 1) % 6 = 5; omega)).trans (acc_first V c n h h0).symm
    · by_cases h1 : (n + 1) % 6 = 5
      · refine (snd_last V c ⟨n + 1, h⟩ h0 h1).trans ?_
        rw [acc_next V c n h h0]
        exact congrArg (fun s => k0_pay2 (iblk V c 0 ⟨n + 1, h⟩) (iblk V c 1 ⟨n + 1, h⟩) s) (scr_eq c n _)
      · refine (snd_mid V c ⟨n + 1, h⟩ h0 h1).trans ?_
        rw [acc_next V c n h h0]
        exact congrArg (fun s => k0_pay2 (iblk V c 0 ⟨n + 1, h⟩) (iblk V c 1 ⟨n + 1, h⟩) s) (scr_eq c n _)

/-- At a last step the output block holds the scratch's final contents, recast. -/
theorem out_eq (c : Dev nD) (t : Fin cfg0.N) (h1 : t.val % 6 = 5) :
    (outsAt V c t.val t.isLt).1 = k0_pay3 (acc V c t.val t.isLt) := by
  have h0 : ¬t.val % 6 = 0 := by omega
  refine (fst_last V c t h0 h1).trans ?_
  exact congrArg (fun s => k0_pay3 s) ((snd_last V c t h0 h1).symm.trans (scr_eq V c t.val t.isLt))

end Cert.KernelIdeal.PassOne

end
-- ==== Proof.LibLanes.lean ====
/-
  Reading a lane reduction with kept dimension at an index, at the ideal instance: the sum (or the maximum) over the lanes of a
  row, cast from a vector of rows to a column, and a column broadcast back over the lanes. General in the two extents.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) (fun d => by
    match d with
    | ⟨0, _⟩ =>
      show p.val = if a = 1 then 0 else p.val
      split
      · have := p.isLt; omega
      · rfl
    | ⟨1, _⟩ => rfl)

/-- The sum over the lanes of row `p`. -/
theorem lane_sum {a b : ℕ} (v : FVec Ideal (⟨2, ![a, b]⟩ : Shape) .f32) (h : (⟨2, ![a, b]⟩ : Shape).Reduces [1] ⟨1, ![a]⟩)
    (hφ : FKind.Formats .f32) (hacc : (0x00000000#32 : BitVec 32) = 0x00000000#32) (p : Fin a) :
    multiReduction .add [1] (⟨1, ![a]⟩ : Shape) v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

/-- The maximum over the lanes of row `p`, from minus infinity. -/
theorem lane_max {a b : ℕ} (v : FVec Ideal (⟨2, ![a, b]⟩ : Shape) .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] (⟨1, ![a]⟩ : Shape) v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (Finset.fold max _ · Finset.univ) (funext fun k => congrArg v (funext fun d => Fin.ext ?_))
  match d with
  | ⟨0, _⟩ => rfl
  | ⟨1, _⟩ => rfl

end Cert.Lib

end
-- ==== Proof.KernelTile.lean ====
/-
  The arithmetic of one tile of the three passes, read at an index, on the extended reals.

  Every pass recomputes, for a block of 1536 queries and a block of 1536 keys, the product tile
  `P q l = Σ_c x0(0, c, q) · x1(0, c, l)` (a contraction over the 256 channels, axis 0 of both operands, into a zero
  accumulator), the distance tile `1 − P q l`, and (passes two and three) the weight tile
  `exp ((0 − (1 − P q l)) / (½ · (d q + ε)))`, where the column `d` holds the queries' least distances and is broadcast
  along the keys. Read at `(q, l)` these are the cosine distance and the first spelling's weight of the specification.
  Also here: a reduction along the lanes of a row (minimum) and down a column (maximum) read at an index as a fold over
  the reduced coordinate.
-/
import proofs.«155866_j66176856097431_1_alg».proof.Proof.Gen.KernelIdeal.Skeleton
import proofs.«155866_j66176856097431_1_alg».proof.Proof.Contextual
import proofs.«155866_j66176856097431_1_alg».proof.Proof.Literals
import proofs.«155866_j66176856097431_1_alg».proof.Proof.LibLanes
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

theorem lhs_tile_1 (i : S1536x1536.Idx) (k : dot_S256x1536_S256x1536_S1536x1536_0_0_1_1_n_n.contr.Idx) :
    (dot_S256x1536_S256x1536_S1536x1536_0_0_1_1_n_n.lhsIdx i k 1).val = (i 0).val := by
  unfold DotDims.lhsIdx
  rw [dif_neg (show ¬(1 : Fin S256x1536.rank) ∈ dot_S256x1536_S256x1536_S1536x1536_0_0_1_1_n_n.lhsBatch by decide),
    dif_pos (show (1 : Fin S256x1536.rank) ∈ dot_S256x1536_S256x1536_S1536x1536_0_0_1_1_n_n.lhsNonContracting by decide)]
  rfl

theorem rhs_tile_1 (i : S1536x1536.Idx) (k : dot_S256x1536_S256x1536_S1536x1536_0_0_1_1_n_n.contr.Idx) :
    (dot_S256x1536_S256x1536_S1536x1536_0_0_1_1_n_n.rhsIdx i k 1).val = (i 1).val := by
  unfold DotDims.rhsIdx
  rw [dif_neg (show ¬(1 : Fin S256x1536.rank) ∈ dot_S256x1536_S256x1536_S1536x1536_0_0_1_1_n_n.rhsBatch by decide),
    dif_pos (show (1 : Fin S256x1536.rank) ∈ dot_S256x1536_S256x1536_S1536x1536_0_0_1_1_n_n.rhsNonContracting by decide)]
  rfl

theorem lhs_tile_0 (i : S1536x1536.Idx) (k : dot_S256x1536_S256x1536_S1536x1536_0_0_1_1_n_n.contr.Idx) :
    (dot_S256x1536_S256x1536_S1536x1536_0_0_1_1_n_n.lhsIdx i k 0).val = (k ⟨0, by decide⟩).val :=
  dot_S256x1536_S256x1536_S1536x1536_0_0_1_1_n_n.lhsIdx_val_of_single rfl i k

theorem rhs_tile_0 (i : S1536x1536.Idx) (k : dot_S256x1536_S256x1536_S1536x1536_0_0_1_1_n_n.contr.Idx) :
    (dot_S256x1536_S256x1536_S1536x1536_0_0_1_1_n_n.rhsIdx i k 0).val = (k ⟨0, by decide⟩).val :=
  dot_S256x1536_S256x1536_S1536x1536_0_0_1_1_n_n.rhsIdx_val_of_single rfl i k

/-- The product tile at `(q, l)`: the sum over the channels of the two operands' products. -/
theorem matmul_tile_apply (x0 x1 : FVec Ideal S1x256x1536 .f32) (q l : Fin 1536) :
    (matmul dot_S256x1536_S256x1536_S1536x1536_0_0_1_1_n_n none
        (shapeCast S256x1536 x0 shapeCasts_S1x256x1536_S256x1536 : FVec Ideal S256x1536 .f32)
        (shapeCast S256x1536 x1 shapeCasts_S1x256x1536_S256x1536 : FVec Ideal S256x1536 .f32)
        (constant (F := Ideal) S1536x1536 .f32 0x00000000#32) : FVec Ideal S1536x1536 .f32) (ix2 q l)
      = ∑ c : Fin 256, x0 (ix3 (0 : Fin 1) c q) * x1 (ix3 (0 : Fin 1) c l) := by
  simp only [matmul]
  rw [Ideal.matmul_constant_zero_apply,
    ← Equiv.sum_comp (contrEquiv1 dot_S256x1536_S256x1536_S1536x1536_0_0_1_1_n_n 256 rfl rfl).symm]
  refine Finset.sum_congr rfl fun c _ => ?_
  have hk := contrEquiv1_symm_val dot_S256x1536_S256x1536_S1536x1536_0_0_1_1_n_n 256 rfl rfl c
  have el : dot_S256x1536_S256x1536_S1536x1536_0_0_1_1_n_n.lhsIdx (ix2 q l)
      ((contrEquiv1 dot_S256x1536_S256x1536_S1536x1536_0_0_1_1_n_n 256 rfl rfl).symm c) = ix2 c q :=
    funext fun a => Fin.ext (by
      match a with
      | ⟨0, _⟩ => exact (lhs_tile_0 _ _).trans hk
      | ⟨1, _⟩ => exact lhs_tile_1 _ _)
  have er : dot_S256x1536_S256x1536_S1536x1536_0_0_1_1_n_n.rhsIdx (ix2 q l)
      ((contrEquiv1 dot_S256x1536_S256x1536_S1536x1536_0_0_1_1_n_n 256 rfl rfl).symm c) = ix2 c l :=
    funext fun a => Fin.ext (by
      match a with
      | ⟨0, _⟩ => exact (rhs_tile_0 _ _).trans hk
      | ⟨1, _⟩ => exact rhs_tile_1 _ _)
  rw [el, er, shapeCast_1ab_ab_apply, shapeCast_1ab_ab_apply]

/-- The distance tile at `(q, l)`. -/
theorem dist_tile_apply (x0 x1 : FVec Ideal S1x256x1536 .f32) (q l : Fin 1536) :
    (subf (broadcast S1536x1536 (Scalar.ofBits (F := Ideal) .f32 0x3F800000#32))
        (matmul dot_S256x1536_S256x1536_S1536x1536_0_0_1_1_n_n none
          (shapeCast S256x1536 x0 shapeCasts_S1x256x1536_S256x1536 : FVec Ideal S256x1536 .f32)
          (shapeCast S256x1536 x1 shapeCasts_S1x256x1536_S256x1536 : FVec Ideal S256x1536 .f32)
          (constant (F := Ideal) S1536x1536 .f32 0x00000000#32)) : FVec Ideal S1536x1536 .f32) (ix2 q l)
      = Cert.Contextual.dist (fun (c : Fin 256) (q : Fin 1536) => x0 (ix3 (0 : Fin 1) c q))
          (fun (c : Fin 256) (l : Fin 1536) => x1 (ix3 (0 : Fin 1) c l)) q l := by
  rw [subf_apply, broadcast_apply, matmul_tile_apply]
  rfl

/-- The weight tile at `(q, l)`: the first spelling's weight, with the least distances read from the column `d`. -/
theorem wgt_tile_apply (x0 x1 : FVec Ideal S1x256x1536 .f32) (d : FVec Ideal S1x1536x1 .f32) (q l : Fin 1536) :
    (exp (divf
        (subf (broadcast S1536x1536 (Scalar.ofBits (F := Ideal) .f32 0x00000000#32))
          (subf (broadcast S1536x1536 (Scalar.ofBits (F := Ideal) .f32 0x3F800000#32))
            (matmul dot_S256x1536_S256x1536_S1536x1536_0_0_1_1_n_n none
              (shapeCast S256x1536 x0 shapeCasts_S1x256x1536_S256x1536 : FVec Ideal S256x1536 .f32)
              (shapeCast S256x1536 x1 shapeCasts_S1x256x1536_S256x1536 : FVec Ideal S256x1536 .f32)
              (constant (F := Ideal) S1536x1536 .f32 0x00000000#32))))
        (broadcastTo S1536x1536
          (mulf (broadcast S1536x1 (Scalar.ofBits (F := Ideal) .f32 0x3F000000#32))
            (addf (shapeCast S1536x1 d shapeCasts_S1x1536x1_S1536x1 : FVec Ideal S1536x1 .f32)
              (broadcast S1536x1 (Scalar.ofBits (F := Ideal) .f32 0x3727C5AC#32))))
          broadcasts_S1536x1_S1536x1536)) : FVec Ideal S1536x1536 .f32) (ix2 q l)
      = Cert.Contextual.wgt (fun q : Fin 1536 => d (ix3 (0 : Fin 1) q (0 : Fin 1)))
          (fun (c : Fin 256) (q : Fin 1536) => x0 (ix3 (0 : Fin 1) c q))
          (fun (c : Fin 256) (l : Fin 1536) => x1 (ix3 (0 : Fin 1) c l)) q l := by
  show Ideal.exp (Ideal.div (Ideal.ofBits .f32 0x00000000#32 - _) _) = _
  rw [dist_tile_apply, Cert.Lib.broadcastTo_a1_ab_apply, mulf_apply, addf_apply, broadcast_apply, broadcast_apply,
    shapeCast_1ab_ab_apply]
  rfl

/-- The minimum over the lanes of row `p`, from plus infinity. -/
theorem lane_min {a b : ℕ} (v : FVec Ideal (⟨2, ![a, b]⟩ : Shape) .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] (⟨1, ![a]⟩ : Shape) v 0x7F800000#32 h hφ hacc (ix1 p)
      = (Finset.univ : Finset (Fin b)).fold min (Ideal.ofBits .f32 0x7F800000#32) (fun k => v (ix2 p k)) := by
  refine (multiReduction_minimumf_eq_fold v 0x7F800000#32 h hφ hacc (ix1 p)).trans ?_
  refine (h.fold_filter_drop_single _ _ v (ix1 p)).trans ?_
  refine congrArg (Finset.fold min _ · Finset.univ) (funext fun k => congrArg v (funext fun d => Fin.ext ?_))
  match d with
  | ⟨0, _⟩ => rfl
  | ⟨1, _⟩ => rfl

/-- The maximum down column `p` (over axis 0), from minus infinity. -/
theorem col_max {a b : ℕ} (v : FVec Ideal (⟨2, ![a, b]⟩ : Shape) .f32) (h : (⟨2, ![a, b]⟩ : Shape).Reduces [0] ⟨1, ![b]⟩)
    (hφ : FKind.Formats .f32) (hacc : (0xFF800000#32 : BitVec 32) = 0xFF800000#32) (p : Fin b) :
    multiReduction .maximumf [0] (⟨1, ![b]⟩ : Shape) v 0xFF800000#32 h hφ hacc (ix1 p)
      = (Finset.univ : Finset (Fin a)).fold max (Ideal.ofBits .f32 0xFF800000#32) (fun k => v (ix2 k p)) := by
  refine (Ideal.multiReduction_maximumf_single v 0xFF800000#32 h hφ hacc (ix1 p)).trans ?_
  refine congrArg (Finset.fold max _ · Finset.univ) (funext fun k => congrArg v (funext fun d => Fin.ext ?_))
  match d with
  | ⟨0, _⟩ => rfl
  | ⟨1, _⟩ => rfl

end Cert.KernelIdeal.Tile
end
-- ==== Proof.KernelPayloads.lean ====
/-
  What each pass stores, read at an index, on the extended reals.

  Pass one keeps, per query, a running minimum: it starts at `+∞`, each step takes the minimum of the stored value and
  the least distance of the query to the step's 1536 keys, and the last step copies the column out. Pass two keeps a
  running sum of the weights in the same way from `0`; pass three keeps, per key, a running maximum from `−∞` of the
  weights divided by the queries' row sums, the maximum running down the queries of the step. The layout operations in
  between (a unit axis added or dropped, a column broadcast along the lanes, a cast to the same shape) move no value.
-/
import proofs.«155866_j66176856097431_1_alg».proof.Proof.KernelTile

noncomputable section

namespace Cert.KernelIdeal.Payloads

open Idealize.ShloMosaic Idealize.ShloMosaic.ValueIdx Cert.KernelIdeal Cert.KernelIdeal.Gen Cert.KernelIdeal.Tile

/-! ### Pass one -/

/-- The first step's initial value: `+∞` everywhere. -/
theorem k0_pay1_apply (q : Fin 1536) (u : Fin 1) : k0_pay1 (F := Ideal) (ix2 q u) = Cert.Contextual.pinf := by
  unfold k0_pay1
  refine (congrFun (shapeCast_self _ _) _).trans ?_
  rfl

/-- A step of pass one: the stored minimum against the least distance to the step's keys. -/
theorem k0_pay2_apply (x0 x1 : Vec Ideal S1x256x1536 .f32) (xs : Vec Ideal S1536x1 .f32) (q : Fin 1536) (u : Fin 1) :
    k0_pay2 x0 x1 xs (ix2 q u)
      = min (xs (ix2 q u)) ((Finset.univ : Finset (Fin 1536)).fold min Cert.Contextual.pinf
          (fun l => Cert.Contextual.dist (fun (c : Fin 256) (q : Fin 1536) => x0 (ix3 (0 : Fin 1) c q))
            (fun (c : Fin 256) (l : Fin 1536) => x1 (ix3 (0 : Fin 1) c l)) q l)) := by
  unfold k0_pay2
  refine (congrFun (shapeCast_self _ _) _).trans ?_
  refine congrArg (min (xs (ix2 q u))) ?_
  refine (Cert.Lib.shapeCast_a_a1_apply _ _ q u).trans ?_
  refine (lane_min _ _ _ _ q).trans ?_
  exact congrArg (Finset.fold min _ · Finset.univ) (funext fun l => dist_tile_apply x0 x1 q l)

/-- The last step's copy-out: a unit axis added in front. -/
theorem k0_pay3_apply (v : Vec Ideal S1536x1 .f32) (q : Fin 1536) (u : Fin 1) :
    k0_pay3 v (ix3 (0 : Fin 1) q u) = v (ix2 q u) := by
  unfold k0_pay3
  exact shapeCast_ab_1ab_apply v _ (0 : Fin 1) q u

/-! ### Pass two -/

/-- The first step's initial value: `0` everywhere. -/
theorem k1_pay1_apply (q : Fin 1536) (u : Fin 1) : k1_pay1 (F := Ideal) (ix2 q u) = Cert.Contextual.zero := by
  unfold k1_pay1
  refine (congrFun (shapeCast_self _ _) _).trans ?_
  rfl

/-- A step of pass two: the stored sum plus the weights of the step's keys. -/
theorem k1_pay2_apply (x0 x1 : Vec Ideal S1x256x1536 .f32) (d : Vec Ideal S1x1536x1 .f32) (xs : Vec Ideal S1536x1 .f32)
    (q : Fin 1536) (u : Fin 1) :
    k1_pay2 x0 x1 d xs (ix2 q u)
      = xs (ix2 q u) + ∑ l : Fin 1536, Cert.Contextual.wgt (fun q : Fin 1536 => d (ix3 (0 : Fin 1) q (0 : Fin 1)))
          (fun (c : Fin 256) (q : Fin 1536) => x0 (ix3 (0 : Fin 1) c q))
          (fun (c : Fin 256) (l : Fin 1536) => x1 (ix3 (0 : Fin 1) c l)) q l := by
  unfold k1_pay2
  refine (congrFun (shapeCast_self _ _) _).trans ?_
  refine congrArg (xs (ix2 q u) + ·) ?_
  refine (Cert.Lib.shapeCast_a_a1_apply _ _ q u).trans ?_
  refine (Cert.Lib.lane_sum _ _ _ _ q).trans ?_
  exact Finset.sum_congr rfl fun l _ => wgt_tile_apply x0 x1 d q l

/-- The last step's copy-out. -/
theorem k1_pay3_apply (v : Vec Ideal S1536x1 .f32) (q : Fin 1536) (u : Fin 1) :
    k1_pay3 v (ix3 (0 : Fin 1) q u) = v (ix2 q u) := by
  unfold k1_pay3
  exact shapeCast_ab_1ab_apply v _ (0 : Fin 1) q u

/-! ### Pass three -/

/-- The first step's initial value: `−∞` everywhere. -/
theorem k2_pay2_apply (l : Fin 1536) : k2_pay2 (F := Ideal) (ix2 (0 : Fin 1) l) = Cert.Contextual.ninf := by
  unfold k2_pay2
  refine (congrFun (shapeCast_self _ _) _).trans ?_
  rfl

/-- A step of pass three: the stored maximum against the greatest normalised weight over the step's queries. -/
theorem k2_pay3_apply (x0 x1 : Vec Ideal S1x256x1536 .f32) (d s : Vec Ideal S1x1536x1 .f32) (xr : Vec Ideal S1x1536 .f32)
    (l : Fin 1536) :
    k2_pay3 x0 x1 d s xr (ix2 (0 : Fin 1) l)
      = max (xr (ix2 (0 : Fin 1) l)) ((Finset.univ : Finset (Fin 1536)).fold max Cert.Contextual.ninf
          (fun q => Ideal.div
            (Cert.Contextual.wgt (fun q : Fin 1536 => d (ix3 (0 : Fin 1) q (0 : Fin 1)))
              (fun (c : Fin 256) (q : Fin 1536) => x0 (ix3 (0 : Fin 1) c q))
              (fun (c : Fin 256) (l : Fin 1536) => x1 (ix3 (0 : Fin 1) c l)) q l)
            (s (ix3 (0 : Fin 1) q (0 : Fin 1))))) := by
  unfold k2_pay3
  refine (congrFun (shapeCast_self _ _) _).trans ?_
  refine congrArg (max (xr (ix2 (0 : Fin 1) l))) ?_
  refine (shapeCast_a_1a_apply _ _ (0 : Fin 1) l).trans ?_
  refine (col_max _ _ _ _ l).trans ?_
  refine congrArg (Finset.fold max _ · Finset.univ) (funext fun q => ?_)
  refine (divf_apply _ _ (ix2 q l)).trans ?_
  rw [wgt_tile_apply, Cert.Lib.broadcastTo_a1_ab_apply, shapeCast_1ab_ab_apply]

/-- The last step's copy-out: a unit axis added in front. -/
theorem k2_pay1_apply (v : Vec Ideal S1x1536 .f32) (l : Fin 1536) :
    k2_pay1 v (ix3 (0 : Fin 1) (0 : Fin 1) l) = v (ix2 (0 : Fin 1) l) := by
  unfold k2_pay1
  exact shapeCast_ab_1ab_apply v _ (0 : Fin 1) (0 : Fin 1) l

end Cert.KernelIdeal.Payloads

end
-- ==== Proof.KernelIdealPassOneRead.lean ====
/-
  Pass 1 read at an index, over the extended reals. A block of the query features read at a channel and a position is the
  feature array at the batch entry, the channel and the block's offset plus the position; so the row minima of a tile are
  minima of the cosine distances over 1536 consecutive keys, the running column after the six tiles of a query block is the
  least distance over all 9216 keys, and the write-backs (one per batch entry and query block) cover the output array.
-/
import proofs.«155866_j66176856097431_1_alg».proof.Proof.KernelIdealPassOneValue
import proofs.«155866_j66176856097431_1_alg».proof.Proof.KernelPayloads
import proofs.«155866_j66176856097431_1_alg».proof.Proof.Tiles

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps, over the grid: the batch entry is the point's position over 36, the query block its position
    over 6 modulo 6, the key block its position modulo 6. -/
theorem idx_0 : ∀ t : Fin cfg0.N, win0_0.index t (0 : Fin 3) = t.val / 36 ∧ win0_0.index t (1 : Fin 3) = 0 ∧ win0_0.index t (2 : Fin 3) = t.val / 6 % 6 :=
  (by decide +kernel : ∀ t : Fin grid0.N, _)
theorem idx_1 : ∀ t : Fin cfg0.N, win0_1.index t (0 : Fin 3) = t.val / 36 ∧ win0_1.index t (1 : Fin 3) = 0 ∧ win0_1.index t (2 : Fin 3) = t.val % 6 :=
  (by decide +kernel : ∀ t : Fin grid0.N, _)
theorem idx_2 : ∀ t : Fin cfg0.N, win0_2.index t (0 : Fin 3) = t.val / 36 ∧ win0_2.index t (1 : Fin 3) = t.val / 6 % 6 ∧ win0_2.index t (2 : Fin 3) = 0 :=
  (by decide +kernel : ∀ t : Fin grid0.N, _)

/-- The query features and the key features of batch entry `n`, as the pass finds them. -/
def qF (c : Dev nD) (n : Fin 2) : Fin 256 → Fin 9216 → EReal := fun cc Q => V c main_v24 (ix3 n cc Q)
def kF (c : Dev nD) (n : Fin 2) : Fin 256 → Fin 9216 → EReal := fun cc K => V c main_v25 (ix3 n cc K)

theorem iblk0_apply (c : Dev nD) (t : Fin cfg0.N) (n : Fin 2) (qb : ℕ) (hn : t.val / 36 = n.val) (hq : t.val / 6 % 6 = qb)
    (cc : Fin 256) (q : Fin 1536) (hQ : qb * 1536 + q.val < 9216) :
    iblk V c 0 t (ix3 (0 : Fin 1) cc q) = qF V c n cc ⟨qb * 1536 + q.val, hQ⟩ := by
  obtain ⟨e0, e1, e2⟩ := idx_0 t
  unfold iblk qF
  rw [View.read_apply]
  show V c main_v24 _ = V c main_v24 _
  congr 1
  funext a; apply Fin.ext
  match a with
  | ⟨0, _⟩ => show win0_0.index t (0 : Fin 3) * 1 + 1 * 0 = n.val; omega
  | ⟨1, _⟩ => show win0_0.index t (1 : Fin 3) * 256 + 1 * cc.val = cc.val; omega
  | ⟨2, _⟩ => show win0_0.index t (2 : Fin 3) * 1536 + 1 * q.val = qb * 1536 + q.val; omega

theorem iblk1_apply (c : Dev nD) (t : Fin cfg0.N) (n : Fin 2) (kb : ℕ) (hn : t.val / 36 = n.val) (hk : t.val % 6 = kb)
    (cc : Fin 256) (l : Fin 1536) (hK : kb * 1536 + l.val < 9216) :
    iblk V c 1 t (ix3 (0 : Fin 1) cc l) = kF V c n cc ⟨kb * 1536 + l.val, hK⟩ := by
  obtain ⟨e0, e1, e2⟩ := idx_1 t
  unfold iblk kF
  rw [View.read_apply]
  show V c main_v25 _ = V c main_v25 _
  congr 1
  funext a; apply Fin.ext
  match a with
  | ⟨0, _⟩ => show win0_1.index t (0 : Fin 3) * 1 + 1 * 0 = n.val; omega
  | ⟨1, _⟩ => show win0_1.index t (1 : Fin 3) * 256 + 1 * cc.val = cc.val; omega
  | ⟨2, _⟩ => show win0_1.index t (2 : Fin 3) * 1536 + 1 * l.val = kb * 1536 + l.val; omega

/-- The distances of a tile are distances between the global features. -/
theorem dist_blk (c : Dev nD) (t : Fin cfg0.N) (n : Fin 2) (qb kb : ℕ) (hn : t.val / 36 = n.val) (hq : t.val / 6 % 6 = qb) (hk : t.val % 6 = kb)
    (q l : Fin 1536) (hQ : qb * 1536 + q.val < 9216) (hK : kb * 1536 + l.val < 9216) :
    Cert.Contextual.dist (fun (cc : Fin 256) (q : Fin 1536) => iblk V c 0 t (ix3 (0 : Fin 1) cc q)) (fun (cc : Fin 256) (l : Fin 1536) => iblk V c 1 t (ix3 (0 : Fin 1) cc l)) q l
      = Cert.Contextual.dist (qF V c n) (kF V c n) ⟨qb * 1536 + q.val, hQ⟩ ⟨kb * 1536 + l.val, hK⟩ := by
  unfold Cert.Contextual.dist
  refine congrArg (fun s => Cert.Contextual.one - s) (Finset.sum_congr rfl fun cc _ => ?_)
  beta_reduce
  rw [iblk0_apply V c t n qb hn hq cc q hQ, iblk1_apply V c t n kb hn hk cc l hK]

/-- The tile minimum at point `t`, for the query at position `q` of the block. -/
theorem tile_min (c : Dev nD) (t : Fin cfg0.N) (n : Fin 2) (qb kb : ℕ) (hn : t.val / 36 = n.val) (hq : t.val / 6 % 6 = qb) (hk : t.val % 6 = kb) (hkb : kb < 6)
    (q : Fin 1536) (hQ : qb * 1536 + q.val < 9216) :
    (Finset.univ : Finset (Fin 1536)).fold min Cert.Contextual.pinf (fun l => Cert.Contextual.dist (fun (cc : Fin 256) (q : Fin 1536) => iblk V c 0 t (ix3 (0 : Fin 1) cc q)) (fun (cc : Fin 256) (l : Fin 1536) => iblk V c 1 t (ix3 (0 : Fin 1) cc l)) q l)
      = (Finset.univ : Finset (Fin 1536)).fold min Cert.Contextual.pinf (fun l => Cert.Contextual.dist (qF V c n) (kF V c n) ⟨qb * 1536 + q.val, hQ⟩ ⟨kb * 1536 + l.val, by have := l.isLt; omega⟩) :=
  congrArg (fun f => (Finset.univ : Finset (Fin 1536)).fold min Cert.Contextual.pinf f)
    (funext fun l => dist_blk V c t n qb kb hn hq hk q l hQ (by have := l.isLt; omega))

/-- After the six tiles of a query block the running column holds, at position `q`, the least distance over all keys. -/
theorem acc_group (c : Dev nD) (g : ℕ) (hg : g < 12) (q : Fin 1536) (u : Fin 1) (h5 : 6 * g + 5 < cfg0.N) :
    acc V c (6 * g + 5) h5 (ix2 q u)
      = Cert.Contextual.dmin (qF V c ⟨g / 6, by omega⟩) (kF V c ⟨g / 6, by omega⟩) (⟨g % 6 * 1536 + q.val, by have := q.isLt; omega⟩ : Fin 9216) := by
  have hN : cfg0.N = 72 := N_0
  have hq' := q.isLt
  let n : Fin 2 := ⟨g / 6, by omega⟩
  let Q : Fin 9216 := ⟨g % 6 * 1536 + q.val, by omega⟩
  let Fk : Fin 9216 → EReal := fun k => Cert.Contextual.dist (qF V c n) (kF V c n) Q k
  let gN : ℕ → EReal := fun j => if hj : j < 6 then (Finset.univ : Finset (Fin 1536)).fold min Cert.Contextual.pinf (fun l => Fk ⟨j * 1536 + l.val, by have := l.isLt; omega⟩) else 0
  let aN : ℕ → EReal := fun j => if hj : 6 * g + j < cfg0.N then acc V c (6 * g + j) hj (ix2 q u) else 0
  have key := Cert.Contextual.acc_min_6x1536 Fk (le_refl Cert.Contextual.pinf) gN aN
    (fun j => by show gN j.val = _; simp only [gN, dif_pos j.isLt])
    (by
      show aN 0 = min Cert.Contextual.pinf (gN 0)
      have h0 : 6 * g + 0 < cfg0.N := by omega
      simp only [aN, gN, dif_pos h0, dif_pos (show (0 : ℕ) < 6 by norm_num)]
      have hstep : acc V c (6 * g + 0) h0 = k0_pay2 (iblk V c 0 ⟨6 * g + 0, h0⟩) (iblk V c 1 ⟨6 * g + 0, h0⟩) (k0_pay1 (F := Ideal)) := by
        rcases g with _ | g'
        · exact acc_zero V c h0
        · exact acc_first V c (6 * g' + 5) h0 (by omega)
      rw [hstep, Cert.KernelIdeal.Payloads.k0_pay2_apply, Cert.KernelIdeal.Payloads.k0_pay1_apply]
      exact congrArg (min Cert.Contextual.pinf) (tile_min V c ⟨6 * g + 0, h0⟩ n (g % 6) 0 (by show (6 * g + 0) / 36 = g / 6; omega) (by show (6 * g + 0) / 6 % 6 = g % 6; omega) (by show (6 * g + 0) % 6 = 0; omega) (by norm_num) q (by omega)))
    (fun j hj => by
      show aN (j + 1) = min (aN j) (gN (j + 1))
      have h1 : 6 * g + (j + 1) < cfg0.N := by omega
      have h0 : 6 * g + j < cfg0.N := by omega
      simp only [aN, gN, dif_pos h1, dif_pos h0, dif_pos (show j + 1 < 6 by omega)]
      show acc V c (6 * g + j + 1) h1 (ix2 q u) = _
      rw [acc_next V c (6 * g + j) h1 (by omega), Cert.KernelIdeal.Payloads.k0_pay2_apply]
      exact congrArg (min _) (tile_min V c ⟨6 * g + j + 1, h1⟩ n (g % 6) (j + 1) (by show (6 * g + j + 1) / 36 = g / 6; omega) (by show (6 * g + j + 1) / 6 % 6 = g % 6; omega) (by show (6 * g + j + 1) % 6 = j + 1; omega) (by omega) q (by omega)))
  have h5' : 6 * g + 5 < cfg0.N := h5
  have : aN 5 = acc V c (6 * g + 5) h5 (ix2 q u) := by simp only [aN, dif_pos h5']
  rw [← this, key]
  rfl

/-- The least distance of query `Q` of batch entry `n` (zero outside the ranges, which no index meets). -/
def dminAt (c : Dev nD) (n Q : ℕ) : EReal :=
  if h : n < 2 ∧ Q < 9216 then Cert.Contextual.dmin (qF V c ⟨n, h.1⟩) (kF V c ⟨n, h.1⟩) (⟨Q, h.2⟩ : Fin 9216) else 0

theorem acc_at (c : Dev nD) (n₀ : ℕ) (h : n₀ < cfg0.N) (h5 : n₀ % 6 = 5) (q : Fin 1536) (u : Fin 1) :
    acc V c n₀ h (ix2 q u) = dminAt V c (n₀ / 36) (n₀ / 6 % 6 * 1536 + q.val) := by
  have hN : cfg0.N = 72 := N_0
  have hq := q.isLt
  obtain ⟨g, rfl⟩ : ∃ g, n₀ = 6 * g + 5 := ⟨n₀ / 6, by omega⟩
  rw [acc_group V c g (by omega) q u h]
  have hc : (6 * g + 5) / 36 < 2 ∧ (6 * g + 5) / 6 % 6 * 1536 + q.val < 9216 := by omega
  unfold dminAt
  rw [dif_pos hc]
  have e1 : (6 * g + 5) / 36 = g / 6 := by omega
  have e2 : (6 * g + 5) / 6 % 6 * 1536 + q.val = g % 6 * 1536 + q.val := by omega
  congr 1 <;> first | exact Fin.ext e2.symm | (congr 1; exact Fin.ext e1.symm)

/-- The output array after the pass: the least distance of every query. -/
def G (c : Dev nD) : Buf (Elt Ideal) ((c : Thread nD τ).loc main_v26) := fun i => dminAt V c (i 0).val (i 1).val

theorem flushed_eq (c : Dev nD) (t : Fin cfg0.N) (hf : (cfg0.win 2).flush t = true) :
    (dat V c).flushed 2 t = ((cfg0.win 2).blk t).view.read (Elt Ideal) (G V c) := by
  have h5 : t.val % 6 = 5 := (flush0_2 t).mp hf
  obtain ⟨e0, e1, e2⟩ := idx_2 t
  show (cfg0.win 2).cut (grid0.coords t) ((dat V c).after 2 t) = _
  rw [after_out, out_eq V c t h5]
  funext y
  rw [View.read_apply]
  obtain ⟨p0, q, u, rfl⟩ : ∃ (p0 : Fin 1) (q : Fin 1536) (u : Fin 1), y = ix3 p0 q u := ⟨y 0, y 1, y 2, eq_ix3 y⟩
  obtain rfl : p0 = 0 := Subsingleton.elim _ _
  show k0_pay3 (acc V c t.val t.isLt) (ix3 (0 : Fin 1) q u) = dminAt V c (win0_2.index t (0 : Fin 3) * 1 + 1 * 0) (win0_2.index t (1 : Fin 3) * 1536 + 1 * q.val)
  rw [Cert.KernelIdeal.Payloads.k0_pay3_apply, acc_at V c t.val t.isLt h5 q u, e0, e1]
  congr 1 <;> omega

theorem mem_blk (t : Fin cfg0.N) (i : S2x9216x1.Idx) :
    i ∈ ((cfg0.win 2).blk t).view.set ↔ ∀ a : Fin 3, win0_2.index t a * S1x1536x1.size a ≤ (i a).val ∧ (i a).val < win0_2.index t a * S1x1536x1.size a + S1x1536x1.size a := by
  show i ∈ ((View.whole main_v26).slice (win0_2.rect t)).set ↔ _
  rw [View.set_slice_whole, Rect.mem_set_unit]
  exact Iff.rfl

theorem cover (i : S2x9216x1.Idx) : ∃ t : Fin cfg0.N, (cfg0.win 2).flush t = true ∧ i ∈ ((cfg0.win 2).blk t).view.set := by
  have h0 : (i 0).val < 2 := (i 0).isLt
  have h1 : (i 1).val < 9216 := (i 1).isLt
  have h2 : (i 2).val < 1 := (i 2).isLt
  have hN : cfg0.N = 72 := N_0
  have ht : (i 0).val * 36 + (i 1).val / 1536 * 6 + 5 < cfg0.N := by omega
  obtain ⟨e0, e1, e2⟩ := idx_2 ⟨_, ht⟩
  have tv : ((⟨_, ht⟩ : Fin cfg0.N)).val = (i 0).val * 36 + (i 1).val / 1536 * 6 + 5 := rfl
  refine ⟨⟨_, ht⟩, (flush0_2 _).mpr (by rw [tv]; omega), ?_⟩
  rw [mem_blk]
  intro a
  match a with
  | ⟨0, _⟩ => show win0_2.index _ (0 : Fin 3) * 1 ≤ (i 0).val ∧ (i 0).val < win0_2.index _ (0 : Fin 3) * 1 + 1; rw [e0, tv]; omega
  | ⟨1, _⟩ => show win0_2.index _ (1 : Fin 3) * 1536 ≤ (i 1).val ∧ (i 1).val < win0_2.index _ (1 : Fin 3) * 1536 + 1536; rw [e1, tv]; omega
  | ⟨2, _⟩ => show win0_2.index _ (2 : Fin 3) * 1 ≤ (i 2).val ∧ (i 2).val < win0_2.index _ (2 : Fin 3) * 1 + 1; rw [e2]; omega

/-- So the output array of pass 1 ends holding the least distances. -/
theorem final (c : Dev nD) : (dat V c).arrAt 2 cfg0.N = G V c :=
  (dat V c).arrAt_eq_of_cover 2 (G V c) (flushed_eq V c) cover

end Cert.KernelIdeal.PassOne

end
-- ==== Proof.KernelIdealPassTwoValue.lean ====
/-
  What the found pieces of pass 2 are, as values: each case leaves in the scratch the step's payload of the input blocks
  and of what the scratch held (the reset value at the first step), and the last step leaves in the output block the
  scratch's final contents, recast. So the scratch after each point is a closed recursion over the points.
-/
import proofs.«155866_j66176856097431_1_alg».proof.Proof.KernelIdealPassTwo
import Idealize.ShloMosaic.Lib.Pipeline.Value

set_option maxRecDepth 16384

noncomputable section

namespace Cert.KernelIdeal.PassTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem scrMid_eq (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : ¬isLast i) (x0 : Vec F S1x256x1536 .f32) (x1 : Vec F S1x256x1536 .f32) (x2 : Vec F S1x1536x1 .f32) (xs0 : Vec F S1536x1 .f32) :
    scrMid c i arg3 harg3 arg4 harg4 arg5 harg5 arg6 harg6 arg7 harg7 hc0 hc1 x0 x1 x2 xs0 = k1_pay2 x0 x1 x2 xs0 := by
  unfold scrMid
  rw [View.read_writes_eq_canon _ _ _ (scrMid_cover c i arg3 harg3 arg4 harg4 arg5 harg5 arg6 harg6 arg7 harg7 hc0 hc1 x0 x1 x2 xs0)]
  unfold runMid
  dsimp only
  try sl_unfold_words
  rw [View.canon_unit_zero hz2]
  simp only [View.readAt_eq_ld, View.readCov_unit_zero (S := S1536x1) _ hz2, harg3.read_unread, harg4.read_unread, harg5.read_unread, harg6.read_unread, harg7.read_unread, View.ld_unit_zero (S := S1x256x1536) hz3, View.ld_unit_zero (S := S1x1536x1) hz3, View.ld_unit_zero (S := S1536x1) hz2]

theorem scrLast_eq (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) :
    scrLast c i arg3 harg3 arg4 harg4 arg5 harg5 arg6 harg6 arg7 harg7 hc0 hc1 x0 x1 x2 xs0 = k1_pay2 x0 x1 x2 xs0 := by
  unfold scrLast
  rw [View.read_writes_eq_canon _ _ _ (scrLast_cover c i arg3 harg3 arg4 harg4 arg5 harg5 arg6 harg6 arg7 harg7 hc0 hc1 x0 x1 x2 xs0)]
  unfold runLast
  dsimp only
  try sl_unfold_words
  rw [View.canon_unit_zero hz2]
  simp only [View.readAt_eq_ld, View.readCov_unit_zero (S := S1536x1) _ hz2, harg3.read_unread, harg4.read_unread, harg5.read_unread, harg6.read_unread, harg7.read_unread, View.ld_unit_zero (S := S1x256x1536) hz3, View.ld_unit_zero (S := S1x1536x1) hz3, View.ld_unit_zero (S := S1536x1) hz2]

theorem outLast_eq (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : ¬isFirst i) (hc1 : isLast i) (x0 : Vec F S1x256x1536 .f32) (x1 : Vec F S1x256x1536 .f32) (x2 : Vec F S1x1536x1 .f32) (xs0 : Vec F S1536x1 .f32) :
    outLast c i arg3 harg3 arg4 harg4 arg5 harg5 arg6 harg6 arg7 harg7 hc0 hc1 x0 x1 x2 xs0 = k1_pay3 (k1_pay2 x0 x1 x2 xs0) := by
  unfold outLast
  rw [View.read_writes_eq_canon _ _ _ (outLast_cover c i arg3 harg3 arg4 harg4 arg5 harg5 arg6 harg6 arg7 harg7 hc0 hc1 x0 x1 x2 xs0)]
  unfold runLast
  dsimp only
  try sl_unfold_words
  rw [View.canon_unit_zero hz3]
  simp only [View.readAt_eq_ld, View.readCov_unit_zero (S := S1536x1) _ hz2, harg3.read_unread, harg4.read_unread, harg5.read_unread, harg6.read_unread, harg7.read_unread, View.ld_unit_zero (S := S1x256x1536) hz3, View.ld_unit_zero (S := S1x1536x1) hz3, View.ld_unit_zero (S := S1536x1) hz2]

theorem scrFirst_eq (c : Dev nD) (i : grid1.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1536x1 .f32) (harg7 : arg7.IsWhole) (hc0 : isFirst i) (hc1 : ¬isLast i) (x0 : Vec F S1x256x1536 .f32) (x1 : Vec F S1x256x1536 .f32) (x2 : Vec F S1x1536x1 .f32) :
    scrFirst c i arg3 harg3 arg4 harg4 arg5 harg5 arg6 harg6 arg7 harg7 hc0 hc1 x0 x1 x2 = k1_pay2 x0 x1 x2 (k1_pay1 (F := F)) := by
  unfold scrFirst
  rw [View.read_writes_eq_canon _ _ _ (scrFirst_cover c i arg3 harg3 arg4 harg4 arg5 harg5 arg6 harg6 arg7 harg7 hc0 hc1 x0 x1 x2)]
  unfold runFirst
  dsimp only
  try sl_unfold_words
  rw [View.canon_cons_unit_zero (S := S1536x1) hz2]
  simp only [View.readAt_eq_ld, View.readCov_unit_zero (S := S1536x1) _ hz2, harg3.read_unread, harg4.read_unread, harg5.read_unread, harg6.read_unread, harg7.read_unread, View.ld_unit_zero (S := S1x256x1536) hz3, View.ld_unit_zero (S := S1x1536x1) hz3, View.ld_unit_zero (S := S1536x1) hz2]

variable (V : (c : Dev nD) → (b : Ref sig .tc) → Buf (Elt F) ((c : Thread nD τ).loc b))

/-- The scratch after point `n`: at the first step of a reduction the step's payload of the reset value, afterwards of
    what the point before left. -/
def acc (c : Dev nD) : (n : ℕ) → n < cfg1.N → Vec F S1536x1 .f32
  | 0, h => k1_pay2 (iblk V c 0 ⟨0, h⟩) (iblk V c 1 ⟨0, h⟩) (iblk V c 2 ⟨0, h⟩) (k1_pay1 (F := F))
  | n + 1, h =>
    if (n + 1) % 6 = 0 then k1_pay2 (iblk V c 0 ⟨n + 1, h⟩) (iblk V c 1 ⟨n + 1, h⟩) (iblk V c 2 ⟨n + 1, h⟩) (k1_pay1 (F := F))
    else k1_pay2 (iblk V c 0 ⟨n + 1, h⟩) (iblk V c 1 ⟨n + 1, h⟩) (iblk V c 2 ⟨n + 1, h⟩) (acc c n (Nat.lt_of_succ_lt h))

theorem acc_zero (c : Dev nD) (h : 0 < cfg1.N) : acc V c 0 h = k1_pay2 (iblk V c 0 ⟨0, h⟩) (iblk V c 1 ⟨0, h⟩) (iblk V c 2 ⟨0, h⟩) (k1_pay1 (F := F)) := rfl
theorem acc_first (c : Dev nD) (n : ℕ) (h : n + 1 < cfg1.N) (h0 : (n + 1) % 6 = 0) :
    acc V c (n + 1) h = k1_pay2 (iblk V c 0 ⟨n + 1, h⟩) (iblk V c 1 ⟨n + 1, h⟩) (iblk V c 2 ⟨n + 1, h⟩) (k1_pay1 (F := F)) := by
  rw [acc]; exact if_pos h0
theorem acc_next (c : Dev nD) (n : ℕ) (h : n + 1 < cfg1.N) (h0 : ¬(n + 1) % 6 = 0) :
    acc V c (n + 1) h = k1_pay2 (iblk V c 0 ⟨n + 1, h⟩) (iblk V c 1 ⟨n + 1, h⟩) (iblk V c 2 ⟨n + 1, h⟩) (acc V c n (Nat.lt_of_succ_lt h)) := by
  rw [acc]; exact if_neg h0

theorem proj_first (c : Dev nD) (t : Fin cfg1.N) (h0 : t.val % 6 = 0) (h1 : ¬t.val % 6 = 5) :
    (outsAt V c t.val t.isLt).2 = scrFirst c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t) := by
  rw [outsAt_first V c t h0 h1]
theorem proj_mid (c : Dev nD) (t : Fin cfg1.N) (h0 : ¬t.val % 6 = 0) (h1 : ¬t.val % 6 = 5) :
    (outsAt V c t.val t.isLt).2 = scrMid c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2 := by
  rw [outsAt_mid V c t h0 h1]
theorem proj_last (c : Dev nD) (t : Fin cfg1.N) (h0 : ¬t.val % 6 = 0) (h1 : t.val % 6 = 5) :
    (outsAt V c t.val t.isLt).2 = scrLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2 := by
  rw [outsAt_last V c t h0 h1]
theorem proj_out (c : Dev nD) (t : Fin cfg1.N) (h0 : ¬t.val % 6 = 0) (h1 : t.val % 6 = 5) :
    (outsAt V c t.val t.isLt).1 = outLast c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2 := by
  rw [outsAt_last V c t h0 h1]

theorem snd_first (c : Dev nD) (t : Fin cfg1.N) (h0 : t.val % 6 = 0) (h1 : ¬t.val % 6 = 5) :
    (outsAt V c t.val t.isLt).2 = k1_pay2 (iblk V c 0 t) (iblk V c 1 t) (iblk V c 2 t) (k1_pay1 (F := F)) :=
  (proj_first V c t h0 h1).trans (scrFirst_eq c (grid1.coords t) (ms0 t) (hs0 t) (ms1 t) (hs1 t) (ms2 t) (hs2 t) (ms3 t) (hs3 t) scM (Memref.isWhole_whole _) ((isFirst_iff t).mpr h0) (fun h => h1 ((isLast_iff t).mp h)) (iblk V c 0 t) (iblk V c 1 t) (iblk V c 2 t))
theorem snd_mid (c : Dev nD) (t : Fin cfg1.N) (h0 : ¬t.val % 6 = 0) (h1 : ¬t.val % 6 = 5) :
    (outsAt V c t.val t.isLt).2 = k1_pay2 (iblk V c 0 t) (iblk V c 1 t) (iblk V c 2 t) (outsAt V c (t.val - 1) (Nat.lt_of_le_of_lt (Nat.sub_le _ _) t.isLt)).2 :=
  (proj_mid V c t h0 h1).trans (scrMid_eq c (grid1.coords t) (ms0 t) (hs0 t) (ms1 t) (hs1 t) (ms2 t) (hs2 t) (ms3 t) (hs3 t) scM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2)
theorem snd_last (c : Dev nD) (t : Fin cfg1.N) (h0 : ¬t.val % 6 = 0) (h1 : t.val % 6 = 5) :
    (outsAt V c t.val t.isLt).2 = k1_pay2 (iblk V c 0 t) (iblk V c 1 t) (iblk V c 2 t) (outsAt V c (t.val - 1) (Nat.lt_of_le_of_lt (Nat.sub_le _ _) t.isLt)).2 :=
  (proj_last V c t h0 h1).trans (scrLast_eq c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2)
theorem fst_last (c : Dev nD) (t : Fin cfg1.N) (h0 : ¬t.val % 6 = 0) (h1 : t.val % 6 = 5) :
    (outsAt V c t.val t.isLt).1 = k1_pay3 (k1_pay2 (iblk V c 0 t) (iblk V c 1 t) (iblk V c 2 t) (outsAt V c (t.val - 1) (Nat.lt_of_le_of_lt (Nat.sub_le _ _) t.isLt)).2) :=
  (proj_out V c t h0 h1).trans (outLast_eq c (grid1.coords t) (ms0 t) (hs0 t) (ms1 t) (hs1 t) (ms2 t) (hs2 t) (ms3 t) (hs3 t) scM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2)

theorem scr_eq (c : Dev nD) : ∀ (n : ℕ) (h : n < cfg1.N), (outsAt V c n h).2 = acc V c n h
  | 0, h => snd_first V c ⟨0, h⟩ rfl (by show ¬ 0 % 6 = 5; decide)
  | n + 1, h => by
    by_cases h0 : (n + 1) % 6 = 0
    · exact (snd_first V c ⟨n + 1, h⟩ h0 (by show ¬ (n + 1) % 6 = 5; omega)).trans (acc_first V c n h h0).symm
    · by_cases h1 : (n + 1) % 6 = 5
      · refine (snd_last V c ⟨n + 1, h⟩ h0 h1).trans ?_
        rw [acc_next V c n h h0]
        exact congrArg (fun s => k1_pay2 (iblk V c 0 ⟨n + 1, h⟩) (iblk V c 1 ⟨n + 1, h⟩) (iblk V c 2 ⟨n + 1, h⟩) s) (scr_eq c n _)
      · refine (snd_mid V c ⟨n + 1, h⟩ h0 h1).trans ?_
        rw [acc_next V c n h h0]
        exact congrArg (fun s => k1_pay2 (iblk V c 0 ⟨n + 1, h⟩) (iblk V c 1 ⟨n + 1, h⟩) (iblk V c 2 ⟨n + 1, h⟩) s) (scr_eq c n _)

/-- At a last step the output block holds the scratch's final contents, recast. -/
theorem out_eq (c : Dev nD) (t : Fin cfg1.N) (h1 : t.val % 6 = 5) :
    (outsAt V c t.val t.isLt).1 = k1_pay3 (acc V c t.val t.isLt) := by
  have h0 : ¬t.val % 6 = 0 := by omega
  refine (fst_last V c t h0 h1).trans ?_
  exact congrArg (fun s => k1_pay3 s) ((snd_last V c t h0 h1).symm.trans (scr_eq V c t.val t.isLt))

end Cert.KernelIdeal.PassTwo

end
-- ==== Proof.KernelIdealPassTwoRead.lean ====
/-
  Pass 2 read at an index, over the extended reals. The exponential weights of a tile are the weights between the global
  features, with the query's least distance read from the first pass's output; the running column after the six tiles of a
  query block is the sum of the weights over all 9216 keys (from the zero the reset stores), and the write-backs cover the
  output array.
-/
import proofs.«155866_j66176856097431_1_alg».proof.Proof.KernelIdealPassTwoValue
import proofs.«155866_j66176856097431_1_alg».proof.Proof.KernelPayloads
import proofs.«155866_j66176856097431_1_alg».proof.Proof.Tiles

set_option maxRecDepth 16384

noncomputable section

namespace Cert.KernelIdeal.PassTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem idx_0 : ∀ t : Fin cfg1.N, win1_0.index t (0 : Fin 3) = t.val / 36 ∧ win1_0.index t (1 : Fin 3) = 0 ∧ win1_0.index t (2 : Fin 3) = t.val / 6 % 6 :=
  (by decide +kernel : ∀ t : Fin grid1.N, _)
theorem idx_1 : ∀ t : Fin cfg1.N, win1_1.index t (0 : Fin 3) = t.val / 36 ∧ win1_1.index t (1 : Fin 3) = 0 ∧ win1_1.index t (2 : Fin 3) = t.val % 6 :=
  (by decide +kernel : ∀ t : Fin grid1.N, _)
theorem idx_2 : ∀ t : Fin cfg1.N, win1_2.index t (0 : Fin 3) = t.val / 36 ∧ win1_2.index t (1 : Fin 3) = t.val / 6 % 6 ∧ win1_2.index t (2 : Fin 3) = 0 :=
  (by decide +kernel : ∀ t : Fin grid1.N, _)
theorem idx_3 : ∀ t : Fin cfg1.N, win1_3.index t (0 : Fin 3) = t.val / 36 ∧ win1_3.index t (1 : Fin 3) = t.val / 6 % 6 ∧ win1_3.index t (2 : Fin 3) = 0 :=
  (by decide +kernel : ∀ t : Fin grid1.N, _)

/-- The query features, the key features and the least distances of batch entry `n`, as the pass finds them. -/
def qF (c : Dev nD) (n : Fin 2) : Fin 256 → Fin 9216 → EReal := fun cc Q => V c main_v24 (ix3 n cc Q)
def kF (c : Dev nD) (n : Fin 2) : Fin 256 → Fin 9216 → EReal := fun cc K => V c main_v25 (ix3 n cc K)
def dF (c : Dev nD) (n : Fin 2) : Fin 9216 → EReal := fun Q => V c main_v26 (ix3 n Q (0 : Fin 1))

theorem iblk0_apply (c : Dev nD) (t : Fin cfg1.N) (n : Fin 2) (qb : ℕ) (hn : t.val / 36 = n.val) (hq : t.val / 6 % 6 = qb)
    (cc : Fin 256) (q : Fin 1536) (hQ : qb * 1536 + q.val < 9216) :
    iblk V c 0 t (ix3 (0 : Fin 1) cc q) = qF V c n cc ⟨qb * 1536 + q.val, hQ⟩ := by
  obtain ⟨e0, e1, e2⟩ := idx_0 t
  unfold iblk qF
  rw [View.read_apply]
  show V c main_v24 _ = V c main_v24 _
  congr 1
  funext a; apply Fin.ext
  match a with
  | ⟨0, _⟩ => show win1_0.index t (0 : Fin 3) * 1 + 1 * 0 = n.val; omega
  | ⟨1, _⟩ => show win1_0.index t (1 : Fin 3) * 256 + 1 * cc.val = cc.val; omega
  | ⟨2, _⟩ => show win1_0.index t (2 : Fin 3) * 1536 + 1 * q.val = qb * 1536 + q.val; omega

theorem iblk1_apply (c : Dev nD) (t : Fin cfg1.N) (n : Fin 2) (kb : ℕ) (hn : t.val / 36 = n.val) (hk : t.val % 6 = kb)
    (cc : Fin 256) (l : Fin 1536) (hK : kb * 1536 + l.val < 9216) :
    iblk V c 1 t (ix3 (0 : Fin 1) cc l) = kF V c n cc ⟨kb * 1536 + l.val, hK⟩ := by
  obtain ⟨e0, e1, e2⟩ := idx_1 t
  unfold iblk kF
  rw [View.read_apply]
  show V c main_v25 _ = V c main_v25 _
  congr 1
  funext a; apply Fin.ext
  match a with
  | ⟨0, _⟩ => show win1_1.index t (0 : Fin 3) * 1 + 1 * 0 = n.val; omega
  | ⟨1, _⟩ => show win1_1.index t (1 : Fin 3) * 256 + 1 * cc.val = cc.val; omega
  | ⟨2, _⟩ => show win1_1.index t (2 : Fin 3) * 1536 + 1 * l.val = kb * 1536 + l.val; omega

theorem iblk2_apply (c : Dev nD) (t : Fin cfg1.N) (n : Fin 2) (qb : ℕ) (hn : t.val / 36 = n.val) (hq : t.val / 6 % 6 = qb)
    (q : Fin 1536) (hQ : qb * 1536 + q.val < 9216) :
    iblk V c 2 t (ix3 (0 : Fin 1) q (0 : Fin 1)) = dF V c n ⟨qb * 1536 + q.val, hQ⟩ := by
  obtain ⟨e0, e1, e2⟩ := idx_2 t
  unfold iblk dF
  rw [View.read_apply]
  show V c main_v26 _ = V c main_v26 _
  congr 1
  funext a; apply Fin.ext
  match a with
  | ⟨0, _⟩ => show win1_2.index t (0 : Fin 3) * 1 + 1 * 0 = n.val; omega
  | ⟨1, _⟩ => show win1_2.index t (1 : Fin 3) * 1536 + 1 * q.val = qb * 1536 + q.val; omega
  | ⟨2, _⟩ => show win1_2.index t (2 : Fin 3) * 1 + 1 * 0 = 0; omega

theorem dist_blk (c : Dev nD) (t : Fin cfg1.N) (n : Fin 2) (qb kb : ℕ) (hn : t.val / 36 = n.val) (hq : t.val / 6 % 6 = qb) (hk : t.val % 6 = kb)
    (q l : Fin 1536) (hQ : qb * 1536 + q.val < 9216) (hK : kb * 1536 + l.val < 9216) :
    Cert.Contextual.dist (fun (cc : Fin 256) (q : Fin 1536) => iblk V c 0 t (ix3 (0 : Fin 1) cc q)) (fun (cc : Fin 256) (l : Fin 1536) => iblk V c 1 t (ix3 (0 : Fin 1) cc l)) q l
      = Cert.Contextual.dist (qF V c n) (kF V c n) ⟨qb * 1536 + q.val, hQ⟩ ⟨kb * 1536 + l.val, hK⟩ := by
  unfold Cert.Contextual.dist
  refine congrArg (fun s => Cert.Contextual.one - s) (Finset.sum_congr rfl fun cc _ => ?_)
  beta_reduce
  rw [iblk0_apply V c t n qb hn hq cc q hQ, iblk1_apply V c t n kb hn hk cc l hK]

/-- The weights of a tile are weights between the global features, at the query's least distance. -/
theorem wgt_blk (c : Dev nD) (t : Fin cfg1.N) (n : Fin 2) (qb kb : ℕ) (hn : t.val / 36 = n.val) (hq : t.val / 6 % 6 = qb) (hk : t.val % 6 = kb)
    (q l : Fin 1536) (hQ : qb * 1536 + q.val < 9216) (hK : kb * 1536 + l.val < 9216) :
    Cert.Contextual.wgt (fun q : Fin 1536 => iblk V c 2 t (ix3 (0 : Fin 1) q (0 : Fin 1))) (fun (cc : Fin 256) (q : Fin 1536) => iblk V c 0 t (ix3 (0 : Fin 1) cc q)) (fun (cc : Fin 256) (l : Fin 1536) => iblk V c 1 t (ix3 (0 : Fin 1) cc l)) q l
      = Cert.Contextual.wgt (dF V c n) (qF V c n) (kF V c n) ⟨qb * 1536 + q.val, hQ⟩ ⟨kb * 1536 + l.val, hK⟩ := by
  unfold Cert.Contextual.wgt
  rw [dist_blk V c t n qb kb hn hq hk q l hQ hK]
  beta_reduce
  rw [iblk2_apply V c t n qb hn hq q hQ]

theorem tile_sum (c : Dev nD) (t : Fin cfg1.N) (n : Fin 2) (qb kb : ℕ) (hn : t.val / 36 = n.val) (hq : t.val / 6 % 6 = qb) (hk : t.val % 6 = kb) (hkb : kb < 6)
    (q : Fin 1536) (hQ : qb * 1536 + q.val < 9216) :
    (∑ l : Fin 1536, Cert.Contextual.wgt (fun q : Fin 1536 => iblk V c 2 t (ix3 (0 : Fin 1) q (0 : Fin 1))) (fun (cc : Fin 256) (q : Fin 1536) => iblk V c 0 t (ix3 (0 : Fin 1) cc q)) (fun (cc : Fin 256) (l : Fin 1536) => iblk V c 1 t (ix3 (0 : Fin 1) cc l)) q l)
      = ∑ l : Fin 1536, Cert.Contextual.wgt (dF V c n) (qF V c n) (kF V c n) ⟨qb * 1536 + q.val, hQ⟩ ⟨kb * 1536 + l.val, by have := l.isLt; omega⟩ :=
  Finset.sum_congr rfl fun l _ => wgt_blk V c t n qb kb hn hq hk q l hQ (by have := l.isLt; omega)

/-- After the six tiles of a query block the running column holds, at position `q`, zero plus the sum of the weights over all keys. -/
theorem acc_group (c : Dev nD) (g : ℕ) (hg : g < 12) (q : Fin 1536) (u : Fin 1) (h5 : 6 * g + 5 < cfg1.N) :
    acc V c (6 * g + 5) h5 (ix2 q u)
      = Cert.Contextual.zero + Cert.Contextual.wsum (Cert.Contextual.wgt (dF V c ⟨g / 6, by omega⟩) (qF V c ⟨g / 6, by omega⟩) (kF V c ⟨g / 6, by omega⟩)) (⟨g % 6 * 1536 + q.val, by have := q.isLt; omega⟩ : Fin 9216) := by
  have hN : cfg1.N = 72 := N_1
  have hq' := q.isLt
  let n : Fin 2 := ⟨g / 6, by omega⟩
  let Q : Fin 9216 := ⟨g % 6 * 1536 + q.val, by omega⟩
  let Fk : Fin 9216 → EReal := fun k => Cert.Contextual.wgt (dF V c n) (qF V c n) (kF V c n) Q k
  let gN : ℕ → EReal := fun j => if hj : j < 6 then ∑ l : Fin 1536, Fk ⟨j * 1536 + l.val, by have := l.isLt; omega⟩ else 0
  let aN : ℕ → EReal := fun j => if hj : 6 * g + j < cfg1.N then acc V c (6 * g + j) hj (ix2 q u) else 0
  have key := Cert.Contextual.acc_sum_6x1536 Fk Cert.Contextual.zero gN aN
    (fun j => by show gN j.val = _; simp only [gN, dif_pos j.isLt])
    (by
      show aN 0 = Cert.Contextual.zero + gN 0
      have h0 : 6 * g + 0 < cfg1.N := by omega
      simp only [aN, gN, dif_pos h0, dif_pos (show (0 : ℕ) < 6 by norm_num)]
      have hstep : acc V c (6 * g + 0) h0 = k1_pay2 (iblk V c 0 ⟨6 * g + 0, h0⟩) (iblk V c 1 ⟨6 * g + 0, h0⟩) (iblk V c 2 ⟨6 * g + 0, h0⟩) (k1_pay1 (F := Ideal)) := by
        rcases g with _ | g'
        · exact acc_zero V c h0
        · exact acc_first V c (6 * g' + 5) h0 (by omega)
      rw [hstep, Cert.KernelIdeal.Payloads.k1_pay2_apply, Cert.KernelIdeal.Payloads.k1_pay1_apply]
      exact congrArg (fun s => Cert.Contextual.zero + s) (tile_sum V c ⟨6 * g + 0, h0⟩ n (g % 6) 0 (by show (6 * g + 0) / 36 = g / 6; omega) (by show (6 * g + 0) / 6 % 6 = g % 6; omega) (by show (6 * g + 0) % 6 = 0; omega) (by norm_num) q (by omega)))
    (fun j hj => by
      show aN (j + 1) = aN j + gN (j + 1)
      have h1 : 6 * g + (j + 1) < cfg1.N := by omega
      have h0 : 6 * g + j < cfg1.N := by omega
      simp only [aN, gN, dif_pos h1, dif_pos h0, dif_pos (show j + 1 < 6 by omega)]
      show acc V c (6 * g + j + 1) h1 (ix2 q u) = _
      rw [acc_next V c (6 * g + j) h1 (by omega), Cert.KernelIdeal.Payloads.k1_pay2_apply]
      exact congrArg (fun s => _ + s) (tile_sum V c ⟨6 * g + j + 1, h1⟩ n (g % 6) (j + 1) (by show (6 * g + j + 1) / 36 = g / 6; omega) (by show (6 * g + j + 1) / 6 % 6 = g % 6; omega) (by show (6 * g + j + 1) % 6 = j + 1; omega) (by omega) q (by omega)))
  have h5' : 6 * g + 5 < cfg1.N := h5
  have : aN 5 = acc V c (6 * g + 5) h5 (ix2 q u) := by simp only [aN, dif_pos h5']
  rw [← this, key]
  rfl

/-- The normaliser of query `Q` of batch entry `n` (zero outside the ranges, which no index meets). -/
def wsumAt (c : Dev nD) (n Q : ℕ) : EReal :=
  if h : n < 2 ∧ Q < 9216 then Cert.Contextual.zero + Cert.Contextual.wsum (Cert.Contextual.wgt (dF V c ⟨n, h.1⟩) (qF V c ⟨n, h.1⟩) (kF V c ⟨n, h.1⟩)) (⟨Q, h.2⟩ : Fin 9216) else 0

theorem acc_at (c : Dev nD) (n₀ : ℕ) (h : n₀ < cfg1.N) (h5 : n₀ % 6 = 5) (q : Fin 1536) (u : Fin 1) :
    acc V c n₀ h (ix2 q u) = wsumAt V c (n₀ / 36) (n₀ / 6 % 6 * 1536 + q.val) := by
  have hN : cfg1.N = 72 := N_1
  have hq := q.isLt
  obtain ⟨g, rfl⟩ : ∃ g, n₀ = 6 * g + 5 := ⟨n₀ / 6, by omega⟩
  rw [acc_group V c g (by omega) q u h]
  have hc : (6 * g + 5) / 36 < 2 ∧ (6 * g + 5) / 6 % 6 * 1536 + q.val < 9216 := by omega
  unfold wsumAt
  rw [dif_pos hc]
  have e1 : (⟨(6 * g + 5) / 36, hc.1⟩ : Fin 2) = ⟨g / 6, by omega⟩ := Fin.ext (by show (6 * g + 5) / 36 = g / 6; omega)
  have e2 : (⟨(6 * g + 5) / 6 % 6 * 1536 + q.val, hc.2⟩ : Fin 9216) = ⟨g % 6 * 1536 + q.val, by omega⟩ := Fin.ext (by show (6 * g + 5) / 6 % 6 * 1536 + q.val = g % 6 * 1536 + q.val; omega)
  rw [e1, e2]

/-- The output array after the pass: the normaliser of every query. -/
def G (c : Dev nD) : Buf (Elt Ideal) ((c : Thread nD τ).loc main_v27) := fun i => wsumAt V c (i 0).val (i 1).val

theorem flushed_eq (c : Dev nD) (t : Fin cfg1.N) (hf : (cfg1.win 3).flush t = true) :
    (dat V c).flushed 3 t = ((cfg1.win 3).blk t).view.read (Elt Ideal) (G V c) := by
  have h5 : t.val % 6 = 5 := (flush1_3 t).mp hf
  obtain ⟨e0, e1, e2⟩ := idx_3 t
  show (cfg1.win 3).cut (grid1.coords t) ((dat V c).after 3 t) = _
  rw [after_out, out_eq V c t h5]
  funext y
  rw [View.read_apply]
  obtain ⟨p0, q, u, rfl⟩ : ∃ (p0 : Fin 1) (q : Fin 1536) (u : Fin 1), y = ix3 p0 q u := ⟨y 0, y 1, y 2, eq_ix3 y⟩
  obtain rfl : p0 = 0 := Subsingleton.elim _ _
  show k1_pay3 (acc V c t.val t.isLt) (ix3 (0 : Fin 1) q u) = wsumAt V c (win1_3.index t (0 : Fin 3) * 1 + 1 * 0) (win1_3.index t (1 : Fin 3) * 1536 + 1 * q.val)
  rw [Cert.KernelIdeal.Payloads.k1_pay3_apply, acc_at V c t.val t.isLt h5 q u, e0, e1]
  congr 1 <;> omega

theorem mem_blk (t : Fin cfg1.N) (i : S2x9216x1.Idx) :
    i ∈ ((cfg1.win 3).blk t).view.set ↔ ∀ a : Fin 3, win1_3.index t a * S1x1536x1.size a ≤ (i a).val ∧ (i a).val < win1_3.index t a * S1x1536x1.size a + S1x1536x1.size a := by
  show i ∈ ((View.whole main_v27).slice (win1_3.rect t)).set ↔ _
  rw [View.set_slice_whole, Rect.mem_set_unit]
  exact Iff.rfl

theorem cover (i : S2x9216x1.Idx) : ∃ t : Fin cfg1.N, (cfg1.win 3).flush t = true ∧ i ∈ ((cfg1.win 3).blk t).view.set := by
  have h0 : (i 0).val < 2 := (i 0).isLt
  have h1 : (i 1).val < 9216 := (i 1).isLt
  have h2 : (i 2).val < 1 := (i 2).isLt
  have hN : cfg1.N = 72 := N_1
  have ht : (i 0).val * 36 + (i 1).val / 1536 * 6 + 5 < cfg1.N := by omega
  obtain ⟨e0, e1, e2⟩ := idx_3 ⟨_, ht⟩
  have tv : ((⟨_, ht⟩ : Fin cfg1.N)).val = (i 0).val * 36 + (i 1).val / 1536 * 6 + 5 := rfl
  refine ⟨⟨_, ht⟩, (flush1_3 _).mpr (by rw [tv]; omega), ?_⟩
  rw [mem_blk]
  intro a
  match a with
  | ⟨0, _⟩ => show win1_3.index _ (0 : Fin 3) * 1 ≤ (i 0).val ∧ (i 0).val < win1_3.index _ (0 : Fin 3) * 1 + 1; rw [e0, tv]; omega
  | ⟨1, _⟩ => show win1_3.index _ (1 : Fin 3) * 1536 ≤ (i 1).val ∧ (i 1).val < win1_3.index _ (1 : Fin 3) * 1536 + 1536; rw [e1, tv]; omega
  | ⟨2, _⟩ => show win1_3.index _ (2 : Fin 3) * 1 ≤ (i 2).val ∧ (i 2).val < win1_3.index _ (2 : Fin 3) * 1 + 1; rw [e2]; omega

/-- So the output array of pass 2 ends holding the normalisers. -/
theorem final (c : Dev nD) : (dat V c).arrAt 3 cfg1.N = G V c :=
  (dat V c).arrAt_eq_of_cover 3 (G V c) (flushed_eq V c) cover

end Cert.KernelIdeal.PassTwo

end
-- ==== Proof.KernelIdealPassThreeValue.lean ====
/-
  What the found pieces of pass 3 are, as values: each case leaves in the scratch the step's payload of the input blocks
  and of what the scratch held (the reset value at the first step), and the last step leaves in the output block the
  scratch's final contents, recast. So the scratch after each point is a closed recursion over the points.
-/
import proofs.«155866_j66176856097431_1_alg».proof.Proof.KernelIdealPassThree
import Idealize.ShloMosaic.Lib.Pipeline.Value

set_option maxRecDepth 16384

noncomputable section

namespace Cert.KernelIdeal.PassThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem scrMid_eq (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : ¬isLast i) (x0 : Vec F S1x256x1536 .f32) (x1 : Vec F S1x256x1536 .f32) (x2 : Vec F S1x1536x1 .f32) (x3 : Vec F S1x1536x1 .f32) (xs0 : Vec F S1x1536 .f32) :
    scrMid c i arg3 harg3 arg4 harg4 arg5 harg5 arg6 harg6 arg7 harg7 arg8 harg8 hc0 hc1 x0 x1 x2 x3 xs0 = k2_pay3 x0 x1 x2 x3 xs0 := by
  unfold scrMid
  rw [View.read_writes_eq_canon _ _ _ (scrMid_cover c i arg3 harg3 arg4 harg4 arg5 harg5 arg6 harg6 arg7 harg7 arg8 harg8 hc0 hc1 x0 x1 x2 x3 xs0)]
  unfold runMid
  dsimp only
  try sl_unfold_words
  rw [View.canon_unit_zero hz2]
  simp only [View.readAt_eq_ld, View.readCov_unit_zero (S := S1x1536) _ hz2, harg3.read_unread, harg4.read_unread, harg5.read_unread, harg6.read_unread, harg7.read_unread, harg8.read_unread, View.ld_unit_zero (S := S1x256x1536) hz3, View.ld_unit_zero (S := S1x1536x1) hz3, View.ld_unit_zero (S := S1x1x1536) hz3, View.ld_unit_zero (S := S1x1536) hz2]

theorem scrLast_eq (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) :
    scrLast c i arg3 harg3 arg4 harg4 arg5 harg5 arg6 harg6 arg7 harg7 arg8 harg8 hc0 hc1 x0 x1 x2 x3 xs0 = k2_pay3 x0 x1 x2 x3 xs0 := by
  unfold scrLast
  rw [View.read_writes_eq_canon _ _ _ (scrLast_cover c i arg3 harg3 arg4 harg4 arg5 harg5 arg6 harg6 arg7 harg7 arg8 harg8 hc0 hc1 x0 x1 x2 x3 xs0)]
  unfold runLast
  dsimp only
  try sl_unfold_words
  rw [View.canon_unit_zero hz2]
  simp only [View.readAt_eq_ld, View.readCov_unit_zero (S := S1x1536) _ hz2, harg3.read_unread, harg4.read_unread, harg5.read_unread, harg6.read_unread, harg7.read_unread, harg8.read_unread, View.ld_unit_zero (S := S1x256x1536) hz3, View.ld_unit_zero (S := S1x1536x1) hz3, View.ld_unit_zero (S := S1x1x1536) hz3, View.ld_unit_zero (S := S1x1536) hz2]

theorem outLast_eq (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : ¬isFirst i) (hc1 : isLast i) (x0 : Vec F S1x256x1536 .f32) (x1 : Vec F S1x256x1536 .f32) (x2 : Vec F S1x1536x1 .f32) (x3 : Vec F S1x1536x1 .f32) (xs0 : Vec F S1x1536 .f32) :
    outLast c i arg3 harg3 arg4 harg4 arg5 harg5 arg6 harg6 arg7 harg7 arg8 harg8 hc0 hc1 x0 x1 x2 x3 xs0 = k2_pay1 (k2_pay3 x0 x1 x2 x3 xs0) := by
  unfold outLast
  rw [View.read_writes_eq_canon _ _ _ (outLast_cover c i arg3 harg3 arg4 harg4 arg5 harg5 arg6 harg6 arg7 harg7 arg8 harg8 hc0 hc1 x0 x1 x2 x3 xs0)]
  unfold runLast
  dsimp only
  try sl_unfold_words
  rw [View.canon_unit_zero hz3]
  simp only [View.readAt_eq_ld, View.readCov_unit_zero (S := S1x1536) _ hz2, harg3.read_unread, harg4.read_unread, harg5.read_unread, harg6.read_unread, harg7.read_unread, harg8.read_unread, View.ld_unit_zero (S := S1x256x1536) hz3, View.ld_unit_zero (S := S1x1536x1) hz3, View.ld_unit_zero (S := S1x1x1536) hz3, View.ld_unit_zero (S := S1x1536) hz2]

theorem scrFirst_eq (c : Dev nD) (i : grid2.Coords) (arg3 : Memref sig .tc .vmem S1x256x1536 .f32) (harg3 : arg3.IsWhole) (arg4 : Memref sig .tc .vmem S1x256x1536 .f32) (harg4 : arg4.IsWhole) (arg5 : Memref sig .tc .vmem S1x1536x1 .f32) (harg5 : arg5.IsWhole) (arg6 : Memref sig .tc .vmem S1x1536x1 .f32) (harg6 : arg6.IsWhole) (arg7 : Memref sig .tc .vmem S1x1x1536 .f32) (harg7 : arg7.IsWhole) (arg8 : Memref sig .tc .vmem S1x1536 .f32) (harg8 : arg8.IsWhole) (hc0 : isFirst i) (hc1 : ¬isLast i) (x0 : Vec F S1x256x1536 .f32) (x1 : Vec F S1x256x1536 .f32) (x2 : Vec F S1x1536x1 .f32) (x3 : Vec F S1x1536x1 .f32) :
    scrFirst c i arg3 harg3 arg4 harg4 arg5 harg5 arg6 harg6 arg7 harg7 arg8 harg8 hc0 hc1 x0 x1 x2 x3 = k2_pay3 x0 x1 x2 x3 (k2_pay2 (F := F)) := by
  unfold scrFirst
  rw [View.read_writes_eq_canon _ _ _ (scrFirst_cover c i arg3 harg3 arg4 harg4 arg5 harg5 arg6 harg6 arg7 harg7 arg8 harg8 hc0 hc1 x0 x1 x2 x3)]
  unfold runFirst
  dsimp only
  try sl_unfold_words
  rw [View.canon_cons_unit_zero (S := S1x1536) hz2]
  simp only [View.readAt_eq_ld, View.readCov_unit_zero (S := S1x1536) _ hz2, harg3.read_unread, harg4.read_unread, harg5.read_unread, harg6.read_unread, harg7.read_unread, harg8.read_unread, View.ld_unit_zero (S := S1x256x1536) hz3, View.ld_unit_zero (S := S1x1536x1) hz3, View.ld_unit_zero (S := S1x1x1536) hz3, View.ld_unit_zero (S := S1x1536) hz2]

variable (V : (c : Dev nD) → (b : Ref sig .tc) → Buf (Elt F) ((c : Thread nD τ).loc b))

/-- The scratch after point `n`: at the first step of a reduction the step's payload of the reset value, afterwards of
    what the point before left. -/
def acc (c : Dev nD) : (n : ℕ) → n < cfg2.N → Vec F S1x1536 .f32
  | 0, h => k2_pay3 (iblk V c 0 ⟨0, h⟩) (iblk V c 1 ⟨0, h⟩) (iblk V c 2 ⟨0, h⟩) (iblk V c 3 ⟨0, h⟩) (k2_pay2 (F := F))
  | n + 1, h =>
    if (n + 1) % 6 = 0 then k2_pay3 (iblk V c 0 ⟨n + 1, h⟩) (iblk V c 1 ⟨n + 1, h⟩) (iblk V c 2 ⟨n + 1, h⟩) (iblk V c 3 ⟨n + 1, h⟩) (k2_pay2 (F := F))
    else k2_pay3 (iblk V c 0 ⟨n + 1, h⟩) (iblk V c 1 ⟨n + 1, h⟩) (iblk V c 2 ⟨n + 1, h⟩) (iblk V c 3 ⟨n + 1, h⟩) (acc c n (Nat.lt_of_succ_lt h))

theorem acc_zero (c : Dev nD) (h : 0 < cfg2.N) : acc V c 0 h = k2_pay3 (iblk V c 0 ⟨0, h⟩) (iblk V c 1 ⟨0, h⟩) (iblk V c 2 ⟨0, h⟩) (iblk V c 3 ⟨0, h⟩) (k2_pay2 (F := F)) := rfl
theorem acc_first (c : Dev nD) (n : ℕ) (h : n + 1 < cfg2.N) (h0 : (n + 1) % 6 = 0) :
    acc V c (n + 1) h = k2_pay3 (iblk V c 0 ⟨n + 1, h⟩) (iblk V c 1 ⟨n + 1, h⟩) (iblk V c 2 ⟨n + 1, h⟩) (iblk V c 3 ⟨n + 1, h⟩) (k2_pay2 (F := F)) := by
  rw [acc]; exact if_pos h0
theorem acc_next (c : Dev nD) (n : ℕ) (h : n + 1 < cfg2.N) (h0 : ¬(n + 1) % 6 = 0) :
    acc V c (n + 1) h = k2_pay3 (iblk V c 0 ⟨n + 1, h⟩) (iblk V c 1 ⟨n + 1, h⟩) (iblk V c 2 ⟨n + 1, h⟩) (iblk V c 3 ⟨n + 1, h⟩) (acc V c n (Nat.lt_of_succ_lt h)) := by
  rw [acc]; exact if_neg h0

theorem proj_first (c : Dev nD) (t : Fin cfg2.N) (h0 : t.val % 6 = 0) (h1 : ¬t.val % 6 = 5) :
    (outsAt V c t.val t.isLt).2 = scrFirst c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t) := by
  rw [outsAt_first V c t h0 h1]
theorem proj_mid (c : Dev nD) (t : Fin cfg2.N) (h0 : ¬t.val % 6 = 0) (h1 : ¬t.val % 6 = 5) :
    (outsAt V c t.val t.isLt).2 = scrMid c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2 := by
  rw [outsAt_mid V c t h0 h1]
theorem proj_last (c : Dev nD) (t : Fin cfg2.N) (h0 : ¬t.val % 6 = 0) (h1 : t.val % 6 = 5) :
    (outsAt V c t.val t.isLt).2 = scrLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2 := by
  rw [outsAt_last V c t h0 h1]
theorem proj_out (c : Dev nD) (t : Fin cfg2.N) (h0 : ¬t.val % 6 = 0) (h1 : t.val % 6 = 5) :
    (outsAt V c t.val t.isLt).1 = outLast c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2 := by
  rw [outsAt_last V c t h0 h1]

theorem snd_first (c : Dev nD) (t : Fin cfg2.N) (h0 : t.val % 6 = 0) (h1 : ¬t.val % 6 = 5) :
    (outsAt V c t.val t.isLt).2 = k2_pay3 (iblk V c 0 t) (iblk V c 1 t) (iblk V c 2 t) (iblk V c 3 t) (k2_pay2 (F := F)) :=
  (proj_first V c t h0 h1).trans (scrFirst_eq c (grid2.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (iblk V c 0 t) (iblk V c 1 t) (iblk V c 2 t) (iblk V c 3 t))
theorem snd_mid (c : Dev nD) (t : Fin cfg2.N) (h0 : ¬t.val % 6 = 0) (h1 : ¬t.val % 6 = 5) :
    (outsAt V c t.val t.isLt).2 = k2_pay3 (iblk V c 0 t) (iblk V c 1 t) (iblk V c 2 t) (iblk V c 3 t) (outsAt V c (t.val - 1) (Nat.lt_of_le_of_lt (Nat.sub_le _ _) t.isLt)).2 :=
  (proj_mid V c t h0 h1).trans (scrMid_eq c (grid2.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2)
theorem snd_last (c : Dev nD) (t : Fin cfg2.N) (h0 : ¬t.val % 6 = 0) (h1 : t.val % 6 = 5) :
    (outsAt V c t.val t.isLt).2 = k2_pay3 (iblk V c 0 t) (iblk V c 1 t) (iblk V c 2 t) (iblk V c 3 t) (outsAt V c (t.val - 1) (Nat.lt_of_le_of_lt (Nat.sub_le _ _) t.isLt)).2 :=
  (proj_last V c t h0 h1).trans (scrLast_eq c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2)
theorem fst_last (c : Dev nD) (t : Fin cfg2.N) (h0 : ¬t.val % 6 = 0) (h1 : t.val % 6 = 5) :
    (outsAt V c t.val t.isLt).1 = k2_pay1 (k2_pay3 (iblk V c 0 t) (iblk V c 1 t) (iblk V c 2 t) (iblk V c 3 t) (outsAt V c (t.val - 1) (Nat.lt_of_le_of_lt (Nat.sub_le _ _) t.isLt)).2) :=
  (proj_out V c t h0 h1).trans (outLast_eq c (grid2.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2)

theorem scr_eq (c : Dev nD) : ∀ (n : ℕ) (h : n < cfg2.N), (outsAt V c n h).2 = acc V c n h
  | 0, h => snd_first V c ⟨0, h⟩ rfl (by show ¬ 0 % 6 = 5; decide)
  | n + 1, h => by
    by_cases h0 : (n + 1) % 6 = 0
    · exact (snd_first V c ⟨n + 1, h⟩ h0 (by show ¬ (n + 1) % 6 = 5; omega)).trans (acc_first V c n h h0).symm
    · by_cases h1 : (n + 1) % 6 = 5
      · refine (snd_last V c ⟨n + 1, h⟩ h0 h1).trans ?_
        rw [acc_next V c n h h0]
        exact congrArg (fun s => k2_pay3 (iblk V c 0 ⟨n + 1, h⟩) (iblk V c 1 ⟨n + 1, h⟩) (iblk V c 2 ⟨n + 1, h⟩) (iblk V c 3 ⟨n + 1, h⟩) s) (scr_eq c n _)
      · refine (snd_mid V c ⟨n + 1, h⟩ h0 h1).trans ?_
        rw [acc_next V c n h h0]
        exact congrArg (fun s => k2_pay3 (iblk V c 0 ⟨n + 1, h⟩) (iblk V c 1 ⟨n + 1, h⟩) (iblk V c 2 ⟨n + 1, h⟩) (iblk V c 3 ⟨n + 1, h⟩) s) (scr_eq c n _)

/-- At a last step the output block holds the scratch's final contents, recast. -/
theorem out_eq (c : Dev nD) (t : Fin cfg2.N) (h1 : t.val % 6 = 5) :
    (outsAt V c t.val t.isLt).1 = k2_pay1 (acc V c t.val t.isLt) := by
  have h0 : ¬t.val % 6 = 0 := by omega
  refine (fst_last V c t h0 h1).trans ?_
  exact congrArg (fun s => k2_pay1 s) ((snd_last V c t h0 h1).symm.trans (scr_eq V c t.val t.isLt))

end Cert.KernelIdeal.PassThree

end
-- ==== Proof.KernelIdealPassThreeRead.lean ====
/-
  Pass 3 read at an index, over the extended reals. A block of the query features, of the key features, of the least
  distances and of the row sums read at a position is the array at the batch entry and the block's offset plus the
  position; so the column maxima of a tile are maxima of the normalised weights over 1536 consecutive queries, and the
  running row after the six tiles of a key block is the greatest normalised weight over all 9216 queries.
-/
import proofs.«155866_j66176856097431_1_alg».proof.Proof.KernelIdealPassThreeValue
import proofs.«155866_j66176856097431_1_alg».proof.Proof.KernelPayloads
import proofs.«155866_j66176856097431_1_alg».proof.Proof.Tiles

set_option maxRecDepth 16384

noncomputable section

namespace Cert.KernelIdeal.PassThree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps, over the grid: the batch entry is the point's position over 36, the key block its position
    over 6 modulo 6, the query block its position modulo 6. -/
theorem idx_0 : ∀ t : Fin cfg2.N, win2_0.index t (0 : Fin 3) = t.val / 36 ∧ win2_0.index t (1 : Fin 3) = 0 ∧ win2_0.index t (2 : Fin 3) = t.val % 6 :=
  (by decide +kernel : ∀ t : Fin grid2.N, _)
theorem idx_1 : ∀ t : Fin cfg2.N, win2_1.index t (0 : Fin 3) = t.val / 36 ∧ win2_1.index t (1 : Fin 3) = 0 ∧ win2_1.index t (2 : Fin 3) = t.val / 6 % 6 :=
  (by decide +kernel : ∀ t : Fin grid2.N, _)
theorem idx_2 : ∀ t : Fin cfg2.N, win2_2.index t (0 : Fin 3) = t.val / 36 ∧ win2_2.index t (1 : Fin 3) = t.val % 6 ∧ win2_2.index t (2 : Fin 3) = 0 :=
  (by decide +kernel : ∀ t : Fin grid2.N, _)
theorem idx_3 : ∀ t : Fin cfg2.N, win2_3.index t (0 : Fin 3) = t.val / 36 ∧ win2_3.index t (1 : Fin 3) = t.val % 6 ∧ win2_3.index t (2 : Fin 3) = 0 :=
  (by decide +kernel : ∀ t : Fin grid2.N, _)
theorem idx_4 : ∀ t : Fin cfg2.N, win2_4.index t (0 : Fin 3) = t.val / 36 ∧ win2_4.index t (1 : Fin 3) = 0 ∧ win2_4.index t (2 : Fin 3) = t.val / 6 % 6 :=
  (by decide +kernel : ∀ t : Fin grid2.N, _)

/-- The query features, the key features, the least distances and the row sums of batch entry `n`, as the pass finds
    them. -/
def qF (c : Dev nD) (n : Fin 2) : Fin 256 → Fin 9216 → EReal := fun cc Q => V c main_v24 (ix3 n cc Q)
def kF (c : Dev nD) (n : Fin 2) : Fin 256 → Fin 9216 → EReal := fun cc K => V c main_v25 (ix3 n cc K)
def dF (c : Dev nD) (n : Fin 2) : Fin 9216 → EReal := fun Q => V c main_v26 (ix3 n Q (0 : Fin 1))
def sF (c : Dev nD) (n : Fin 2) : Fin 9216 → EReal := fun Q => V c main_v27 (ix3 n Q (0 : Fin 1))

theorem iblk0_apply (c : Dev nD) (t : Fin cfg2.N) (n : Fin 2) (qb : ℕ) (hn : t.val / 36 = n.val) (hq : t.val % 6 = qb)
    (cc : Fin 256) (q : Fin 1536) (hQ : qb * 1536 + q.val < 9216) :
    iblk V c 0 t (ix3 (0 : Fin 1) cc q) = qF V c n cc ⟨qb * 1536 + q.val, hQ⟩ := by
  obtain ⟨e0, e1, e2⟩ := idx_0 t
  unfold iblk qF
  rw [View.read_apply]
  show V c main_v24 _ = V c main_v24 _
  congr 1
  funext a; apply Fin.ext
  match a with
  | ⟨0, _⟩ => show win2_0.index t (0 : Fin 3) * 1 + 1 * 0 = n.val; omega
  | ⟨1, _⟩ => show win2_0.index t (1 : Fin 3) * 256 + 1 * cc.val = cc.val; omega
  | ⟨2, _⟩ => show win2_0.index t (2 : Fin 3) * 1536 + 1 * q.val = qb * 1536 + q.val; omega

theorem iblk1_apply (c : Dev nD) (t : Fin cfg2.N) (n : Fin 2) (kb : ℕ) (hn : t.val / 36 = n.val) (hk : t.val / 6 % 6 = kb)
    (cc : Fin 256) (l : Fin 1536) (hK : kb * 1536 + l.val < 9216) :
    iblk V c 1 t (ix3 (0 : Fin 1) cc l) = kF V c n cc ⟨kb * 1536 + l.val, hK⟩ := by
  obtain ⟨e0, e1, e2⟩ := idx_1 t
  unfold iblk kF
  rw [View.read_apply]
  show V c main_v25 _ = V c main_v25 _
  congr 1
  funext a; apply Fin.ext
  match a with
  | ⟨0, _⟩ => show win2_1.index t (0 : Fin 3) * 1 + 1 * 0 = n.val; omega
  | ⟨1, _⟩ => show win2_1.index t (1 : Fin 3) * 256 + 1 * cc.val = cc.val; omega
  | ⟨2, _⟩ => show win2_1.index t (2 : Fin 3) * 1536 + 1 * l.val = kb * 1536 + l.val; omega

theorem iblk2_apply (c : Dev nD) (t : Fin cfg2.N) (n : Fin 2) (qb : ℕ) (hn : t.val / 36 = n.val) (hq : t.val % 6 = qb)
    (q : Fin 1536) (hQ : qb * 1536 + q.val < 9216) :
    iblk V c 2 t (ix3 (0 : Fin 1) q (0 : Fin 1)) = dF V c n ⟨qb * 1536 + q.val, hQ⟩ := by
  obtain ⟨e0, e1, e2⟩ := idx_2 t
  unfold iblk dF
  rw [View.read_apply]
  show V c main_v26 _ = V c main_v26 _
  congr 1
  funext a; apply Fin.ext
  match a with
  | ⟨0, _⟩ => show win2_2.index t (0 : Fin 3) * 1 + 1 * 0 = n.val; omega
  | ⟨1, _⟩ => show win2_2.index t (1 : Fin 3) * 1536 + 1 * q.val = qb * 1536 + q.val; omega
  | ⟨2, _⟩ => show win2_2.index t (2 : Fin 3) * 1 + 1 * 0 = 0; omega

theorem iblk3_apply (c : Dev nD) (t : Fin cfg2.N) (n : Fin 2) (qb : ℕ) (hn : t.val / 36 = n.val) (hq : t.val % 6 = qb)
    (q : Fin 1536) (hQ : qb * 1536 + q.val < 9216) :
    iblk V c 3 t (ix3 (0 : Fin 1) q (0 : Fin 1)) = sF V c n ⟨qb * 1536 + q.val, hQ⟩ := by
  obtain ⟨e0, e1, e2⟩ := idx_3 t
  unfold iblk sF
  rw [View.read_apply]
  show V c main_v27 _ = V c main_v27 _
  congr 1
  funext a; apply Fin.ext
  match a with
  | ⟨0, _⟩ => show win2_3.index t (0 : Fin 3) * 1 + 1 * 0 = n.val; omega
  | ⟨1, _⟩ => show win2_3.index t (1 : Fin 3) * 1536 + 1 * q.val = qb * 1536 + q.val; omega
  | ⟨2, _⟩ => show win2_3.index t (2 : Fin 3) * 1 + 1 * 0 = 0; omega

/-- The distances of a tile are distances between the global features. -/
theorem dist_blk (c : Dev nD) (t : Fin cfg2.N) (n : Fin 2) (qb kb : ℕ) (hn : t.val / 36 = n.val) (hq : t.val % 6 = qb) (hk : t.val / 6 % 6 = kb)
    (q l : Fin 1536) (hQ : qb * 1536 + q.val < 9216) (hK : kb * 1536 + l.val < 9216) :
    Cert.Contextual.dist (fun (cc : Fin 256) (q : Fin 1536) => iblk V c 0 t (ix3 (0 : Fin 1) cc q)) (fun (cc : Fin 256) (l : Fin 1536) => iblk V c 1 t (ix3 (0 : Fin 1) cc l)) q l
      = Cert.Contextual.dist (qF V c n) (kF V c n) ⟨qb * 1536 + q.val, hQ⟩ ⟨kb * 1536 + l.val, hK⟩ := by
  unfold Cert.Contextual.dist
  refine congrArg (fun s => Cert.Contextual.one - s) (Finset.sum_congr rfl fun cc _ => ?_)
  beta_reduce
  rw [iblk0_apply V c t n qb hn hq cc q hQ, iblk1_apply V c t n kb hn hk cc l hK]

/-- The normalised weights of a tile are normalised weights of the global arrays. -/
theorem cx_blk (c : Dev nD) (t : Fin cfg2.N) (n : Fin 2) (qb kb : ℕ) (hn : t.val / 36 = n.val) (hq : t.val % 6 = qb) (hk : t.val / 6 % 6 = kb)
    (q l : Fin 1536) (hQ : qb * 1536 + q.val < 9216) (hK : kb * 1536 + l.val < 9216) :
    Ideal.div
        (Cert.Contextual.wgt (fun q : Fin 1536 => iblk V c 2 t (ix3 (0 : Fin 1) q (0 : Fin 1)))
          (fun (cc : Fin 256) (q : Fin 1536) => iblk V c 0 t (ix3 (0 : Fin 1) cc q))
          (fun (cc : Fin 256) (l : Fin 1536) => iblk V c 1 t (ix3 (0 : Fin 1) cc l)) q l)
        (iblk V c 3 t (ix3 (0 : Fin 1) q (0 : Fin 1)))
      = Ideal.div (Cert.Contextual.wgt (dF V c n) (qF V c n) (kF V c n) ⟨qb * 1536 + q.val, hQ⟩ ⟨kb * 1536 + l.val, hK⟩)
          (sF V c n ⟨qb * 1536 + q.val, hQ⟩) := by
  unfold Cert.Contextual.wgt
  beta_reduce
  rw [dist_blk V c t n qb kb hn hq hk q l hQ hK, iblk2_apply V c t n qb hn hq q hQ, iblk3_apply V c t n qb hn hq q hQ]

/-- The tile maximum at point `t`, for the key at position `l` of the block. -/
theorem tile_max (c : Dev nD) (t : Fin cfg2.N) (n : Fin 2) (qb kb : ℕ) (hn : t.val / 36 = n.val) (hq : t.val % 6 = qb) (hk : t.val / 6 % 6 = kb) (hqb : qb < 6)
    (l : Fin 1536) (hK : kb * 1536 + l.val < 9216) :
    (Finset.univ : Finset (Fin 1536)).fold max Cert.Contextual.ninf (fun q => Ideal.div
        (Cert.Contextual.wgt (fun q : Fin 1536 => iblk V c 2 t (ix3 (0 : Fin 1) q (0 : Fin 1)))
          (fun (cc : Fin 256) (q : Fin 1536) => iblk V c 0 t (ix3 (0 : Fin 1) cc q))
          (fun (cc : Fin 256) (l : Fin 1536) => iblk V c 1 t (ix3 (0 : Fin 1) cc l)) q l)
        (iblk V c 3 t (ix3 (0 : Fin 1) q (0 : Fin 1))))
      = (Finset.univ : Finset (Fin 1536)).fold max Cert.Contextual.ninf (fun q => Ideal.div
          (Cert.Contextual.wgt (dF V c n) (qF V c n) (kF V c n) ⟨qb * 1536 + q.val, by have := q.isLt; omega⟩ ⟨kb * 1536 + l.val, hK⟩)
          (sF V c n ⟨qb * 1536 + q.val, by have := q.isLt; omega⟩)) :=
  congrArg (fun f => (Finset.univ : Finset (Fin 1536)).fold max Cert.Contextual.ninf f)
    (funext fun q => cx_blk V c t n qb kb hn hq hk q l (by have := q.isLt; omega) hK)

/-- After the six tiles of a key block the running row holds, at position `l`, the greatest normalised weight over all
    queries. -/
theorem acc_group (c : Dev nD) (g : ℕ) (hg : g < 12) (l : Fin 1536) (h5 : 6 * g + 5 < cfg2.N) :
    acc V c (6 * g + 5) h5 (ix2 (0 : Fin 1) l)
      = Cert.Contextual.cmax (Cert.Contextual.wgt (dF V c ⟨g / 6, by omega⟩) (qF V c ⟨g / 6, by omega⟩) (kF V c ⟨g / 6, by omega⟩))
          (sF V c ⟨g / 6, by omega⟩) (⟨g % 6 * 1536 + l.val, by have := l.isLt; omega⟩ : Fin 9216) := by
  have hN : cfg2.N = 72 := N_2
  have hl' := l.isLt
  let n : Fin 2 := ⟨g / 6, by omega⟩
  let K : Fin 9216 := ⟨g % 6 * 1536 + l.val, by omega⟩
  let Fq : Fin 9216 → EReal := fun Q => Ideal.div (Cert.Contextual.wgt (dF V c n) (qF V c n) (kF V c n) Q K) (sF V c n Q)
  let gN : ℕ → EReal := fun j => if hj : j < 6 then (Finset.univ : Finset (Fin 1536)).fold max Cert.Contextual.ninf (fun q => Fq ⟨j * 1536 + q.val, by have := q.isLt; omega⟩) else 0
  let aN : ℕ → EReal := fun j => if hj : 6 * g + j < cfg2.N then acc V c (6 * g + j) hj (ix2 (0 : Fin 1) l) else 0
  have key := Cert.Contextual.acc_max_6x1536 Fq (le_refl Cert.Contextual.ninf) gN aN
    (fun j => by show gN j.val = _; simp only [gN, dif_pos j.isLt])
    (by
      show aN 0 = max Cert.Contextual.ninf (gN 0)
      have h0 : 6 * g + 0 < cfg2.N := by omega
      simp only [aN, gN, dif_pos h0, dif_pos (show (0 : ℕ) < 6 by norm_num)]
      have hstep : acc V c (6 * g + 0) h0 = k2_pay3 (iblk V c 0 ⟨6 * g + 0, h0⟩) (iblk V c 1 ⟨6 * g + 0, h0⟩) (iblk V c 2 ⟨6 * g + 0, h0⟩) (iblk V c 3 ⟨6 * g + 0, h0⟩) (k2_pay2 (F := Ideal)) := by
        rcases g with _ | g'
        · exact acc_zero V c h0
        · exact acc_first V c (6 * g' + 5) h0 (by omega)
      rw [hstep, Cert.KernelIdeal.Payloads.k2_pay3_apply, Cert.KernelIdeal.Payloads.k2_pay2_apply]
      exact congrArg (max Cert.Contextual.ninf) (tile_max V c ⟨6 * g + 0, h0⟩ n 0 (g % 6) (by show (6 * g + 0) / 36 = g / 6; omega) (by show (6 * g + 0) % 6 = 0; omega) (by show (6 * g + 0) / 6 % 6 = g % 6; omega) (by norm_num) l (by omega)))
    (fun j hj => by
      show aN (j + 1) = max (aN j) (gN (j + 1))
      have h1 : 6 * g + (j + 1) < cfg2.N := by omega
      have h0 : 6 * g + j < cfg2.N := by omega
      simp only [aN, gN, dif_pos h1, dif_pos h0, dif_pos (show j + 1 < 6 by omega)]
      refine (congrFun (acc_next V c (6 * g + j) h1 (by omega)) (ix2 (0 : Fin 1) l)).trans ?_
      rw [Cert.KernelIdeal.Payloads.k2_pay3_apply]
      exact congrArg (max _) (tile_max V c ⟨6 * g + j + 1, h1⟩ n (j + 1) (g % 6) (by show (6 * g + j + 1) / 36 = g / 6; omega) (by show (6 * g + j + 1) % 6 = j + 1; omega) (by show (6 * g + j + 1) / 6 % 6 = g % 6; omega) (by omega) l (by omega)))
  have h5' : 6 * g + 5 < cfg2.N := h5
  have : aN 5 = acc V c (6 * g + 5) h5 (ix2 (0 : Fin 1) l) := by simp only [aN, dif_pos h5']
  rw [← this, key]
  rfl

/-- The greatest normalised weight of key `K` of batch entry `n` over the queries (zero outside the ranges, which no
    index meets). -/
def cmaxAt (c : Dev nD) (n K : ℕ) : EReal :=
  if h : n < 2 ∧ K < 9216 then
    Cert.Contextual.cmax (Cert.Contextual.wgt (dF V c ⟨n, h.1⟩) (qF V c ⟨n, h.1⟩) (kF V c ⟨n, h.1⟩)) (sF V c ⟨n, h.1⟩) (⟨K, h.2⟩ : Fin 9216)
  else 0

theorem acc_at (c : Dev nD) (n₀ : ℕ) (h : n₀ < cfg2.N) (h5 : n₀ % 6 = 5) (l : Fin 1536) :
    acc V c n₀ h (ix2 (0 : Fin 1) l) = cmaxAt V c (n₀ / 36) (n₀ / 6 % 6 * 1536 + l.val) := by
  have hN : cfg2.N = 72 := N_2
  have hl := l.isLt
  obtain ⟨g, rfl⟩ : ∃ g, n₀ = 6 * g + 5 := ⟨n₀ / 6, by omega⟩
  rw [acc_group V c g (by omega) l h]
  have hc : (6 * g + 5) / 36 < 2 ∧ (6 * g + 5) / 6 % 6 * 1536 + l.val < 9216 := by omega
  unfold cmaxAt
  rw [dif_pos hc]
  have e1 : (6 * g + 5) / 36 = g / 6 := by omega
  have e2 : (6 * g + 5) / 6 % 6 * 1536 + l.val = g % 6 * 1536 + l.val := by omega
  have en : (⟨g / 6, by omega⟩ : Fin 2) = ⟨(6 * g + 5) / 36, hc.1⟩ := Fin.ext e1.symm
  have eK : (⟨g % 6 * 1536 + l.val, by omega⟩ : Fin 9216) = ⟨(6 * g + 5) / 6 % 6 * 1536 + l.val, hc.2⟩ := Fin.ext e2.symm
  rw [en, eK]

/-- The output array after the pass: the greatest normalised weight of every key. -/
def G (c : Dev nD) : Buf (Elt Ideal) ((c : Thread nD τ).loc main_v28) := fun i => cmaxAt V c (i 0).val (i 2).val

theorem flushed_eq (c : Dev nD) (t : Fin cfg2.N) (hf : (cfg2.win 4).flush t = true) :
    (dat V c).flushed 4 t = ((cfg2.win 4).blk t).view.read (Elt Ideal) (G V c) := by
  have h5 : t.val % 6 = 5 := (flush2_4 t).mp hf
  obtain ⟨e0, e1, e2⟩ := idx_4 t
  show (cfg2.win 4).cut (grid2.coords t) ((dat V c).after 4 t) = _
  rw [after_out, out_eq V c t h5]
  funext y
  rw [View.read_apply]
  obtain ⟨p0, p1, l, rfl⟩ : ∃ (p0 : Fin 1) (p1 : Fin 1) (l : Fin 1536), y = ix3 p0 p1 l := ⟨y 0, y 1, y 2, eq_ix3 y⟩
  obtain rfl : p0 = 0 := Subsingleton.elim _ _
  obtain rfl : p1 = 0 := Subsingleton.elim _ _
  show k2_pay1 (acc V c t.val t.isLt) (ix3 (0 : Fin 1) (0 : Fin 1) l) = cmaxAt V c (win2_4.index t (0 : Fin 3) * 1 + 1 * 0) (win2_4.index t (2 : Fin 3) * 1536 + 1 * l.val)
  rw [Cert.KernelIdeal.Payloads.k2_pay1_apply, acc_at V c t.val t.isLt h5 l, e0, e2]
  congr 1 <;> omega

theorem mem_blk (t : Fin cfg2.N) (i : S2x1x9216.Idx) :
    i ∈ ((cfg2.win 4).blk t).view.set ↔ ∀ a : Fin 3, win2_4.index t a * S1x1x1536.size a ≤ (i a).val ∧ (i a).val < win2_4.index t a * S1x1x1536.size a + S1x1x1536.size a := by
  show i ∈ ((View.whole main_v28).slice (win2_4.rect t)).set ↔ _
  rw [View.set_slice_whole, Rect.mem_set_unit]
  exact Iff.rfl

theorem cover (i : S2x1x9216.Idx) : ∃ t : Fin cfg2.N, (cfg2.win 4).flush t = true ∧ i ∈ ((cfg2.win 4).blk t).view.set := by
  have h0 : (i 0).val < 2 := (i 0).isLt
  have h1 : (i 1).val < 1 := (i 1).isLt
  have h2 : (i 2).val < 9216 := (i 2).isLt
  have hN : cfg2.N = 72 := N_2
  have ht : (i 0).val * 36 + (i 2).val / 1536 * 6 + 5 < cfg2.N := by omega
  obtain ⟨e0, e1, e2⟩ := idx_4 ⟨_, ht⟩
  have tv : ((⟨_, ht⟩ : Fin cfg2.N)).val = (i 0).val * 36 + (i 2).val / 1536 * 6 + 5 := rfl
  refine ⟨⟨_, ht⟩, (flush2_4 _).mpr (by rw [tv]; omega), ?_⟩
  rw [mem_blk]
  intro a
  match a with
  | ⟨0, _⟩ => show win2_4.index _ (0 : Fin 3) * 1 ≤ (i 0).val ∧ (i 0).val < win2_4.index _ (0 : Fin 3) * 1 + 1; rw [e0, tv]; omega
  | ⟨1, _⟩ => show win2_4.index _ (1 : Fin 3) * 1 ≤ (i 1).val ∧ (i 1).val < win2_4.index _ (1 : Fin 3) * 1 + 1; rw [e1]; omega
  | ⟨2, _⟩ => show win2_4.index _ (2 : Fin 3) * 1536 ≤ (i 2).val ∧ (i 2).val < win2_4.index _ (2 : Fin 3) * 1536 + 1536; rw [e2, tv]; omega

/-- So the output array of pass 3 ends holding, per key, the greatest normalised weight over the queries. -/
theorem final (c : Dev nD) : (dat V c).arrAt 4 cfg2.N = G V c :=
  (dat V c).arrAt_eq_of_cover 4 (G V c) (flushed_eq V c) cover

end Cert.KernelIdeal.PassThree

end
-- ==== Proof.KernelResult.lean ====
/-
  The kernel program's result, as a function of its two arguments.

  With `a n` and `b n` the query and key features of batch entry `n` (the leading host operations applied to the
  arguments), pass one leaves every query's least distance to the keys, pass two every query's sum of weights, pass three
  every key's greatest normalised weight over the queries — the first spelling of the contextual similarity —, and the
  trailing host operations average `−log (mean_k sim + ε)` over the two batch entries.
-/
import proofs.«155866_j66176856097431_1_alg».proof.Proof.Transport
import proofs.«155866_j66176856097431_1_alg».proof.Proof.KernelIdealPassOneRead
import proofs.«155866_j66176856097431_1_alg».proof.Proof.KernelIdealPassTwoRead
import proofs.«155866_j66176856097431_1_alg».proof.Proof.KernelIdealPassThreeRead
import proofs.«155866_j66176856097431_1_alg».proof.Proof.Tiles

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable (m : (ℓ : Loc nD τ sig) → Buf (Elt Ideal) ℓ)

/-- The query features of batch entry `n`, from the program's arguments. -/
def aF (c : Dev nD) (n : Fin 2) : Fin 256 → Fin 9216 → EReal := fun cc Q =>
  HostOps.featX (m ((c : Thread nD τ).loc main_arg0)) (m ((c : Thread nD τ).loc main_arg1)) (ix3 n cc Q)

/-- The key features of batch entry `n`. -/
def bF (c : Dev nD) (n : Fin 2) : Fin 256 → Fin 9216 → EReal := fun cc K =>
  HostOps.featY (m ((c : Thread nD τ).loc main_arg0)) (m ((c : Thread nD τ).loc main_arg1)) (ix3 n cc K)

/-! ### Every pass reads the same features -/

theorem qF1 (c : Dev nD) (n : Fin 2) : PassOne.qF (V1 m) c n = aF m c n :=
  funext fun cc => funext fun Q => congrFun (V1_v24 m c) (ix3 n cc Q)
theorem kF1 (c : Dev nD) (n : Fin 2) : PassOne.kF (V1 m) c n = bF m c n :=
  funext fun cc => funext fun K => congrFun (V1_v25 m c) (ix3 n cc K)
theorem qF2 (c : Dev nD) (n : Fin 2) : PassTwo.qF (V2 m) c n = aF m c n :=
  funext fun cc => funext fun Q => congrFun ((V2_v24 m c).trans (V1_v24 m c)) (ix3 n cc Q)
theorem kF2 (c : Dev nD) (n : Fin 2) : PassTwo.kF (V2 m) c n = bF m c n :=
  funext fun cc => funext fun K => congrFun ((V2_v25 m c).trans (V1_v25 m c)) (ix3 n cc K)
theorem qF3 (c : Dev nD) (n : Fin 2) : PassThree.qF (V3 m) c n = aF m c n :=
  funext fun cc => funext fun Q => congrFun ((V3_v24 m c).trans (V1_v24 m c)) (ix3 n cc Q)
theorem kF3 (c : Dev nD) (n : Fin 2) : PassThree.kF (V3 m) c n = bF m c n :=
  funext fun cc => funext fun K => congrFun ((V3_v25 m c).trans (V1_v25 m c)) (ix3 n cc K)

/-! ### What each pass leaves -/

/-- Pass one leaves each query's least distance to the keys. -/
theorem v26 (c : Dev nD) (n : Fin 2) (Q : Fin 9216) :
    V2 m c main_v26 (ix3 n Q (0 : Fin 1)) = Cert.Contextual.dmin (aF m c n) (bF m c n) Q := by
  rw [V2_v26, PassOne.final]
  show PassOne.dminAt (V1 m) c n.val Q.val = _
  unfold PassOne.dminAt
  rw [dif_pos ⟨n.isLt, Q.isLt⟩]
  show Cert.Contextual.dmin (PassOne.qF (V1 m) c n) (PassOne.kF (V1 m) c n) Q = _
  rw [qF1, kF1]

theorem dF2 (c : Dev nD) (n : Fin 2) : PassTwo.dF (V2 m) c n = Cert.Contextual.dmin (aF m c n) (bF m c n) :=
  funext fun Q => v26 m c n Q

/-- Pass two leaves each query's sum of weights (from the zero word). -/
theorem v27 (c : Dev nD) (n : Fin 2) (Q : Fin 9216) :
    V3 m c main_v27 (ix3 n Q (0 : Fin 1))
      = Cert.Contextual.zero + Cert.Contextual.wsum
          (Cert.Contextual.wgt (Cert.Contextual.dmin (aF m c n) (bF m c n)) (aF m c n) (bF m c n)) Q := by
  rw [V3_v27, PassTwo.final]
  show PassTwo.wsumAt (V2 m) c n.val Q.val = _
  unfold PassTwo.wsumAt
  rw [dif_pos ⟨n.isLt, Q.isLt⟩]
  show Cert.Contextual.zero + Cert.Contextual.wsum (Cert.Contextual.wgt (PassTwo.dF (V2 m) c n) (PassTwo.qF (V2 m) c n)
    (PassTwo.kF (V2 m) c n)) Q = _
  rw [qF2, kF2, dF2]

theorem dF3 (c : Dev nD) (n : Fin 2) : PassThree.dF (V3 m) c n = Cert.Contextual.dmin (aF m c n) (bF m c n) :=
  funext fun Q => (congrFun (V3_v26 m c) (ix3 n Q (0 : Fin 1))).trans (v26 m c n Q)

theorem sF3 (c : Dev nD) (n : Fin 2) :
    PassThree.sF (V3 m) c n = Cert.Contextual.wsum
      (Cert.Contextual.wgt (Cert.Contextual.dmin (aF m c n) (bF m c n)) (aF m c n) (bF m c n)) :=
  funext fun Q => (v27 m c n Q).trans (Cert.Contextual.zero_word_add _)

/-- Pass three leaves the first spelling of the contextual similarity. -/
theorem v28 (c : Dev nD) (n : Fin 2) (K : Fin 9216) :
    W4 m c (Proc.devRef .tc main_v28) (ix3 n (0 : Fin 1) K) = Cert.Contextual.sim (aF m c n) (bF m c n) K := by
  rw [W4_v28, PassThree.final]
  show PassThree.cmaxAt (V3 m) c n.val K.val = _
  unfold PassThree.cmaxAt
  rw [dif_pos ⟨n.isLt, K.isLt⟩]
  show Cert.Contextual.cmax (Cert.Contextual.wgt (PassThree.dF (V3 m) c n) (PassThree.qF (V3 m) c n) (PassThree.kF (V3 m) c n))
    (PassThree.sF (V3 m) c n) K = _
  rw [qF3, kF3, dF3, sF3]
  rfl

/-! ### The result -/

/-- **The kernel program's result.** -/
theorem result (c : Dev nD) :
    W5 m c (Proc.devRef .tc main_v38)
      = fun _ => HostOps.TailK (fun (n : Fin 2) (k : Fin 9216) => Cert.Contextual.sim (aF m c n) (bF m c n) k) := by
  haveI : Subsingleton S_.Idx := ⟨fun a b => funext fun d => d.elim0⟩
  funext i
  obtain rfl : i = ix0 := Subsingleton.elim _ _
  rw [W5_v38]
  refine (HostOps.tail_apply _).trans ?_
  exact congrArg HostOps.TailK (funext fun (n : Fin 2) => funext fun (k : Fin 9216) => v28 m c n k)

end Cert.KernelIdeal.Whole

end
-- ==== Proof.RefMid.lean ====
/-
  The reference program's middle section, read index by index.

  Write `xn`, `yn` for the two channel-normalised feature arrays (shape [2, 256, 9216]) the reference forms first.
  For a batch entry `n` put `a c q = xn (n, c, q)` and `b c k = yn (n, c, k)`. The reference then computes, in order,
  the cosine distances `1 − Σ_c a c q · b c k`, their minimum over the keys `k` from +∞, the weights
  `exp ((1 − dist / (dmin + ε)) / ½)`, their sum over the keys from 0, the normalised weights, and the maximum of those
  over the queries `q` from −∞. Each stage below is read at an index and identified with the corresponding
  function of `Cert.Contextual`; the last one is `Cert.Contextual.sim'`.
-/
import proofs.«155866_j66176856097431_1_alg».proof.Proof.Gen.ReferenceIdeal.Read
import proofs.«155866_j66176856097431_1_alg».proof.Proof.Contextual

noncomputable section

namespace Cert.ReferenceIdeal.RefValue

open Cert.ReferenceIdeal Cert.ReferenceIdeal.Gen Cert.ReferenceIdeal.Read Idealize.ShloMosaic Idealize.ShloMosaic.ValueIdx

variable (x0 x1 : (⟨S2x256x96x96, .f32⟩ : BufTy).Contents (Elt Ideal))

/-- The queries' feature vectors of batch entry `n`: channel `c` of position `q` of the first normalised array. -/
def qry (n : Fin 2) (c : Fin 256) (q : Fin 9216) : EReal := val_main_v18 (F := Ideal) x0 x1 (ix3 n c q)

/-- The keys' feature vectors of batch entry `n`: channel `c` of position `k` of the second normalised array. -/
def key (n : Fin 2) (c : Fin 256) (k : Fin 9216) : EReal := val_main_v19 (F := Ideal) x1 (ix3 n c k)

/-- The distance array at (n, q, k) is the cosine distance of query `q` and key `k`. -/
theorem v22_apply (n : Fin 2) (q k : Fin 9216) :
    val_main_v22 (F := Ideal) x0 x1 (ix3 n q k) = Contextual.dist (qry x0 x1 n) (key x1 n) q k := by
  rw [val_main_v22_apply, val_main_v21_apply, val_main_cst_3_apply, val_main_v20_apply]
  simp only [Ideal.subf_def, Ideal.ofBits_def]
  unfold Contextual.dist qry key
  refine congrArg (Contextual.one - ·) (Finset.sum_congr rfl fun c _ => ?_)
  have el : lidx_main_v20 (ix3 n q k) c = ix3 n c q := funext fun a => Fin.ext (by
    match a with | ⟨0, _⟩ => rfl | ⟨1, _⟩ => rfl | ⟨2, _⟩ => rfl)
  have er : ridx_main_v20 (ix3 n q k) c = ix3 n c k := funext fun a => Fin.ext (by
    match a with | ⟨0, _⟩ => rfl | ⟨1, _⟩ => rfl | ⟨2, _⟩ => rfl)
  rw [el, er]

/-- A fold over `Fin m` of a function that factors through the identification of `Fin m` with `Fin n` (for `m = n`)
    is the fold over `Fin n`. -/
theorem fold_univ_cast {α : Type} {m n : Nat} (e : m = n) (op : α → α → α) [Std.Commutative op] [Std.Associative op]
    (b : α) (f : Fin n → α) :
    (Finset.univ : Finset (Fin m)).fold op b (fun k => f (Fin.cast e k)) = (Finset.univ : Finset (Fin n)).fold op b f := by
  subst e; rfl

/-- Inserting the key coordinate `k` on the last axis of the result index (n, q) gives (n, q, k). -/
theorem lift_d2 (h : S2x9216x9216.Reduces [2] S2x9216) (n : Fin 2) (q : Fin 9216) (k : Fin (S2x9216x9216.size 2)) :
    h.lift (ix2 n q) k = ix3 n q (⟨k.val, k.isLt⟩ : Fin 9216) := by
  funext c; apply Fin.ext
  match c with | ⟨0, _⟩ => rfl | ⟨1, _⟩ => rfl | ⟨2, _⟩ => rfl

/-- Inserting the query coordinate `q` on the middle axis of the result index (n, k) gives (n, q, k). -/
theorem lift_d1 (h : S2x9216x9216.Reduces [1] S2x9216) (n : Fin 2) (k : Fin 9216) (q : Fin (S2x9216x9216.size 1)) :
    h.lift (ix2 n k) q = ix3 n (⟨q.val, q.isLt⟩ : Fin 9216) k := by
  funext c; apply Fin.ext
  match c with | ⟨0, _⟩ => rfl | ⟨1, _⟩ => rfl | ⟨2, _⟩ => rfl

theorem sz2 : S2x9216x9216.size 2 = 9216 := rfl
theorem sz1 : S2x9216x9216.size 1 = 9216 := rfl

/-- The distance array at the index over (n, q) with key coordinate `k` inserted. -/
theorem v22_lift (hR : S2x9216x9216.Reduces [2] S2x9216) (n : Fin 2) (q : Fin 9216) (k : Fin (S2x9216x9216.size 2)) :
    val_main_v22 (F := Ideal) x0 x1 (hR.lift (ix2 n q) k)
      = Contextual.dist (qry x0 x1 n) (key x1 n) q (Fin.cast sz2 k) := by
  rw [lift_d2, v22_apply]
  rfl

/-- The reduce with a minimum body, at (n, q), is the least distance from query `q` to a key, from +∞. -/
theorem v23_apply (n : Fin 2) (q : Fin 9216) :
    val_main_v23 (F := Ideal) x0 x1 (ix2 n q) = Contextual.dmin (qry x0 x1 n) (key x1 n) q := by
  unfold val_main_v23
  have hR : S2x9216x9216.Reduces [2] S2x9216 := by decide
  rw [Host.reduce_eq_fold_single FloatOps.minimumf _ _ reducesTo_S2x9216x9216_S2x9216_d2 hR h_S_]
  have hf : (val_main_v22 (F := Ideal) x0 x1 ∘ hR.lift (ix2 n q))
      = fun (k : Fin (S2x9216x9216.size 2)) => Contextual.dist (qry x0 x1 n) (key x1 n) q (Fin.cast sz2 k) :=
    funext fun k => (Function.comp_apply).trans (v22_lift x0 x1 hR n q k)
  rw [hf]
  exact fold_univ_cast (m := S2x9216x9216.size 2) (n := 9216) sz2 min Contextual.pinf
    (fun k => Contextual.dist (qry x0 x1 n) (key x1 n) q k)

/-- The weight array at (n, q, k) is the second spelling's weight of key `k` for query `q`. -/
theorem v33_apply (n : Fin 2) (q k : Fin 9216) :
    val_main_v33 (F := Ideal) x0 x1 (ix3 n q k)
      = Contextual.wgt' (Contextual.dmin (qry x0 x1 n) (key x1 n)) (qry x0 x1 n) (key x1 n) q k := by
  rw [val_main_v33_apply, val_main_v32_apply, val_main_v31_apply, val_main_cst_7_apply, val_main_v30_apply,
    val_main_v29_apply, val_main_cst_6_apply, val_main_v28_apply, val_main_v27_apply, val_main_v26_apply,
    val_main_v24_apply, val_main_v25_apply, val_main_cst_5_apply]
  have hi : idx_main_v24 (idx_main_v27 (ix3 n q k)) = ix2 n q := funext fun a => Fin.ext (by
    match a with | ⟨0, _⟩ => rfl | ⟨1, _⟩ => rfl)
  rw [hi, v23_apply, v22_apply]
  simp only [Ideal.hostDivf_def, Ideal.subf_def, Ideal.addf_def, Ideal.hostUnary_exp_def, Ideal.ofBits_def]
  rfl

/-- The sum over the keys, from the zero word, at (n, q) is the normaliser of query `q`. -/
theorem v34_apply (n : Fin 2) (q : Fin 9216) :
    val_main_v34 (F := Ideal) x0 x1 (ix2 n q)
      = Contextual.wsum (Contextual.wgt' (Contextual.dmin (qry x0 x1 n) (key x1 n)) (qry x0 x1 n) (key x1 n)) q := by
  rw [val_main_v34_apply, val_main_cst_8_apply]
  simp only [Ideal.ofBits_def]
  rw [Ideal.ofBits_zero_f32, zero_add]
  unfold Contextual.wsum
  refine Finset.sum_congr rfl fun k _ => ?_
  have hi : idx_main_v34 (ix2 n q) k = ix3 n q k := funext fun a => Fin.ext (by
    match a with | ⟨0, _⟩ => rfl | ⟨1, _⟩ => rfl | ⟨2, _⟩ => rfl)
  rw [hi, v33_apply]

/-- The normalised weight array at (n, q, k). -/
theorem v37_apply (n : Fin 2) (q k : Fin 9216) :
    val_main_v37 (F := Ideal) x0 x1 (ix3 n q k)
      = Ideal.div (Contextual.wgt' (Contextual.dmin (qry x0 x1 n) (key x1 n)) (qry x0 x1 n) (key x1 n) q k)
          (Contextual.wsum (Contextual.wgt' (Contextual.dmin (qry x0 x1 n) (key x1 n)) (qry x0 x1 n) (key x1 n)) q) := by
  rw [val_main_v37_apply, val_main_v36_apply, val_main_v35_apply]
  have hi : idx_main_v35 (idx_main_v36 (ix3 n q k)) = ix2 n q := funext fun a => Fin.ext (by
    match a with | ⟨0, _⟩ => rfl | ⟨1, _⟩ => rfl)
  rw [hi, v34_apply, v33_apply]
  rfl

/-- The normalised weight array at the index over (n, k) with query coordinate `q` inserted. -/
theorem v37_lift (hR : S2x9216x9216.Reduces [1] S2x9216) (n : Fin 2) (k : Fin 9216) (q : Fin (S2x9216x9216.size 1)) :
    val_main_v37 (F := Ideal) x0 x1 (hR.lift (ix2 n k) q)
      = Ideal.div (Contextual.wgt' (Contextual.dmin (qry x0 x1 n) (key x1 n)) (qry x0 x1 n) (key x1 n) (Fin.cast sz1 q) k)
          (Contextual.wsum (Contextual.wgt' (Contextual.dmin (qry x0 x1 n) (key x1 n)) (qry x0 x1 n) (key x1 n)) (Fin.cast sz1 q)) := by
  rw [lift_d1, v37_apply]
  rfl

/-- The reduce with a maximum body over the queries, from −∞, at (n, k), is the second spelling's similarity of key `k`. -/
theorem v38_apply (n : Fin 2) (k : Fin 9216) :
    val_main_v38 (F := Ideal) x0 x1 (ix2 n k) = Contextual.sim' (qry x0 x1 n) (key x1 n) k := by
  unfold val_main_v38
  have hR : S2x9216x9216.Reduces [1] S2x9216 := by decide
  rw [Host.reduce_eq_fold_single FloatOps.maximumf _ _ reducesTo_S2x9216x9216_S2x9216_d1 hR h_S_]
  have hf : (val_main_v37 (F := Ideal) x0 x1 ∘ hR.lift (ix2 n k))
      = fun (q : Fin (S2x9216x9216.size 1)) =>
          Ideal.div (Contextual.wgt' (Contextual.dmin (qry x0 x1 n) (key x1 n)) (qry x0 x1 n) (key x1 n) (Fin.cast sz1 q) k)
            (Contextual.wsum (Contextual.wgt' (Contextual.dmin (qry x0 x1 n) (key x1 n)) (qry x0 x1 n) (key x1 n)) (Fin.cast sz1 q)) :=
    funext fun q => (Function.comp_apply).trans (v37_lift x0 x1 hR n k q)
  rw [hf]
  exact fold_univ_cast (m := S2x9216x9216.size 1) (n := 9216) sz1 max Contextual.ninf
    (fun q => Ideal.div (Contextual.wgt' (Contextual.dmin (qry x0 x1 n) (key x1 n)) (qry x0 x1 n) (key x1 n) q k)
      (Contextual.wsum (Contextual.wgt' (Contextual.dmin (qry x0 x1 n) (key x1 n)) (qry x0 x1 n) (key x1 n)) q))

end Cert.ReferenceIdeal.RefValue

end
-- ==== Proof.RefPre.lean ====
/-
  The reference program's first section, read index by index.

  The reference subtracts from both inputs the per-channel mean `μ c` of the second input (its sum over batch, height
  and width divided by 18432), divides each centred array by its Euclidean norm over the channels, floored at the
  word 0x2B8CBCCC (about 10⁻¹²), and flattens the two spatial axes: position `p` of the flattened axis is
  (height p / 96, width p % 96).
-/
import proofs.«155866_j66176856097431_1_alg».proof.Proof.RefMid

noncomputable section

namespace Cert.ReferenceIdeal.RefValue

open Cert.ReferenceIdeal Cert.ReferenceIdeal.Gen Cert.ReferenceIdeal.Read Idealize.ShloMosaic Idealize.ShloMosaic.ValueIdx

variable (x0 x1 : (⟨S2x256x96x96, .f32⟩ : BufTy).Contents (Elt Ideal))

/-- The mean of channel `c` of the second input: its sum over the other three axes divided by 18432. -/
def mu (c : Fin 256) : EReal :=
  Ideal.div (val_main_v0 (F := Ideal) x1 (ix1 c)) (Ideal.ofBits .f32 0x46900000#32)

/-- The floor of the norms. -/
abbrev tiny : EReal := Ideal.ofBits .f32 0x2B8CBCCC#32

/-- The first input, centred. -/
def zx (n : Fin 2) (c : Fin 256) (h w : Fin 96) : EReal := x0 (ix4 n c h w) - mu x1 c

/-- The second input, centred. -/
def zy (n : Fin 2) (c : Fin 256) (h w : Fin 96) : EReal := x1 (ix4 n c h w) - mu x1 c

theorem v3_apply (c : Fin 256) :
    val_main_v3 (F := Ideal) x1 (ix4 (0 : Fin 1) c (0 : Fin 1) (0 : Fin 1)) = mu x1 c := by
  rw [val_main_v3_apply, val_main_v1_apply, val_main_v2_apply, val_main_cst_0_apply]
  have hi : idx_main_v1 (ix4 (0 : Fin 1) c (0 : Fin 1) (0 : Fin 1)) = ix1 c := funext fun a => Fin.ext (by
    match a with | ⟨0, _⟩ => rfl)
  rw [hi]
  rfl

theorem v5_apply (n : Fin 2) (c : Fin 256) (h w : Fin 96) :
    val_main_v5 (F := Ideal) x0 x1 (ix4 n c h w) = zx x0 x1 n c h w := by
  rw [val_main_v5_apply, val_main_v4_apply]
  have hi : idx_main_v4 (ix4 n c h w) = ix4 (0 : Fin 1) c (0 : Fin 1) (0 : Fin 1) := funext fun a => Fin.ext (by
    match a with | ⟨0, _⟩ => rfl | ⟨1, _⟩ => rfl | ⟨2, _⟩ => rfl | ⟨3, _⟩ => rfl)
  rw [hi, v3_apply]
  rfl

theorem v7_apply (n : Fin 2) (c : Fin 256) (h w : Fin 96) :
    val_main_v7 (F := Ideal) x1 (ix4 n c h w) = zy x1 n c h w := by
  rw [val_main_v7_apply, val_main_v6_apply]
  have hi : idx_main_v6 (ix4 n c h w) = ix4 (0 : Fin 1) c (0 : Fin 1) (0 : Fin 1) := funext fun a => Fin.ext (by
    match a with | ⟨0, _⟩ => rfl | ⟨1, _⟩ => rfl | ⟨2, _⟩ => rfl | ⟨3, _⟩ => rfl)
  rw [hi, v3_apply]
  rfl

/-- The floored channel norm of the centred first input at (n, h, w). -/
theorem v10_apply (n : Fin 2) (h w : Fin 96) :
    val_main_v10 (F := Ideal) x0 x1 (ix4 n (0 : Fin 1) h w)
      = max (Ideal.sqrt (∑ c : Fin 256, zx x0 x1 n c h w * zx x0 x1 n c h w)) tiny := by
  rw [val_main_v10_apply, val_main_v9_apply, val_main_cst_1_apply, val_main_v8_apply, val_main_call0_v2_apply,
    val_main_call0_v1_apply, val_main_call0_cst_apply]
  simp only [Ideal.maximumf_def, Ideal.hostUnary_sqrt_def, Ideal.ofBits_def]
  rw [Ideal.ofBits_zero_f32, zero_add]
  have hs : (∑ c : Fin 256, val_main_call0_v0 (F := Ideal) x0 x1
        (idx_main_call0_v1 (idx_main_call0_v2 (ix4 n (0 : Fin 1) h w)) c))
      = ∑ c : Fin 256, zx x0 x1 n c h w * zx x0 x1 n c h w :=
    Finset.sum_congr rfl fun c _ => by
      have hi : idx_main_call0_v1 (idx_main_call0_v2 (ix4 n (0 : Fin 1) h w)) c = ix4 n c h w :=
        funext fun a => Fin.ext (by
          match a with | ⟨0, _⟩ => rfl | ⟨1, _⟩ => rfl | ⟨2, _⟩ => rfl | ⟨3, _⟩ => rfl)
      rw [hi, val_main_call0_v0_apply, v5_apply]
      rfl
  rw [hs]

/-- The floored channel norm of the centred second input at (n, h, w). -/
theorem v15_apply (n : Fin 2) (h w : Fin 96) :
    val_main_v15 (F := Ideal) x1 (ix4 n (0 : Fin 1) h w)
      = max (Ideal.sqrt (∑ c : Fin 256, zy x1 n c h w * zy x1 n c h w)) tiny := by
  rw [val_main_v15_apply, val_main_v14_apply, val_main_cst_2_apply, val_main_v13_apply, val_main_call1_v2_apply,
    val_main_call1_v1_apply, val_main_call1_cst_apply]
  simp only [Ideal.maximumf_def, Ideal.hostUnary_sqrt_def, Ideal.ofBits_def]
  rw [Ideal.ofBits_zero_f32, zero_add]
  have hs : (∑ c : Fin 256, val_main_call1_v0 (F := Ideal) x1
        (idx_main_call1_v1 (idx_main_call1_v2 (ix4 n (0 : Fin 1) h w)) c))
      = ∑ c : Fin 256, zy x1 n c h w * zy x1 n c h w :=
    Finset.sum_congr rfl fun c _ => by
      have hi : idx_main_call1_v1 (idx_main_call1_v2 (ix4 n (0 : Fin 1) h w)) c = ix4 n c h w :=
        funext fun a => Fin.ext (by
          match a with | ⟨0, _⟩ => rfl | ⟨1, _⟩ => rfl | ⟨2, _⟩ => rfl | ⟨3, _⟩ => rfl)
      rw [hi, val_main_call1_v0_apply, v7_apply]
      rfl
  rw [hs]

/-- The first normalised array before flattening, at (n, c, h, w). -/
theorem v12_apply (n : Fin 2) (c : Fin 256) (h w : Fin 96) :
    val_main_v12 (F := Ideal) x0 x1 (ix4 n c h w)
      = Ideal.div (zx x0 x1 n c h w) (max (Ideal.sqrt (∑ c' : Fin 256, zx x0 x1 n c' h w * zx x0 x1 n c' h w)) tiny) := by
  rw [val_main_v12_apply, val_main_v11_apply]
  have hi : idx_main_v11 (ix4 n c h w) = ix4 n (0 : Fin 1) h w := funext fun a => Fin.ext (by
    match a with | ⟨0, _⟩ => rfl | ⟨1, _⟩ => rfl | ⟨2, _⟩ => rfl | ⟨3, _⟩ => rfl)
  rw [hi, v10_apply, v5_apply]
  rfl

/-- The second normalised array before flattening, at (n, c, h, w). -/
theorem v17_apply (n : Fin 2) (c : Fin 256) (h w : Fin 96) :
    val_main_v17 (F := Ideal) x1 (ix4 n c h w)
      = Ideal.div (zy x1 n c h w) (max (Ideal.sqrt (∑ c' : Fin 256, zy x1 n c' h w * zy x1 n c' h w)) tiny) := by
  rw [val_main_v17_apply, val_main_v16_apply]
  have hi : idx_main_v16 (ix4 n c h w) = ix4 n (0 : Fin 1) h w := funext fun a => Fin.ext (by
    match a with | ⟨0, _⟩ => rfl | ⟨1, _⟩ => rfl | ⟨2, _⟩ => rfl | ⟨3, _⟩ => rfl)
  rw [hi, v15_apply, v7_apply]
  rfl

/-- Height and width of a flattened position. -/
def hOf (p : Fin 9216) : Fin 96 := ⟨p.val / 96, by have := p.isLt; omega⟩
def wOf (p : Fin 9216) : Fin 96 := ⟨p.val % 96, by omega⟩

/-- Position `p` of the flattened array is (p / 96, p % 96) of the four-dimensional one. -/
theorem idx18 (n : Fin 2) (c : Fin 256) (p : Fin 9216) :
    idx_main_v18 (ix3 n c p) = ix4 n c (hOf p) (wOf p) := funext fun a => Fin.ext (by
  have hn := n.isLt; have hc := c.isLt; have hp := p.isLt
  match a with
  | ⟨0, _⟩ => show ((n.val * 256 + c.val) * 9216 + p.val) / 2359296 = n.val; omega
  | ⟨1, _⟩ => show ((n.val * 256 + c.val) * 9216 + p.val) / 9216 % 256 = c.val; omega
  | ⟨2, _⟩ => show ((n.val * 256 + c.val) * 9216 + p.val) / 96 % 96 = p.val / 96; omega
  | ⟨3, _⟩ => show ((n.val * 256 + c.val) * 9216 + p.val) % 96 = p.val % 96; omega)

theorem idx19 (n : Fin 2) (c : Fin 256) (p : Fin 9216) :
    idx_main_v19 (ix3 n c p) = ix4 n c (hOf p) (wOf p) := idx18 n c p

/-- The first normalised array at (n, c, p). -/
theorem v18_apply (n : Fin 2) (c : Fin 256) (p : Fin 9216) :
    val_main_v18 (F := Ideal) x0 x1 (ix3 n c p)
      = Ideal.div (zx x0 x1 n c (hOf p) (wOf p))
          (max (Ideal.sqrt (∑ c' : Fin 256, zx x0 x1 n c' (hOf p) (wOf p) * zx x0 x1 n c' (hOf p) (wOf p))) tiny) := by
  rw [val_main_v18_apply, idx18, v12_apply]

/-- The second normalised array at (n, c, p). -/
theorem v19_apply (n : Fin 2) (c : Fin 256) (p : Fin 9216) :
    val_main_v19 (F := Ideal) x1 (ix3 n c p)
      = Ideal.div (zy x1 n c (hOf p) (wOf p))
          (max (Ideal.sqrt (∑ c' : Fin 256, zy x1 n c' (hOf p) (wOf p) * zy x1 n c' (hOf p) (wOf p))) tiny) := by
  rw [val_main_v19_apply, idx19, v17_apply]

end Cert.ReferenceIdeal.RefValue

end
-- ==== Proof.RefTail.lean ====
/-
  The reference program's last section, read as a function of the per-key similarities.

  From the array `m` of shape [2, 9216] (batch entry `n`, key `k`) the reference takes the mean over the keys
  (sum from 0, divided by 9216), adds ε, takes the logarithm, negates, sums over the two batch entries from 0 and
  divides by 2. `TailR` is that expression; the sums that start from the zero word are the plain sums, because the
  zero word denotes 0.
-/
import proofs.«155866_j66176856097431_1_alg».proof.Proof.RefMid

noncomputable section

namespace Cert.ReferenceIdeal.RefValue

open Cert.ReferenceIdeal Cert.ReferenceIdeal.Gen Cert.ReferenceIdeal.Read Idealize.ShloMosaic Idealize.ShloMosaic.ValueIdx

/-- The loss as a function of the per-key similarities `m n k`:
    `(Σ_n −log ((Σ_k m n k) / 9216 + ε)) / 2`, the literals being the extended reals their float words denote. -/
def TailR (m : Fin 2 → Fin 9216 → EReal) : EReal :=
  Ideal.div
    (∑ n : Fin 2, -(Ideal.log (Ideal.div (∑ k : Fin 9216, m n k) (Ideal.ofBits .f32 0x46100000#32) + Contextual.eps)))
    (Ideal.ofBits .f32 0x40000000#32)

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

/-- A sum over a rank-1 index set is the sum over the coordinate. -/
theorem sum_idx1 {M : Type} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

variable (x0 x1 : (⟨S2x256x96x96, .f32⟩ : BufTy).Contents (Elt Ideal))

/-- The negated logarithm at batch entry `n`. -/
theorem v45_apply (n : Fin 2) :
    val_main_v45 (F := Ideal) x0 x1 (ix1 n)
      = -(Ideal.log (Ideal.div (∑ k : Fin 9216, val_main_v38 (F := Ideal) x0 x1 (ix2 n k)) (Ideal.ofBits .f32 0x46100000#32)
          + Contextual.eps)) := by
  rw [val_main_v45_apply, val_main_v44_apply, val_main_v43_apply, val_main_v42_apply, val_main_cst_12_apply,
    val_main_v41_apply, val_main_v40_apply, val_main_cst_11_apply, val_main_v39_apply, val_main_cst_10_apply]
  simp only [Ideal.hostNegf_def, Ideal.negf_def, Ideal.hostUnary_log_def, Ideal.addf_def, Ideal.hostDivf_def, Ideal.ofBits_def]
  rw [Ideal.ofBits_zero_f32, zero_add]
  have hs : (∑ k : Fin 9216, val_main_v38 (F := Ideal) x0 x1 (idx_main_v39 (ix1 n) k))
      = ∑ k : Fin 9216, val_main_v38 (F := Ideal) x0 x1 (ix2 n k) :=
    Finset.sum_congr rfl fun k _ => congrArg (val_main_v38 (F := Ideal) x0 x1) (funext fun a => Fin.ext (by
      match a with | ⟨0, _⟩ => rfl | ⟨1, _⟩ => rfl))
  rw [hs]

/-- The reference's result is `TailR` of the per-key similarity array. -/
theorem v47_apply :
    val_main_v47 (F := Ideal) x0 x1 ix0 = TailR (fun n k => val_main_v38 (F := Ideal) x0 x1 (ix2 n k)) := by
  rw [val_main_v47_apply, val_main_cst_14_apply, val_main_v46_apply, val_main_cst_13_apply]
  simp only [Ideal.hostDivf_def, Ideal.ofBits_def]
  rw [Ideal.ofBits_zero_f32, zero_add, sum_idx1]
  unfold TailR
  refine congrArg (Ideal.div · _) (Finset.sum_congr rfl fun n _ => ?_)
  exact v45_apply x0 x1 n

/-- With the middle section read: the result is `TailR` of the second spelling's similarities of the two normalised arrays. -/
theorem v47_eq_sim' :
    val_main_v47 (F := Ideal) x0 x1 ix0 = TailR (fun n k => Contextual.sim' (qry x0 x1 n) (key x1 n) k) := by
  rw [v47_apply]
  exact congrArg TailR (funext fun n => funext fun k => v38_apply x0 x1 n k)

/-- The same as an equation of rank-0 arrays: the result array is constantly that value. -/
theorem v47_fun :
    val_main_v47 (F := Ideal) x0 x1 = fun _ => TailR (fun n k => Contextual.sim' (qry x0 x1 n) (key x1 n) k) :=
  funext fun i => by rw [eq_ix0 i]; exact v47_eq_sim' x0 x1

end Cert.ReferenceIdeal.RefValue

end
-- ==== Proof.RefBridge.lean ====
/-
  The kernel program's host operations and the reference's first and last sections are the same functions.

  Both programs centre the inputs by the per-channel mean of the second one, divide by the floored channel norm and
  flatten the spatial axes; both end by the same averaging of the per-key similarities. Read at an index the two
  sides are the same expressions, so the reference's normalised arrays are the kernel program's feature arrays.
-/
import proofs.«155866_j66176856097431_1_alg».proof.Proof.RefPre
import proofs.«155866_j66176856097431_1_alg».proof.Proof.RefTail
import proofs.«155866_j66176856097431_1_alg».proof.Proof.KernelHost

noncomputable section

namespace Cert.ReferenceIdeal.RefValue

open Cert.ReferenceIdeal Cert.ReferenceIdeal.Gen Cert.ReferenceIdeal.Read Idealize.ShloMosaic Idealize.ShloMosaic.ValueIdx

variable [Cert.KernelIdeal.Facts]
variable (x0 x1 : FVec Ideal Cert.ReferenceIdeal.S2x256x96x96 .f32)

/-- The two programs form the per-channel mean by the same operations. -/
theorem meanK_eq_mu (c : Fin 256) : Cert.KernelIdeal.HostOps.meanK x1 c = mu x1 c := by
  unfold Cert.KernelIdeal.HostOps.meanK Cert.KernelIdeal.HostOps.meanSum mu val_main_v0 val_main_cst
  rfl

theorem zK_eq_zx (n : Fin 2) (c : Fin 256) (h w : Fin 96) :
    Cert.KernelIdeal.HostOps.zK x0 x1 n c h w = zx x0 x1 n c h w := by
  unfold Cert.KernelIdeal.HostOps.zK zx
  rw [meanK_eq_mu]

theorem zK_eq_zy (n : Fin 2) (c : Fin 256) (h w : Fin 96) :
    Cert.KernelIdeal.HostOps.zK x1 x1 n c h w = zy x1 n c h w := by
  unfold Cert.KernelIdeal.HostOps.zK zy
  rw [meanK_eq_mu]

theorem hOf_eq (p : Fin 9216) : Cert.KernelIdeal.HostOps.hOf p = hOf p := rfl
theorem wOf_eq (p : Fin 9216) : Cert.KernelIdeal.HostOps.wOf p = wOf p := rfl

/-- The kernel program's query features are the reference's first normalised array. -/
theorem featX_eq (n : Fin 2) (c : Fin 256) (p : Fin 9216) :
    Cert.KernelIdeal.HostOps.featX x0 x1 (ix3 n c p) = val_main_v18 (F := Ideal) x0 x1 (ix3 n c p) := by
  rw [Cert.KernelIdeal.HostOps.featX_apply, v18_apply, hOf_eq, wOf_eq]
  simp only [zK_eq_zx]

/-- The kernel program's key features are the reference's second normalised array. -/
theorem featY_eq (n : Fin 2) (c : Fin 256) (p : Fin 9216) :
    Cert.KernelIdeal.HostOps.featY x0 x1 (ix3 n c p) = val_main_v19 (F := Ideal) x1 (ix3 n c p) := by
  rw [Cert.KernelIdeal.HostOps.featY_apply, v19_apply, hOf_eq, wOf_eq]
  simp only [zK_eq_zy]

/-- The reference's query vectors of batch entry `n` are the kernel program's. -/
theorem qry_eq_featX (n : Fin 2) :
    qry x0 x1 n = fun (c : Fin 256) (q : Fin 9216) => Cert.KernelIdeal.HostOps.featX x0 x1 (ix3 n c q) :=
  funext fun c => funext fun q => (featX_eq x0 x1 n c q).symm

/-- The reference's key vectors of batch entry `n` are the kernel program's. -/
theorem key_eq_featY (n : Fin 2) :
    key x1 n = fun (c : Fin 256) (k : Fin 9216) => Cert.KernelIdeal.HostOps.featY x0 x1 (ix3 n c k) :=
  funext fun c => funext fun k => (featY_eq x0 x1 n c k).symm

end Cert.ReferenceIdeal.RefValue

end
-- ==== Proof.RefBridgeTail.lean ====
/-
  The kernel program's operations after the passes and the reference's last section are the same function of the
  per-key similarities.
-/
import proofs.«155866_j66176856097431_1_alg».proof.Proof.RefTail
import proofs.«155866_j66176856097431_1_alg».proof.Proof.KernelTail

noncomputable section

namespace Cert.ReferenceIdeal.RefValue

open Idealize.ShloMosaic Idealize.ShloMosaic.ValueIdx

variable [Cert.KernelIdeal.Facts]

/-- The two closing expressions are the same. -/
theorem TailK_eq_TailR (m : Fin 2 → Fin 9216 → EReal) : Cert.KernelIdeal.HostOps.TailK m = TailR m := rfl

/-- The kernel program's result, from the third pass's output `v` (shape [2, 1, 9216]), is `TailR` of it. -/
theorem tail_eq_TailR (v : FVec Ideal Cert.KernelIdeal.S2x1x9216 .f32) :
    Cert.KernelIdeal.HostOps.tail v ix0 = TailR (fun (n : Fin 2) (k : Fin 9216) => v (ix3 n (0 : Fin 1) k)) :=
  (Cert.KernelIdeal.HostOps.tail_apply v).trans (TailK_eq_TailR _)

end Cert.ReferenceIdeal.RefValue

end
-- ==== Proof.FiniteInputs.lean ====
/-
  The precondition says every entry of both inputs is a real number.

  The predicate compares `|x|` with `+∞` entry by entry (strictly less), takes the conjunction over all entries of each
  input, and the conjunction of the two. On the extended reals `|a| = max a (−a)` is `+∞` exactly at the two infinities,
  so `|a| < +∞` says `a` is a real number.
-/
import proofs.«155866_j66176856097431_1_alg».proof.Proof.Gen.Pre_finite_inputs
import proofs.«155866_j66176856097431_1_alg».proof.Proof.Literals
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs Cert.Pre_finite_inputs.Facts

variable [Cert.Pre_finite_inputs.Facts]

/-- An extended real whose absolute value is below `+∞` is a real number. -/
theorem real_of_abs_lt_pinf (a : EReal)
    (h : Ideal.cmp .olt (max a (-a)) (Ideal.ofBits .f32 0x7F800000#32) = 1#1) : ∃ r : ℝ, a = (r : EReal) := by
  rw [Cert.Literals.ofBits_pinf] at h
  have h' : BitVec.ofBool (decide (max a (-a) < ⊤)) = 1#1 := h
  have hlt : max a (-a) < ⊤ := by
    by_contra hn
    rw [decide_eq_false hn] at h'
    exact absurd h' (by decide)
  induction a using EReal.rec with
  | bot => simp at hlt
  | coe r => exact ⟨r, rfl⟩
  | top => simp at hlt

/-- One input: if the conjunction over all entries of `|x| < +∞` holds, every entry is real. -/
theorem all_real (x : FVec Ideal S2x256x96x96 .f32)
    (h : Host.reduce IntOp.andi
        (cmpf .olt (Host.absf x)
          (broadcastInDim S2x256x96x96 ![] bcast_S_S2x256x96x96 (constant (F := Ideal) S_ .f32 0x7F800000#32)))
        (constantI S_ 1 1#1) reducesTo_S2x256x96x96_S_d0_1_2_3 h_S_ ix0 = 1#1) :
    ∀ i, ∃ r : ℝ, x i = (r : EReal) := by
  intro i
  haveI : Subsingleton S_.Idx := ⟨fun a b => funext fun d => d.elim0⟩
  have hi := Host.reduce_andi_all _ _ _ _ ix0 h i
  exact real_of_abs_lt_pinf (x i) hi

/-- **The precondition gives real inputs.** -/
theorem real_of_pre (x y : FVec Ideal S2x256x96x96 .f32)
    (h : Cert.Pre_finite_inputs.fn (F := Ideal) x y = (fun _ => 1#1)) :
    (∀ i, ∃ r : ℝ, x i = (r : EReal)) ∧ (∀ i, ∃ r : ℝ, y i = (r : EReal)) := by
  have h0 := congrFun h ix0
  dsimp only [Cert.Pre_finite_inputs.fn] at h0
  obtain ⟨h3, h7⟩ := IntOp.andi_eq_one.1 h0
  exact ⟨all_real x h3, all_real y h7⟩

end Cert.Pre_finite_inputs.Finite

end
-- ==== Proof.lean ====
/-
  The certificate of the three-pass contextual-similarity kernel against its reference.

  Frames: each kernel program is a run of five segments (host operations, three passes, host operations); each pass keeps a
  scratch accumulator across the six steps of its reduction axis, and its invariant carries the accumulator from point to
  point; the reference is a straight line of host operations.
  Values, over the extended reals: pass 1 leaves the least cosine distance of every query, pass 2 the sum over the keys of
  the exponential weights, pass 3 the maximum over the queries of the normalised weights; the reference spells the weights
  with the exponent shifted by the constant 2, which cancels in the normalisation because the least distance plus ε is
  never zero (Cauchy–Schwarz: normalised features have cosine distance at least zero).
-/
import proofs.«155866_j66176856097431_1_alg».proof.Defs
import proofs.«155866_j66176856097431_1_alg».proof.Proof.Gen.Kernel
import proofs.«155866_j66176856097431_1_alg».proof.Proof.Gen.KernelIdeal
import proofs.«155866_j66176856097431_1_alg».proof.Proof.Gen.ReferenceIdeal
import proofs.«155866_j66176856097431_1_alg».proof.Proof.Gen.Pre_finite_inputs
import proofs.«155866_j66176856097431_1_alg».proof.Proof.Gen.ReferenceIdeal.Run
import proofs.«155866_j66176856097431_1_alg».proof.Proof.KernelWhole
import proofs.«155866_j66176856097431_1_alg».proof.Proof.KernelIdealWhole
import proofs.«155866_j66176856097431_1_alg».proof.Proof.KernelResult
import proofs.«155866_j66176856097431_1_alg».proof.Proof.RefBridge
import proofs.«155866_j66176856097431_1_alg».proof.Proof.RefBridgeTail
import proofs.«155866_j66176856097431_1_alg».proof.Proof.FiniteInputs

noncomputable section

namespace Cert.Proof

open Idealize.ShloMosaic Idealize.SL.Sem

theorem frame_k : @Cert.frame_Kernel Cert.Kernel.Gen.facts Cert.Pre_finite_inputs.Gen.facts := fun m ρ _ => Cert.Kernel.Whole.frame (F := Bits) m ρ
theorem frame_ki : @Cert.frame_KernelIdeal Cert.KernelIdeal.Gen.facts Cert.Pre_finite_inputs.Gen.facts := fun m ρ _ => Cert.KernelIdeal.Whole.frame (F := Ideal) m ρ
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Over the extended reals the kernel's result and the reference's are one number: both are the same average of logarithms
    of the per-key maxima of normalised weights, the kernel's in the first spelling of the weights and the reference's in the
    second, and for finite inputs the two spellings agree (the features are normalised, so every cosine distance is a
    nonnegative real and the least distance plus ε is not zero). -/
theorem algebraic : @Cert.algebraic_KernelIdeal_ReferenceIdeal Cert.KernelIdeal.Gen.facts Cert.ReferenceIdeal.Gen.facts Cert.Pre_finite_inputs.Gen.facts := by
  haveI := Cert.KernelIdeal.Gen.facts
  haveI := Cert.ReferenceIdeal.Gen.facts
  haveI := Cert.Pre_finite_inputs.Gen.facts
  intro m ρ m' ρ' hpre hagree
  refine ⟨fun c => Cert.KernelIdeal.Whole.W5 m c (Proc.devRef .tc Cert.KernelIdeal.main_v38), ?_, ?_⟩
  · exact (θ_run Cert.KernelIdeal.defs _ _).mono (fun _ h c => ⟨h c Cert.KernelIdeal.main_v38 (by decide),
      (h c Cert.KernelIdeal.main_arg0 (by decide)).trans (Cert.KernelIdeal.Whole.W5_main_arg0 m c),
      (h c Cert.KernelIdeal.main_arg1 (by decide)).trans (Cert.KernelIdeal.Whole.W5_main_arg1 m c)⟩)
      (Cert.KernelIdeal.Whole.run_all (F := Ideal) m ρ)
  · refine (θ_run Cert.ReferenceIdeal.defs _ _).mono (fun _ h c => ⟨(h c).1.trans ?_, (h c).2⟩) (Cert.ReferenceIdeal.Value.run (F := Ideal) m' ρ')
    obtain ⟨hx, hy⟩ := Cert.Pre_finite_inputs.Finite.real_of_pre _ _ (hpre c)
    rw [Cert.ReferenceIdeal.Read.val_main_v47_eq, (hagree c).1, (hagree c).2, Cert.ReferenceIdeal.RefValue.v47_fun]
    beta_reduce
    rw [Cert.KernelIdeal.Whole.result m c]
    funext _
    rw [Cert.ReferenceIdeal.RefValue.TailK_eq_TailR]
    refine congrArg Cert.ReferenceIdeal.RefValue.TailR (funext fun n => funext fun k => ?_)
    rw [Cert.ReferenceIdeal.RefValue.qry_eq_featX, Cert.ReferenceIdeal.RefValue.key_eq_featY]
    unfold Cert.KernelIdeal.Whole.aF Cert.KernelIdeal.Whole.bF
    exact (congrFun (Cert.KernelIdeal.HostOps.sim_feat_eq _ _ hx hy n) k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
